-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S2x300000 : Shape := ⟨2, ![2, 300000]⟩
abbrev S101x256 : Shape := ⟨2, ![101, 256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S_ : Shape := ⟨0, ![]⟩

class Facts : Prop where
  bcast_S_S101x256 : S_.BroadcastsInDim S101x256 (![] : Fin 0 → Fin S101x256.rank)
  reducesTo_S101x256_S_d0_1 : S101x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : IVec S20000 32) (main_arg1 : IVec S2x300000 32) (main_arg2 : IVec S20000 32) (main_arg3 : FVec F S101x256 .f32) (main_arg4 : FVec F S4x256x256 .f32) (main_arg5 : FVec F S4x256 .f32) (main_arg6 : FVec F S256x1 .f32) (main_arg7 : FVec F S1 .f32) : IVec S_ 1 :=
  let main_v0 : FVec F S101x256 .f32 := Host.absf main_arg3
  let main_cst : FVec F S_ .f32 := constant S_ .f32 0x7F800000#32
  let main_v1 : FVec F S101x256 .f32 := broadcastInDim S101x256 ![] bcast_S_S101x256 main_cst
  let main_v2 : IVec S101x256 1 := cmpf .olt main_v0 main_v1
  let main_c : IVec S_ 1 := constantI S_ 1 1#1
  let main_v3 : IVec S_ 1 := (fun x v => Host.reduce IntOp.andi x v reducesTo_S101x256_S_d0_1 h_S_) main_v2 main_c
  let main_v4 : FVec F S4x256x256 .f32 := Host.absf main_arg4
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256 .f32 := Host.absf main_arg5
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S256x1 .f32 := Host.absf main_arg6
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg7 main_v13 main_v16
-- ==== Kernel.lean ====
abbrev S20000 : Shape := ⟨1, ![20000]⟩
abbrev S2x300000 : Shape := ⟨2, ![2, 300000]⟩
abbrev S101x256 : Shape := ⟨2, ![101, 256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S20000x1 : Shape := ⟨2, ![20000, 1]⟩
abbrev S20000x256 : Shape := ⟨2, ![20000, 256]⟩
abbrev S1x256x256 : Shape := ⟨3, ![1, 256, 256]⟩
abbrev S256x256 : Shape := ⟨2, ![256, 256]⟩
abbrev S2000x256 : Shape := ⟨2, ![2000, 256]⟩
abbrev S2000x1 : Shape := ⟨2, ![2000, 1]⟩
abbrev S300000x256 : Shape := ⟨2, ![300000, 256]⟩
abbrev S1x256 : Shape := ⟨2, ![1, 256]⟩
abbrev S256 : Shape := ⟨1, ![256]⟩
abbrev S64 : Shape := ⟨1, ![64]⟩
abbrev S64x256 : Shape := ⟨2, ![64, 256]⟩
abbrev S64x1 : Shape := ⟨2, ![64, 1]⟩
abbrev S1x1 : Shape := ⟨2, ![1, 1]⟩

abbrev nBuf : Space → Nat
  | .hbm => 167
  | .vmem => 28
  | .smem => 0
  | _ => 0

abbrev hbmTy0_0 (i : Nat) : BufTy := match i % 128 with
  | 0 => ⟨S20000, .i32⟩
  | 1 => ⟨S2x300000, .i32⟩
  | 2 => ⟨S20000, .i32⟩
  | 3 => ⟨S101x256, .f32⟩
  | 4 => ⟨S4x256x256, .f32⟩
  | 5 => ⟨S4x256, .f32⟩
  | 6 => ⟨S256x1, .f32⟩
  | 7 => ⟨S1, .f32⟩
  | 8 => ⟨S1x300000, .i32⟩
  | 9 => ⟨S300000, .i32⟩
  | 10 => ⟨S1x300000, .i32⟩
  | 11 => ⟨S300000, .i32⟩
  | 12 => ⟨S_, .f32⟩
  | 13 => ⟨S300000, .f32⟩
  | 14 => ⟨S_, .f32⟩
  | 15 => ⟨S20000, .f32⟩
  | 16 => ⟨S300000x1, .i32⟩
  | 17 => ⟨S20000, .f32⟩
  | 18 => ⟨S_, .f32⟩
  | 19 => ⟨S20000, .f32⟩
  | 20 => ⟨S20000, .f32⟩
  | 21 => ⟨S_, .f32⟩
  | 22 => ⟨S20000, .f32⟩
  | 23 => ⟨S20000, .f32⟩
  | 24 => ⟨S20000, .f32⟩
  | 25 => ⟨S20000x1, .f32⟩
  | 26 => ⟨S_, .i32⟩
  | 27 => ⟨S20000, .i32⟩
  | 28 => ⟨S20000, .i1⟩
  | 29 => ⟨S_, .i32⟩
  | 30 => ⟨S20000, .i32⟩
  | 31 => ⟨S20000, .i32⟩
  | 32 => ⟨S20000, .i32⟩
  | 33 => ⟨S20000x1, .i32⟩
  | 34 => ⟨S20000x256, .f32⟩
  | 35 => ⟨S1x256x256, .f32⟩
  | 36 => ⟨S256x256, .f32⟩
  | 37 => ⟨S20000x256, .f32⟩
  | 38 => ⟨S_, .i32⟩
  | 39 => ⟨S300000, .i32⟩
  | 40 => ⟨S300000, .i1⟩
  | 41 => ⟨S_, .i32⟩
  | 42 => ⟨S300000, .i32⟩
  | 43 => ⟨S300000, .i32⟩
  | 44 => ⟨S300000, .i32⟩
  | 45 => ⟨S300000x1, .i32⟩
  | 46 => ⟨S300000x256, .f32⟩
  | 47 => ⟨S_, .f32⟩
  | 48 => ⟨S20000x256, .f32⟩
  | 49 => ⟨S300000x1, .i32⟩
  | 50 => ⟨S20000x256, .f32⟩
  | 51 => ⟨S20000x256, .f32⟩
  | 52 => ⟨S20000x256, .f32⟩
  | 53 => ⟨S20000x256, .f32⟩
  | 54 => ⟨S1x256, .f32⟩
  | 55 => ⟨S256, .f32⟩
  | 56 => ⟨S1x256, .f32⟩
  | 57 => ⟨S20000x256, .f32⟩
  | 58 => ⟨S20000x256, .f32⟩
  | 59 => ⟨S20000x256, .f32⟩
  | 60 => ⟨S_, .f32⟩
  | 61 => ⟨S20000x256, .f32⟩
  | 62 => ⟨S20000x256, .f32⟩
  | 63 => ⟨S1x256x256, .f32⟩
  | 64 => ⟨S256x256, .f32⟩
  | 65 => ⟨S20000x256, .f32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S300000x256, .f32⟩
  | 75 => ⟨S_, .f32⟩
  | 76 => ⟨S20000x256, .f32⟩
  | 77 => ⟨S300000x1, .i32⟩
  | 78 => ⟨S20000x256, .f32⟩
  | 79 => ⟨S20000x256, .f32⟩
  | 80 => ⟨S20000x256, .f32⟩
  | 81 => ⟨S20000x256, .f32⟩
  | 82 => ⟨S1x256, .f32⟩
  | 83 => ⟨S256, .f32⟩
  | 84 => ⟨S1x256, .f32⟩
  | 85 => ⟨S20000x256, .f32⟩
  | 86 => ⟨S20000x256, .f32⟩
  | 87 => ⟨S20000x256, .f32⟩
  | 88 => ⟨S_, .f32⟩
  | 89 => ⟨S20000x256, .f32⟩
  | 90 => ⟨S20000x256, .f32⟩
  | 91 => ⟨S1x256x256, .f32⟩
  | 92 => ⟨S256x256, .f32⟩
  | 93 => ⟨S20000x256, .f32⟩
  | 94 => ⟨S_, .i32⟩
  | 95 => ⟨S300000, .i32⟩
  | 96 => ⟨S300000, .i1⟩
  | 97 => ⟨S_, .i32⟩
  | 98 => ⟨S300000, .i32⟩
  | 99 => ⟨S300000, .i32⟩
  | 100 => ⟨S300000, .i32⟩
  | 101 => ⟨S300000x1, .i32⟩
  | 102 => ⟨S300000x256, .f32⟩
  | 103 => ⟨S_, .f32⟩
  | 104 => ⟨S20000x256, .f32⟩
  | 105 => ⟨S300000x1, .i32⟩
  | 106 => ⟨S20000x256, .f32⟩
  | 107 => ⟨S20000x256, .f32⟩
  | 108 => ⟨S20000x256, .f32⟩
  | 109 => ⟨S20000x256, .f32⟩
  | 110 => ⟨S1x256, .f32⟩
  | 111 => ⟨S256, .f32⟩
  | 112 => ⟨S1x256, .f32⟩
  | 113 => ⟨S20000x256, .f32⟩
  | 114 => ⟨S20000x256, .f32⟩
  | 115 => ⟨S20000x256, .f32⟩
  | 116 => ⟨S_, .f32⟩
  | 117 => ⟨S20000x256, .f32⟩
  | 118 => ⟨S20000x256, .f32⟩
  | 119 => ⟨S1x256x256, .f32⟩
  | 120 => ⟨S256x256, .f32⟩
  | 121 => ⟨S20000x256, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S20000, .i32⟩

abbrev hbmTy0_1 (i : Nat) : BufTy := match i % 128 with
  | 0 => ⟨S300000, .i32⟩
  | 1 => ⟨S300000x1, .i32⟩
  | 2 => ⟨S300000x256, .f32⟩
  | 3 => ⟨S_, .f32⟩
  | 4 => ⟨S20000x256, .f32⟩
  | 5 => ⟨S300000x1, .i32⟩
  | 6 => ⟨S20000x256, .f32⟩
  | 7 => ⟨S20000x256, .f32⟩
  | 8 => ⟨S20000x256, .f32⟩
  | 9 => ⟨S20000x256, .f32⟩
  | 10 => ⟨S1x256, .f32⟩
  | 11 => ⟨S256, .f32⟩
  | 12 => ⟨S1x256, .f32⟩
  | 13 => ⟨S20000x256, .f32⟩
  | 14 => ⟨S20000x256, .f32⟩
  | 15 => ⟨S20000x256, .f32⟩
  | 16 => ⟨S_, .f32⟩
  | 17 => ⟨S20000x256, .f32⟩
  | 18 => ⟨S20000x256, .f32⟩
  | 19 => ⟨S_, .f32⟩
  | 20 => ⟨S20000, .f32⟩
  | 21 => ⟨S_, .f32⟩
  | 22 => ⟨S64, .f32⟩
  | 23 => ⟨S20000x1, .i32⟩
  | 24 => ⟨S64, .f32⟩
  | 25 => ⟨S_, .f32⟩
  | 26 => ⟨S64x256, .f32⟩
  | 27 => ⟨S20000x1, .i32⟩
  | 28 => ⟨S64x256, .f32⟩
  | 29 => ⟨S_, .f32⟩
  | 30 => ⟨S64, .f32⟩
  | 31 => ⟨S64, .f32⟩
  | 32 => ⟨S64x1, .f32⟩
  | 33 => ⟨S64x256, .f32⟩
  | 34 => ⟨S64x256, .f32⟩
  | 35 => ⟨S64x1, .f32⟩
  | 36 => ⟨S1x1, .f32⟩
  | 37 => ⟨S64x1, .f32⟩
  | 38 => ⟨S64x1, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x256, .f32⟩
  | .local _ .vmem, ⟨10, _⟩ => ⟨S2000x1, .f32⟩
  | .local _ .vmem, ⟨11, _⟩ => ⟨S2000x1, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x1, .f32⟩
  | .local _ .vmem, ⟨18, _⟩ => ⟨S2000x1, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256x256, .f32⟩
  | .local _ .vmem, ⟨24, _⟩ => ⟨S2000x1, .f32⟩
  | .local _ .vmem, ⟨25, _⟩ => ⟨S2000x1, .f32⟩
  | .local _ .vmem, ⟨26, _⟩ => ⟨S2000x256, .f32⟩
  | .local _ .vmem, ⟨27, _⟩ => ⟨S2000x256, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call0_cst : Ref sig .tc := ⟨.hbm, 60, rfl⟩
abbrev main_call0_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call1_cst : Ref sig .tc := ⟨.hbm, 88, rfl⟩
abbrev main_call1_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_10 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call2_cst : Ref sig .tc := ⟨.hbm, 116, rfl⟩
abbrev main_call2_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_13 : Ref sig .tc := ⟨.hbm, 122, rfl⟩
abbrev main_v93 : Ref sig .tc := ⟨.hbm, 123, rfl⟩
abbrev main_v94 : Ref sig .tc := ⟨.hbm, 124, rfl⟩
abbrev main_c_14 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_15 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_call3_cst : Ref sig .tc := ⟨.hbm, 144, rfl⟩
abbrev main_call3_v0 : Ref sig .tc := ⟨.hbm, 145, rfl⟩
abbrev main_v112 : Ref sig .tc := ⟨.hbm, 146, rfl⟩
abbrev main_cst_16 : Ref sig .tc := ⟨.hbm, 147, rfl⟩
abbrev main_v113 : Ref sig .tc := ⟨.hbm, 148, rfl⟩
abbrev main_cst_17 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_18 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_19 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S20000 : S_.BroadcastsInDim S20000 (![] : Fin 0 → Fin S20000.rank)
  bcast_S300000_S300000x1_0 : S300000.BroadcastsInDim S300000x1 (![0] : Fin 1 → Fin S300000x1.rank)
  bcast_S20000_S20000x1_0 : S20000.BroadcastsInDim S20000x1 (![0] : Fin 1 → Fin S20000x1.rank)
  slices_S4x256x256_S1x256x256_0_0_0 : S4x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S20000_S300000x1_S300000_n_0_0_1_wf : ScatterDims.WF S20000 S300000x1 S300000 [] [0] [0] 1
  gather_S101x256_S20000x1_S20000x256_1_0_n_n_0_1_1256_wf : GatherDims.WF S101x256 S20000x1 S20000x256 [1] [0] [] [0] [] 1 ![1, 256]
  dot_S2000x256_S256x256_S2000x256_1_0_0_1_n_n_wf : DotDims.WF S2000x256 S256x256 S2000x256 [1] [0] [0] [1] [] []
  gather_S20000x256_S300000x1_S300000x256_1_0_n_n_0_1_1256_wf : GatherDims.WF S20000x256 S300000x1 S300000x256 [1] [0] [] [0] [] 1 ![1, 256]
  scatter_S20000x256_S300000x1_S300000x256_1_0_0_1_wf : ScatterDims.WF S20000x256 S300000x1 S300000x256 [1] [0] [0] 1
  scatter_S64_S20000x1_S20000_n_0_0_1_wf : ScatterDims.WF S64 S20000x1 S20000 [] [0] [0] 1
  scatter_S64x256_S20000x1_S20000x256_1_0_0_1_wf : ScatterDims.WF S64x256 S20000x1 S20000x256 [1] [0] [0] 1
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S20000x1.size a
  hwx2_2 : ∀ i : grid2.Coords, EltTy.bits .f32 = 32 ∨ (Rect.block (s := S20000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .f32 = 32 ∨ (Rect.block (s := S20000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)

variable [Facts₀]

def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def gather_S101x256_S20000x1_S20000x256_1_0_n_n_0_1_1256 : GatherDims S101x256 S20000x1 S20000x256 where
  offsetDims := [1]
  collapsedSliceDims := [0]
  operandBatchingDims := []
  startIndicesBatchingDims := []
  startIndexMap := [0]
  indexVectorDim := 1
  sliceSizes := ![1, 256]
  wf := gather_S101x256_S20000x1_S20000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_v20) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v89) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v92) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000 : Shape := ⟨1, ![20000]⟩
abbrev S2x300000 : Shape := ⟨2, ![2, 300000]⟩
abbrev S101x256 : Shape := ⟨2, ![101, 256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S320000 : Shape := ⟨1, ![320000]⟩
abbrev S_ : Shape := ⟨0, ![]⟩
abbrev S320000x1 : Shape := ⟨2, ![320000, 1]⟩
abbrev S20000x1 : Shape := ⟨2, ![20000, 1]⟩
abbrev S20000x256 : Shape := ⟨2, ![20000, 256]⟩
abbrev S1x256x256 : Shape := ⟨3, ![1, 256, 256]⟩
abbrev S256x256 : Shape := ⟨2, ![256, 256]⟩
abbrev S320000x256 : Shape := ⟨2, ![320000, 256]⟩
abbrev S1x256 : Shape := ⟨2, ![1, 256]⟩
abbrev S256 : Shape := ⟨1, ![256]⟩
abbrev S64 : Shape := ⟨1, ![64]⟩
abbrev S64x256 : Shape := ⟨2, ![64, 256]⟩
abbrev S64x1 : Shape := ⟨2, ![64, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S20000, .i32⟩
  | 1 => ⟨S2x300000, .i32⟩
  | 2 => ⟨S20000, .i32⟩
  | 3 => ⟨S101x256, .f32⟩
  | 4 => ⟨S4x256x256, .f32⟩
  | 5 => ⟨S4x256, .f32⟩
  | 6 => ⟨S256x1, .f32⟩
  | 7 => ⟨S1, .f32⟩
  | 8 => ⟨S20000, .i32⟩
  | 9 => ⟨S1x300000, .i32⟩
  | 10 => ⟨S300000, .i32⟩
  | 11 => ⟨S320000, .i32⟩
  | 12 => ⟨S1x300000, .i32⟩
  | 13 => ⟨S300000, .i32⟩
  | 14 => ⟨S320000, .i32⟩
  | 15 => ⟨S_, .f32⟩
  | 16 => ⟨S320000, .f32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .f32⟩
  | 24 => ⟨S20000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S320000, .f32⟩
  | 44 => ⟨S_, .i32⟩
  | 45 => ⟨S20000, .i32⟩
  | 46 => ⟨S20000, .i1⟩
  | 47 => ⟨S_, .i32⟩
  | 48 => ⟨S20000, .i32⟩
  | 49 => ⟨S20000, .i32⟩
  | 50 => ⟨S20000, .i32⟩
  | 51 => ⟨S20000x1, .i32⟩
  | 52 => ⟨S20000x256, .f32⟩
  | 53 => ⟨S1x256x256, .f32⟩
  | 54 => ⟨S256x256, .f32⟩
  | 55 => ⟨S20000x256, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x256, .f32⟩
  | 65 => ⟨S320000x1, .f32⟩
  | 66 => ⟨S320000x256, .f32⟩
  | 67 => ⟨S320000x256, .f32⟩
  | 68 => ⟨S_, .f32⟩
  | 69 => ⟨S20000x256, .f32⟩
  | 70 => ⟨S320000x1, .i32⟩
  | 71 => ⟨S20000x256, .f32⟩
  | 72 => ⟨S1x256, .f32⟩
  | 73 => ⟨S256, .f32⟩
  | 74 => ⟨S1x256, .f32⟩
  | 75 => ⟨S20000x256, .f32⟩
  | 76 => ⟨S20000x256, .f32⟩
  | 77 => ⟨S20000x256, .f32⟩
  | 78 => ⟨S_, .f32⟩
  | 79 => ⟨S20000x256, .f32⟩
  | 80 => ⟨S20000x256, .f32⟩
  | 81 => ⟨S1x256x256, .f32⟩
  | 82 => ⟨S256x256, .f32⟩
  | 83 => ⟨S20000x256, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x256, .f32⟩
  | 93 => ⟨S320000x1, .f32⟩
  | 94 => ⟨S320000x256, .f32⟩
  | 95 => ⟨S320000x256, .f32⟩
  | 96 => ⟨S_, .f32⟩
  | 97 => ⟨S20000x256, .f32⟩
  | 98 => ⟨S320000x1, .i32⟩
  | 99 => ⟨S20000x256, .f32⟩
  | 100 => ⟨S1x256, .f32⟩
  | 101 => ⟨S256, .f32⟩
  | 102 => ⟨S1x256, .f32⟩
  | 103 => ⟨S20000x256, .f32⟩
  | 104 => ⟨S20000x256, .f32⟩
  | 105 => ⟨S20000x256, .f32⟩
  | 106 => ⟨S_, .f32⟩
  | 107 => ⟨S20000x256, .f32⟩
  | 108 => ⟨S20000x256, .f32⟩
  | 109 => ⟨S1x256x256, .f32⟩
  | 110 => ⟨S256x256, .f32⟩
  | 111 => ⟨S20000x256, .f32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S320000x256, .f32⟩
  | 121 => ⟨S320000x1, .f32⟩
  | 122 => ⟨S320000x256, .f32⟩
  | 123 => ⟨S320000x256, .f32⟩
  | 124 => ⟨S_, .f32⟩
  | 125 => ⟨S20000x256, .f32⟩
  | 126 => ⟨S320000x1, .i32⟩
  | 127 => ⟨S20000x256, .f32⟩
  | _ => ⟨S20000, .i32⟩

abbrev hbmTy0_1 (i : Nat) : BufTy := match i % 128 with
  | 0 => ⟨S1x256, .f32⟩
  | 1 => ⟨S256, .f32⟩
  | 2 => ⟨S1x256, .f32⟩
  | 3 => ⟨S20000x256, .f32⟩
  | 4 => ⟨S20000x256, .f32⟩
  | 5 => ⟨S20000x256, .f32⟩
  | 6 => ⟨S_, .f32⟩
  | 7 => ⟨S20000x256, .f32⟩
  | 8 => ⟨S20000x256, .f32⟩
  | 9 => ⟨S1x256x256, .f32⟩
  | 10 => ⟨S256x256, .f32⟩
  | 11 => ⟨S20000x256, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x256, .f32⟩
  | 21 => ⟨S320000x1, .f32⟩
  | 22 => ⟨S320000x256, .f32⟩
  | 23 => ⟨S320000x256, .f32⟩
  | 24 => ⟨S_, .f32⟩
  | 25 => ⟨S20000x256, .f32⟩
  | 26 => ⟨S320000x1, .i32⟩
  | 27 => ⟨S20000x256, .f32⟩
  | 28 => ⟨S1x256, .f32⟩
  | 29 => ⟨S256, .f32⟩
  | 30 => ⟨S1x256, .f32⟩
  | 31 => ⟨S20000x256, .f32⟩
  | 32 => ⟨S20000x256, .f32⟩
  | 33 => ⟨S20000x256, .f32⟩
  | 34 => ⟨S_, .f32⟩
  | 35 => ⟨S20000x256, .f32⟩
  | 36 => ⟨S20000x256, .f32⟩
  | 37 => ⟨S_, .f32⟩
  | 38 => ⟨S20000, .f32⟩
  | 39 => ⟨S_, .f32⟩
  | 40 => ⟨S64, .f32⟩
  | 41 => ⟨S20000x1, .i32⟩
  | 42 => ⟨S64, .f32⟩
  | 43 => ⟨S_, .f32⟩
  | 44 => ⟨S64x256, .f32⟩
  | 45 => ⟨S20000x1, .i32⟩
  | 46 => ⟨S64x256, .f32⟩
  | 47 => ⟨S_, .f32⟩
  | 48 => ⟨S64, .f32⟩
  | 49 => ⟨S64, .f32⟩
  | 50 => ⟨S64x1, .f32⟩
  | 51 => ⟨S64x256, .f32⟩
  | 52 => ⟨S64x256, .f32⟩
  | 53 => ⟨S64x1, .f32⟩
  | 54 => ⟨S1x1, .f32⟩
  | 55 => ⟨S64x1, .f32⟩
  | 56 => ⟨S64x1, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call1_cst : Ref sig .tc := ⟨.hbm, 106, rfl⟩
abbrev main_call1_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_13 : Ref sig .tc := ⟨.hbm, 112, rfl⟩
abbrev main_v85 : Ref sig .tc := ⟨.hbm, 113, rfl⟩
abbrev main_v86 : Ref sig .tc := ⟨.hbm, 114, rfl⟩
abbrev main_c_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_call2_cst : Ref sig .tc := ⟨.hbm, 134, rfl⟩
abbrev main_call2_v0 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_16 : Ref sig .tc := ⟨.hbm, 140, rfl⟩
abbrev main_v108 : Ref sig .tc := ⟨.hbm, 141, rfl⟩
abbrev main_v109 : Ref sig .tc := ⟨.hbm, 142, rfl⟩
abbrev main_c_17 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_18 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_call3_cst : Ref sig .tc := ⟨.hbm, 162, rfl⟩
abbrev main_call3_v0 : Ref sig .tc := ⟨.hbm, 163, rfl⟩
abbrev main_v127 : Ref sig .tc := ⟨.hbm, 164, rfl⟩
abbrev main_cst_19 : Ref sig .tc := ⟨.hbm, 165, rfl⟩
abbrev main_v128 : Ref sig .tc := ⟨.hbm, 166, rfl⟩
abbrev main_cst_20 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_21 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_22 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S20000_S320000_d0 : Shape.Concatenates [S300000, S20000] S320000 0
  slices_S2x300000_S1x300000_1_0 : S2x300000.Slices ![1, 0] S1x300000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  slices_S4x256x256_S1x256x256_0_0_0 : S4x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S101x256_S20000x1_S20000x256_1_0_n_n_0_1_1256_wf : GatherDims.WF S101x256 S20000x1 S20000x256 [1] [0] [] [0] [] 1 ![1, 256]
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64_S20000x1_S20000_n_0_0_1_wf : ScatterDims.WF S64 S20000x1 S20000 [] [0] [0] 1
  scatter_S64x256_S20000x1_S20000x256_1_0_0_1_wf : ScatterDims.WF S64x256 S20000x1 S20000x256 [1] [0] [0] 1
  dot_S64x256_S256x1_S64x1_1_0_0_1_n_n_wf : DotDims.WF S64x256 S256x1 S64x1 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S101x256_S20000x1_S20000x256_1_0_n_n_0_1_1256 : GatherDims S101x256 S20000x1 S20000x256 where
  offsetDims := [1]
  collapsedSliceDims := [0]
  operandBatchingDims := []
  startIndicesBatchingDims := []
  startIndexMap := [0]
  indexVectorDim := 1
  sliceSizes := ![1, 256]
  wf := gather_S101x256_S20000x1_S20000x256_1_0_n_n_0_1_1256_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KernelRun.lean ====
/-
  The kernel's run, with its result.

  The whole program runs as seventeen segments: stretches of array operations on the host and four launches of the
  matrix kernel. Along them the contents of every array are known: after the last segment each holds what the fold
  of the segments over the launch memory leaves in it. So every execution ends with the result array at that fold's
  value for it, and with the argument arrays as they were launched.
-/
import proofs.«111923_j23871428231325_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends; the result array then holds what the last segment boundary's contents give it, and each
    argument array what it held at launch. -/
theorem run : θ_run defs (onTc (τ := τ) (main (F := F))) ⟨m, fun _ => 0, ρ⟩ (fun r => ∀ c : Dev nD,
      r.2.mem ((c.tc : Thread nD τ).loc main_v128) = W17 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v128 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.Whole

end
-- ==== Proof.KernelTerms.lean ====
/-
  The kernel's host operations, named.

  Around its four launches the kernel's program computes, on the host: from the edges' destination words the scale
  of every node, `dinv n = rsqrt (max (indegree n + 1) 1)`, as a column; after each launch one layer — gather the
  scaled product's rows at the edges' source words, add them up at the destination words, add the node's own row,
  scale by `dinv`, add the bias and the layer's input, and clamp at zero —; and at the end the mean of the rows of
  each graph, a last product and a bias.
-/
import proofs.«111923_j23871428231325_2_alg».proof.Proof.Gen.KernelIdeal

noncomputable section

namespace Cert.Gcn

open Idealize.ShloMosaic Cert.KernelIdeal Cert.KernelIdeal.Gen

variable {F : FTy → Type} [FloatOps F]

/-- The row words as a gather takes them: a negative word moved up by the number of rows, as one column. -/
def wrapRows (s : (⟨S300000, .i32⟩ : BufTy).Contents (Elt F)) : (⟨S300000x1, .i32⟩ : BufTy).Contents (Elt F) :=
  broadcastInDim S300000x1 ![0] bcast_S300000_S300000x1_0
    (select (cmpi .slt s (broadcastInDim S300000 ![] bcast_S_S300000 (constantI S_ 32 0#32)))
      (addi s (broadcastInDim S300000 ![] bcast_S_S300000 (constantI S_ 32 20000#32))) s)

/-- The nodes' scales: one over the square root of the number of edges arriving at the node plus one, kept at
    least one. -/
def kDinv (dst : (⟨S300000, .i32⟩ : BufTy).Contents (Elt F)) : (⟨S20000, .f32⟩ : BufTy).Contents (Elt F) :=
  Host.rsqrt (maximumf
    (addf (Host.scatterAdd scatter_S20000_S300000x1_S300000_n_0_0_1
        (broadcastInDim S20000 ![] bcast_S_S20000 (constant S_ .f32 0x00000000#32))
        (broadcastInDim S300000x1 ![0] bcast_S300000_S300000x1_0 dst)
        (broadcastInDim S300000 ![] bcast_S_S300000 (constant S_ .f32 0x3F800000#32)))
      (broadcastInDim S20000 ![] bcast_S_S20000 (constant S_ .f32 0x3F800000#32)))
    (broadcastInDim S20000 ![] bcast_S_S20000 (constant S_ .f32 0x3F800000#32)))

/-- The scales as a column. -/
def kDinvCol (dst : (⟨S300000, .i32⟩ : BufTy).Contents (Elt F)) : (⟨S20000x1, .f32⟩ : BufTy).Contents (Elt F) :=
  broadcastInDim S20000x1 ![0] bcast_S20000_S20000x1_0 (kDinv dst)

/-- One layer's host operations, from the launch's scaled product `hs`, the layer's input `x`, the scales' column,
    the edges' source and destination words and the bias laid along the rows. -/
def kLayer (hs x : (⟨S20000x256, .f32⟩ : BufTy).Contents (Elt F)) (dcol : (⟨S20000x1, .f32⟩ : BufTy).Contents (Elt F))
    (src dst : (⟨S300000, .i32⟩ : BufTy).Contents (Elt F)) (brow : (⟨S20000x256, .f32⟩ : BufTy).Contents (Elt F)) : (⟨S20000x256, .f32⟩ : BufTy).Contents (Elt F) :=
  maximumf
    (addf x (addf (mulf (broadcastInDim S20000x256 ![0, 1] bcast_S20000x1_S20000x256_0_1 dcol)
        (addf (Host.scatterAdd scatter_S20000x256_S300000x1_S300000x256_1_0_0_1
            (broadcastInDim S20000x256 ![] bcast_S_S20000x256 (constant S_ .f32 0x00000000#32))
            (broadcastInDim S300000x1 ![0] bcast_S300000_S300000x1_0 dst)
            (Host.gather gather_S20000x256_S300000x1_S300000x256_1_0_n_n_0_1_1256 hs (wrapRows src))) hs)) brow))
    (broadcastInDim S20000x256 ![] bcast_S_S20000x256 (constant S_ .f32 0x00000000#32))

/-- The end of the program: the rows of each graph averaged, times the last weights, plus the last bias. -/
def kTail (x : (⟨S20000x256, .f32⟩ : BufTy).Contents (Elt F)) (batch : (⟨S20000, .i32⟩ : BufTy).Contents (Elt F)) (fcw : (⟨S256x1, .f32⟩ : BufTy).Contents (Elt F))
    (fcb : (⟨S1, .f32⟩ : BufTy).Contents (Elt F)) : (⟨S64x1, .f32⟩ : BufTy).Contents (Elt F) :=
  addf
    (Host.dotGeneral dot_S64x256_S256x1_S64x1_1_0_0_1_n_n none
      (Host.divf
        (Host.scatterAdd scatter_S64x256_S20000x1_S20000x256_1_0_0_1
          (broadcastInDim S64x256 ![] bcast_S_S64x256 (constant S_ .f32 0x00000000#32))
          (broadcastInDim S20000x1 ![0] bcast_S20000_S20000x1_0 batch) x)
        (broadcastInDim S64x256 ![0, 1] bcast_S64x1_S64x256_0_1
          (broadcastInDim S64x1 ![0] bcast_S64_S64x1_0
            (maximumf
              (Host.scatterAdd scatter_S64_S20000x1_S20000_n_0_0_1
                (broadcastInDim S64 ![] bcast_S_S64 (constant S_ .f32 0x00000000#32))
                (broadcastInDim S20000x1 ![0] bcast_S20000_S20000x1_0 batch)
                (broadcastInDim S20000 ![] bcast_S_S20000 (constant S_ .f32 0x3F800000#32)))
              (broadcastInDim S64 ![] bcast_S_S64 (constant S_ .f32 0x3F800000#32))))))
      fcw)
    (broadcastInDim S64x1 ![0, 1] bcast_S1x1_S64x1_0_1 (broadcastInDim S1x1 ![1] bcast_S1_S1x1_1 fcb))

end Cert.Gcn

end
-- ==== Proof.FoldStart.lean ====
/-
  The first stretch of host operations, read: the edges' source and destination words, the nodes' scales as a
  column, the embedded features, the first layer's weights — each as a function of the argument arrays —, and the
  argument arrays themselves, which no operation writes.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 8000000 in
theorem start_main_v1 : W1 m ρ c (Proc.devRef .tc main_v1) = Cert.ReferenceIdeal.Read.val_main_v2 (m ((c : Thread nD τ).loc main_arg1)) := by
  show StableHlo.after hostOps0 (W0 m ρ c) (Proc.devRef .tc main_v1) = _
  after_results_simp
  rfl

set_option maxHeartbeats 8000000 in
theorem start_main_v3 : W1 m ρ c (Proc.devRef .tc main_v3) = Cert.ReferenceIdeal.Read.val_main_v5 (m ((c : Thread nD τ).loc main_arg1)) := by
  show StableHlo.after hostOps0 (W0 m ρ c) (Proc.devRef .tc main_v3) = _
  after_results_simp
  rfl

set_option maxHeartbeats 8000000 in
theorem start_main_v13 : W1 m ρ c (Proc.devRef .tc main_v13) = kDinvCol (Cert.ReferenceIdeal.Read.val_main_v5 (m ((c : Thread nD τ).loc main_arg1))) := by
  show StableHlo.after hostOps0 (W0 m ρ c) (Proc.devRef .tc main_v13) = _
  after_results_simp
  rfl

set_option maxHeartbeats 8000000 in
theorem start_main_v20 : W1 m ρ c (Proc.devRef .tc main_v20) = Cert.ReferenceIdeal.Read.val_main_v35 (m ((c : Thread nD τ).loc main_arg0)) (m ((c : Thread nD τ).loc main_arg3)) := by
  show StableHlo.after hostOps0 (W0 m ρ c) (Proc.devRef .tc main_v20) = _
  after_results_simp
  rfl

set_option maxHeartbeats 8000000 in
theorem start_main_v22 : W1 m ρ c (Proc.devRef .tc main_v22) = Cert.ReferenceIdeal.Read.val_main_v37 (m ((c : Thread nD τ).loc main_arg4)) := by
  show StableHlo.after hostOps0 (W0 m ρ c) (Proc.devRef .tc main_v22) = _
  after_results_simp
  rfl

set_option maxHeartbeats 8000000 in
theorem start_main_arg2 : W1 m ρ c (Proc.devRef .tc main_arg2) = (m ((c : Thread nD τ).loc main_arg2)) := by
  show StableHlo.after hostOps0 (W0 m ρ c) (Proc.devRef .tc main_arg2) = _
  after_results_simp

set_option maxHeartbeats 8000000 in
theorem start_main_arg4 : W1 m ρ c (Proc.devRef .tc main_arg4) = (m ((c : Thread nD τ).loc main_arg4)) := by
  show StableHlo.after hostOps0 (W0 m ρ c) (Proc.devRef .tc main_arg4) = _
  after_results_simp

set_option maxHeartbeats 8000000 in
theorem start_main_arg5 : W1 m ρ c (Proc.devRef .tc main_arg5) = (m ((c : Thread nD τ).loc main_arg5)) := by
  show StableHlo.after hostOps0 (W0 m ρ c) (Proc.devRef .tc main_arg5) = _
  after_results_simp

set_option maxHeartbeats 8000000 in
theorem start_main_arg6 : W1 m ρ c (Proc.devRef .tc main_arg6) = (m ((c : Thread nD τ).loc main_arg6)) := by
  show StableHlo.after hostOps0 (W0 m ρ c) (Proc.devRef .tc main_arg6) = _
  after_results_simp

set_option maxHeartbeats 8000000 in
theorem start_main_arg7 : W1 m ρ c (Proc.devRef .tc main_arg7) = (m ((c : Thread nD τ).loc main_arg7)) := by
  show StableHlo.after hostOps0 (W0 m ρ c) (Proc.devRef .tc main_arg7) = _
  after_results_simp

end Cert.Gcn

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.RealLaws.lean ====
/-
  Real numbers among the extended reals, and the laws a graph convolution needs of them.

  The extended reals carry two infinities, on which a difference of a number with itself is not zero and a product
  does not distribute over a sum. Every array the two programs compute here holds real numbers only, and on those
  the usual laws hold: `x - x = 0`, a sum of reals is real, and a factor common to every term of a finite sum may
  be taken outside it. The last one is the whole difference between the two programs: one scales the sum of the
  neighbours' rows once, the other scales every neighbour's row before adding.
-/
import Idealize.ShloMosaic.PureOps.Ideal

noncomputable section

open scoped BigOperators

namespace Cert.Gcn

/-- An extended real that is a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem one : IsReal (1 : EReal) := ⟨1, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem max {x y : EReal} (hx : IsReal x) (hy : IsReal y) : IsReal (Max.max x y) := by
  rcases le_total x y with h | h
  · rw [max_eq_right h]; exact hy
  · rw [max_eq_left h]; exact hx

/-- A finite sum of real numbers is a real number. -/
theorem sum {ι : Type} (s : Finset ι) (f : ι → EReal) : (∀ i ∈ s, IsReal (f i)) → IsReal (∑ i ∈ s, f i) := by
  classical
  refine Finset.induction_on s ?_ ?_
  · intro _
    rw [Finset.sum_empty]
    exact zero
  · intro a s ha ih h
    rw [Finset.sum_insert ha]
    exact (h a (Finset.mem_insert_self a s)).add (ih fun i hi => h i (Finset.mem_insert_of_mem hi))

/-- A real number minus itself is zero. -/
theorem sub_self {x : EReal} (hx : IsReal x) : x - x = 0 := by
  obtain ⟨a, rfl⟩ := hx
  rw [← EReal.coe_sub, _root_.sub_self, EReal.coe_zero]

end IsReal

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A real factor common to every term goes outside a finite sum of reals. -/
theorem mul_sum_real {ι : Type} (s : Finset ι) (d : EReal) (f : ι → EReal) (hd : IsReal d)
    (hf : ∀ i ∈ s, IsReal (f i)) : d * ∑ i ∈ s, f i = ∑ i ∈ s, d * f i := by
  classical
  obtain ⟨a, rfl⟩ := hd
  revert hf
  refine Finset.induction_on s ?_ ?_
  · intro _
    simp
  · intro i s hi ih hf
    have hsum : IsReal (∑ j ∈ s, f j) := IsReal.sum s f fun j hj => hf j (Finset.mem_insert_of_mem hj)
    obtain ⟨b, hb⟩ := hf i (Finset.mem_insert_self i s)
    obtain ⟨c, hc⟩ := hsum
    rw [Finset.sum_insert hi, Finset.sum_insert hi, ← ih fun j hj => hf j (Finset.mem_insert_of_mem hj), hb, hc,
      ← EReal.coe_add, ← EReal.coe_mul, ← EReal.coe_mul, ← EReal.coe_mul, ← EReal.coe_add, mul_add]

/-- A matrix product against a zero matrix, and a zero matrix against a matrix, add nothing: the three-pass product
    of real matrices `x · w + x · (w - w) + (x - x) · w` is the product `x · w`. -/
theorem three_pass {K : Type} [Fintype K] (x w : K → EReal) (hx : ∀ k, IsReal (x k)) (hw : ∀ k, IsReal (w k)) :
    ((∑ k, x k * w k) + ∑ k, x k * (w k - w k)) + ∑ k, (x k - x k) * w k = ∑ k, x k * w k := by
  have h1 : ∑ k, x k * (w k - w k) = 0 :=
    Finset.sum_eq_zero fun k _ => by rw [(hw k).sub_self, mul_zero]
  have h2 : ∑ k, (x k - x k) * w k = 0 :=
    Finset.sum_eq_zero fun k _ => by rw [(hx k).sub_self, zero_mul]
  rw [h1, h2, add_zero, add_zero]

/-- THE LAW OF THE CONVOLUTION. For a node `n`, its incoming edges `T` with sources `s`, real node features `h` and
    real node scales `d`: scaling each source's feature by its own scale, adding the node's own scaled feature and
    scaling the total by the node's scale is the sum, over the edges and the node's own loop, of the feature times
    the product of the two scales — for the edges the second scale read at any node `t e` that is `n`. -/
theorem conv_law {E N : Type} (T : Finset E) (s t : E → N) (n : N) (h d : N → EReal)
    (hh : ∀ i, IsReal (h i)) (hd : ∀ i, IsReal (d i)) (ht : ∀ e ∈ T, t e = n) :
    d n * ((∑ e ∈ T, h (s e) * d (s e)) + h n * d n)
      = (∑ e ∈ T, h (s e) * (d (s e) * d (t e))) + h n * (d n * d n) := by
  have hterm : ∀ e ∈ T, IsReal (h (s e) * d (s e)) := fun e _ => (hh _).mul (hd _)
  obtain ⟨a, ha⟩ := hd n
  obtain ⟨b, hb⟩ := hh n
  obtain ⟨c, hc⟩ := IsReal.sum T _ hterm
  have hsum : ∑ e ∈ T, h (s e) * (d (s e) * d (t e)) = d n * ∑ e ∈ T, h (s e) * d (s e) := by
    rw [mul_sum_real T (d n) _ (hd n) hterm]
    refine Finset.sum_congr rfl fun e he => ?_
    rw [ht e he]
    obtain ⟨p, hp⟩ := hh (s e)
    obtain ⟨q, hq⟩ := hd (s e)
    rw [hp, hq, ha, ← EReal.coe_mul, ← EReal.coe_mul, ← EReal.coe_mul, ← EReal.coe_mul]
    congr 1
    ring
  rw [hsum, hc, ha, hb, ← EReal.coe_mul, ← EReal.coe_add, ← EReal.coe_mul, ← EReal.coe_mul, ← EReal.coe_mul,
    ← EReal.coe_mul, ← EReal.coe_add]
  congr 1
  ring

end Cert.Gcn

end
-- ==== Proof.Block.lean ====
/-
  What one block of the kernel computes.

  The body loads a block `x` of 2000 rows of node features, the whole 256 × 256 weight matrix `w` and the 2000
  scales `d` of those rows, and stores `(x · w + x · (w - w) + (x - x) · w) · d`: the matrix product taken in three
  passes over a high and a low part of each operand, every row then multiplied by its scale. Over the extended reals
  the high part of an operand is the operand itself, so the low part is the operand minus itself; on real numbers
  that is zero and the three passes are the one product `x · w`.
-/
import proofs.«111923_j23871428231325_2_alg».proof.Proof.Gen.KernelIdeal.Skeleton
import proofs.«111923_j23871428231325_2_alg».proof.Proof.LibDenseBlock
import proofs.«111923_j23871428231325_2_alg».proof.Proof.LibColumn
import proofs.«111923_j23871428231325_2_alg».proof.Proof.RealLaws
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx Cert.KernelIdeal Cert.KernelIdeal.Gen

/-- Entry `(p, q)` of the block the body stores: the three passes of the product of row `p` of the feature block
    with column `q` of the weights, times the scale of row `p`. -/
theorem block_apply (x : Vec Ideal S2000x256 .f32) (w : Vec Ideal S256x256 .f32) (d : Vec Ideal S2000x1 .f32)
    (p : Fin 2000) (q : Fin 256) :
    k0_pay1 (F := Ideal) x w d (ix2 p q)
      = (((∑ n : Fin 256, x (ix2 p n) * w (ix2 n q)) + ∑ n : Fin 256, x (ix2 p n) * (w (ix2 n q) - w (ix2 n q)))
          + ∑ n : Fin 256, (x (ix2 p n) - x (ix2 p n)) * w (ix2 n q)) * d (ix2 p (0 : Fin 1)) := by
  unfold k0_pay1
  rw [shapeCast_self, shapeCast_self, shapeCast_self]
  have hm : ∀ (l : FVec Ideal S2000x256 .bf16) (r : FVec Ideal S256x256 .bf16),
      matmul dot_S2000x256_S256x256_S2000x256_1_0_0_1_n_n none l r (constant S2000x256 .f32 0x00000000#32) (ix2 p q)
        = ∑ n : Fin 256, l (ix2 p n) * r (ix2 n q) := fun l r =>
    DenseBlock.matmul_zero_apply dot_S2000x256_S256x256_S2000x256_1_0_0_1_n_n.wf l r p q
  have hb : broadcastTo S2000x256 d broadcasts_S2000x1_S2000x256 (ix2 p q) = d (ix2 p (0 : Fin 1)) :=
    Column.broadcastTo_a1_ab_apply d broadcasts_S2000x1_S2000x256 p q
  show ((matmul (F := Ideal) dot_S2000x256_S256x256_S2000x256_1_0_0_1_n_n none
        (truncf (F := Ideal) .bf16 x bitsLt_bf16_f32) (truncf (F := Ideal) .bf16 w bitsLt_bf16_f32)
        (constant S2000x256 .f32 0x00000000#32) (ix2 p q)
      + matmul (F := Ideal) dot_S2000x256_S256x256_S2000x256_1_0_0_1_n_n none
        (truncf (F := Ideal) .bf16 x bitsLt_bf16_f32) (truncf (F := Ideal) .bf16 (subf w w) bitsLt_bf16_f32)
        (constant S2000x256 .f32 0x00000000#32) (ix2 p q))
      + matmul (F := Ideal) dot_S2000x256_S256x256_S2000x256_1_0_0_1_n_n none
        (truncf (F := Ideal) .bf16 (subf x x) bitsLt_bf16_f32) (truncf (F := Ideal) .bf16 w bitsLt_bf16_f32)
        (constant S2000x256 .f32 0x00000000#32) (ix2 p q))
      * broadcastTo S2000x256 d broadcasts_S2000x1_S2000x256 (ix2 p q) = _
  rw [hm, hm, hm, hb]
  rfl

/-- For a real feature block and real weights the stored entry is the product's entry times the row's scale. -/
theorem block_apply_real (x : Vec Ideal S2000x256 .f32) (w : Vec Ideal S256x256 .f32) (d : Vec Ideal S2000x1 .f32)
    (hx : ∀ i, IsReal (x i)) (hw : ∀ i, IsReal (w i)) (p : Fin 2000) (q : Fin 256) :
    k0_pay1 (F := Ideal) x w d (ix2 p q) = (∑ n : Fin 256, x (ix2 p n) * w (ix2 n q)) * d (ix2 p (0 : Fin 1)) := by
  rw [block_apply, three_pass (fun n => x (ix2 p n)) (fun n => w (ix2 n q)) (fun n => hx _) (fun n => hw _)]

end Cert.Gcn

end
-- ==== Proof.Product.lean ====
/-
  The scaled product as one function of whole arrays.

  For node features `x` (20000 rows of 256), weights `w` (256 × 256) and a column `d` of 20000 row scales, the
  kernel leaves in its output array, at row `r` and column `q`, the three-pass product of row `r` of `x` with column
  `q` of `w`, times `d r`. On real arrays that is `(∑ n, x (r, n) · w (n, q)) · d r`.
-/
import proofs.«111923_j23871428231325_2_alg».proof.Proof.Block

noncomputable section

open scoped BigOperators

namespace Cert.Gcn

open Idealize.ShloMosaic Idealize.ShloMosaic.ValueIdx Cert.KernelIdeal

/-- The output's entry at row `r`, column `q`. -/
def spEntry (x : S20000x256.Idx → EReal) (w : S256x256.Idx → EReal) (d : S20000x1.Idx → EReal)
    (r : Fin 20000) (q : Fin 256) : EReal :=
  (((∑ n : Fin 256, x (ix2 r n) * w (ix2 n q)) + ∑ n : Fin 256, x (ix2 r n) * (w (ix2 n q) - w (ix2 n q)))
      + ∑ n : Fin 256, (x (ix2 r n) - x (ix2 r n)) * w (ix2 n q)) * d (ix2 r (0 : Fin 1))

/-- The output array. -/
def scaledProduct (x : S20000x256.Idx → EReal) (w : S256x256.Idx → EReal) (d : S20000x1.Idx → EReal) :
    S20000x256.Idx → EReal :=
  fun i => spEntry x w d ⟨(i 0).val, (i 0).isLt⟩ ⟨(i 1).val, (i 1).isLt⟩

theorem scaledProduct_apply (x : S20000x256.Idx → EReal) (w : S256x256.Idx → EReal) (d : S20000x1.Idx → EReal)
    (r : Fin 20000) (q : Fin 256) : scaledProduct x w d (ix2 r q) = spEntry x w d r q := rfl

/-- On real features and weights the entry is the product's entry times the row's scale. -/
theorem spEntry_real (x : S20000x256.Idx → EReal) (w : S256x256.Idx → EReal) (d : S20000x1.Idx → EReal)
    (hx : ∀ i, IsReal (x i)) (hw : ∀ i, IsReal (w i)) (r : Fin 20000) (q : Fin 256) :
    spEntry x w d r q = (∑ n : Fin 256, x (ix2 r n) * w (ix2 n q)) * d (ix2 r (0 : Fin 1)) := by
  unfold spEntry
  rw [three_pass (fun n => x (ix2 r n)) (fun n => w (ix2 n q)) (fun n => hx _) (fun n => hw _)]

/-- The zero offsets of a store of a whole block. -/
theorem zeroOffsets : (![0, 0] : Fin 2 → Nat) = fun _ => 0 := funext fun a => by fin_cases a <;> rfl

end Cert.Gcn

end
-- ==== Proof.Launch0.lean ====
/-
  Launch 0 of the matrix kernel: what its output array holds afterwards.

  The grid has ten points; point `t` loads rows `2000 t … 2000 t + 1999` of the features and of the scales and the
  whole weight matrix, and writes back the same rows of the output. Each written block is the block of one
  whole-array function, the scaled product of the arrays the launch found, and the ten blocks tile the output.
-/
import proofs.«111923_j23871428231325_2_alg».proof.Proof.Gen.KernelIdeal.Frame
import proofs.«111923_j23871428231325_2_alg».proof.Proof.Product

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The four index maps over the grid: the feature, scale and output blocks move down the rows with the point, the
    weight block stays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The kernel body of this launch is the one block function. -/
theorem body0_eq (x : Vec Ideal S2000x256 .f32) (w : Vec Ideal S256x256 .f32) (d : Vec Ideal S2000x1 .f32) :
    k0_pay1 (F := Ideal) x w d = k0_pay1 (F := Ideal) x w d := rfl

/-- What point `t` writes back is block `t` of the scaled product of the arrays the launch found. -/
theorem written0 (c : Dev nD) (t : Fin cfg0.N) :
    (dat0 (F := Ideal) V c).flushed 3 t
      = ((cfg0.win 3).blk t).view.read (Elt Ideal) (scaledProduct (V c main_v20) (V c main_v22) (V c main_v13)) := by
  show (cfg0.win 3).cut (grid0.coords t) ((dat0 V c).after 3 t) = _
  rw [after0_3]
  unfold out0_3
  rw [View.canon_unit_zero zeroOffsets]
  simp only [View.ld_unit_zero (S := S2000x256) zeroOffsets, View.ld_unit_zero (S := S256x256) zeroOffsets,
    View.ld_unit_zero (S := S2000x1) zeroOffsets]
  obtain ⟨e0, e1, e2, e3, e4, e5, e6, e7⟩ := blockIndex0 t
  have ht : t.val < 10 := by have h := t.isLt; have hN : cfg0.N = 10 := N_0; omega
  funext j
  obtain ⟨p, q, rfl⟩ : ∃ (p : Fin 2000) (q : Fin 256), j = ix2 p q := ⟨j 0, j 1, eq_ix2 j⟩
  have hR : t.val * 2000 + p.val < 20000 := by have := p.isLt; omega
  rw [body0_eq]
  refine (block_apply (iblk0 V c 0 t) (iblk0 V c 1 t) (iblk0 V c 2 t) p q).trans ?_
  have rx : ∀ n : Fin 256, iblk0 V c 0 t (ix2 p n)
      = (V c main_v20 : S20000x256.Idx → EReal) (ix2 ⟨t.val * 2000 + p.val, hR⟩ n) := fun n => by
    show V c main_v20 (((cfg0.win 0).blk t).view.emb (ix2 p n)) = _
    refine congrArg (V c main_v20) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * n.val = n.val; omega
  have rw' : ∀ n : Fin 256, iblk0 V c 1 t (ix2 n q) = (V c main_v22 : S256x256.Idx → EReal) (ix2 n q) := fun n => by
    show V c main_v22 (((cfg0.win 1).blk t).view.emb (ix2 n q)) = _
    refine congrArg (V c main_v22) (funext fun a => Fin.ext ?_)
    match a with
    | ⟨0, _⟩ => show win0_1.index t (0 : Fin 2) * 256 + 1 * n.val = n.val; omega
    | ⟨1, _⟩ => show win0_1.index t (1 : Fin 2) * 256 + 1 * q.val = q.val; omega
  have rd : iblk0 V c 2 t (ix2 p (0 : Fin 1))
      = (V c main_v13 : S20000x1.Idx → EReal) (ix2 ⟨t.val * 2000 + p.val, hR⟩ (0 : Fin 1)) := by
    show V c main_v13 (((cfg0.win 2).blk t).view.emb (ix2 p (0 : Fin 1))) = _
    refine congrArg (V c main_v13) (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  have ro : ((cfg0.win 3).blk t).view.emb (ix2 p q) = ix2 ⟨t.val * 2000 + p.val, hR⟩ q := by
    refine funext fun a => Fin.ext ?_
    match a with
    | ⟨0, _⟩ => show win0_3.index t (0 : Fin 2) * 2000 + 1 * p.val = t.val * 2000 + p.val; omega
    | ⟨1, _⟩ => show win0_3.index t (1 : Fin 2) * 256 + 1 * q.val = q.val; omega
  simp only [rx, rw', rd]
  show _ = scaledProduct (V c main_v20) (V c main_v22) (V c main_v13) (((cfg0.win 3).blk t).view.emb (ix2 p q))
  rw [ro, scaledProduct_apply]
  rfl

/-- The output array after the launch is the scaled product of the arrays the launch found: every row lies in the
    block of the point `row / 2000`. -/
theorem output0 (c : Dev nD) :
    (dat0 (F := Ideal) V c).arrAt 3 cfg0.N = scaledProduct (V c main_v20) (V c main_v22) (V c main_v13) :=
  (dat0 V c).arrAt_eq_of_cover 3 _ (fun t _ => written0 V c t) fun i => by
    have hi0 : (i 0).val < 20000 := (i 0).isLt
    have hi1 : (i 1).val < 256 := (i 1).isLt
    have hN : (i 0).val / 2000 < cfg0.N := by have hN' : cfg0.N = 10 := N_0; omega
    obtain ⟨e0, e1, e2, e3, e4, e5, e6, e7⟩ := blockIndex0 ⟨(i 0).val / 2000, hN⟩
    have e6' : win0_3.index ⟨(i 0).val / 2000, hN⟩ (0 : Fin 2) = (i 0).val / 2000 := e6
    refine ⟨⟨(i 0).val / 2000, hN⟩, flush0_3 _, ?_⟩
    show i ∈ ((View.whole main_v23).slice (win0_3.rect ⟨(i 0).val / 2000, hN⟩)).set
    rw [View.set_slice_whole, Rect.mem_set_unit]
    intro a
    match a with
    | ⟨0, _⟩ =>
      show win0_3.index ⟨(i 0).val / 2000, hN⟩ (0 : Fin 2) * 2000 ≤ (i 0).val
        ∧ (i 0).val < win0_3.index ⟨(i 0).val / 2000, hN⟩ (0 : Fin 2) * 2000 + 2000
      omega
    | ⟨1, _⟩ =>
      show win0_3.index ⟨(i 0).val / 2000, hN⟩ (1 : Fin 2) * 256 ≤ (i 1).val
        ∧ (i 1).val < win0_3.index ⟨(i 0).val / 2000, hN⟩ (1 : Fin 2) * 256 + 256
      omega

/-- No point writes the features' or the scales' window back. -/
theorem inputsKept0 : ∀ t : Fin cfg0.N, (cfg0.win 0).flush t = false ∧ (cfg0.win 2).flush t = false :=
  (by decide +kernel : ∀ t : Fin grid0.N, win0_0.flush t = false ∧ win0_2.flush t = false)

/-- The features' array is after the launch as the launch found it. -/
theorem features0 (c : Dev nD) : (dat0 (F := Ideal) V c).arrAt 0 cfg0.N = V c main_v20 :=
  funext fun i => ((dat0 V c).arrAt_apply_of_forall_not_mem 0 cfg0.N i fun t _ hf =>
    absurd hf (by rw [(inputsKept0 t).1]; decide)).trans (congrFun (A_eq0 V c 0) i)

/-- The scales' array is after the launch as the launch found it. -/
theorem scales0 (c : Dev nD) : (dat0 (F := Ideal) V c).arrAt 2 cfg0.N = V c main_v13 :=
  funext fun i => ((dat0 V c).arrAt_apply_of_forall_not_mem 2 cfg0.N i fun t _ hf =>
    absurd hf (by rw [(inputsKept0 t).2]; decide)).trans (congrFun (A_eq0 V c 2) i)

end Cert.Gcn

end
-- ==== Proof.FoldLaunch0.lean ====
/-
  Across launch 0 of the matrix kernel: its output array holds the scaled product of the arrays it found, and every
  other array the program still reads is as it was.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms
import proofs.«111923_j23871428231325_2_alg».proof.Proof.Launch0

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem launch0_out : W2 m ρ c (Proc.devRef .tc main_v23)
    = scaledProduct (W1 m ρ c (Proc.devRef .tc main_v20)) (W1 m ρ c (Proc.devRef .tc main_v22)) (W1 m ρ c (Proc.devRef .tc main_v13)) :=
  (W2_arr m ρ c 3).trans (output0 (V1 m ρ) c)

theorem launch0_x : W2 m ρ c (Proc.devRef .tc main_v20) = W1 m ρ c (Proc.devRef .tc main_v20) :=
  (W2_arr m ρ c 0).trans (features0 (V1 m ρ) c)

theorem launch0_main_v13 : W2 m ρ c (Proc.devRef .tc main_v13) = W1 m ρ c (Proc.devRef .tc main_v13) :=
  (W2_arr m ρ c 2).trans (scales0 (V1 m ρ) c)

theorem launch0_main_v1 : W2 m ρ c (Proc.devRef .tc main_v1) = W1 m ρ c (Proc.devRef .tc main_v1) := W2_of_ne m ρ c main_v1 (by decide)

theorem launch0_main_v3 : W2 m ρ c (Proc.devRef .tc main_v3) = W1 m ρ c (Proc.devRef .tc main_v3) := W2_of_ne m ρ c main_v3 (by decide)

theorem launch0_main_arg2 : W2 m ρ c (Proc.devRef .tc main_arg2) = W1 m ρ c (Proc.devRef .tc main_arg2) := W2_of_ne m ρ c main_arg2 (by decide)

theorem launch0_main_arg4 : W2 m ρ c (Proc.devRef .tc main_arg4) = W1 m ρ c (Proc.devRef .tc main_arg4) := W2_of_ne m ρ c main_arg4 (by decide)

theorem launch0_main_arg5 : W2 m ρ c (Proc.devRef .tc main_arg5) = W1 m ρ c (Proc.devRef .tc main_arg5) := W2_of_ne m ρ c main_arg5 (by decide)

theorem launch0_main_arg6 : W2 m ρ c (Proc.devRef .tc main_arg6) = W1 m ρ c (Proc.devRef .tc main_arg6) := W2_of_ne m ρ c main_arg6 (by decide)

theorem launch0_main_arg7 : W2 m ρ c (Proc.devRef .tc main_arg7) = W1 m ρ c (Proc.devRef .tc main_arg7) := W2_of_ne m ρ c main_arg7 (by decide)

end Cert.Gcn

end
-- ==== Proof.Launch1.lean ====
/-
  Launch 1 of the matrix kernel: what its output array holds afterwards.

  The grid has ten points; point `t` loads rows `2000 t … 2000 t + 1999` of the features and of the scales and the
  whole weight matrix, and writes back the same rows of the output. Each written block is the block of one
  whole-array function, the scaled product of the arrays the launch found, and the ten blocks tile the output.
-/
import proofs.«111923_j23871428231325_2_alg».proof.Proof.Gen.KernelIdeal.Frame
import proofs.«111923_j23871428231325_2_alg».proof.Proof.Product

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The four index maps over the grid: the feature, scale and output blocks move down the rows with the point, the
    weight block stays. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The kernel body of this launch is the one block function. -/
theorem body1_eq (x : Vec Ideal S2000x256 .f32) (w : Vec Ideal S256x256 .f32) (d : Vec Ideal S2000x1 .f32) :
    k1_pay1 (F := Ideal) x w d = k0_pay1 (F := Ideal) x w d := rfl

/-- What point `t` writes back is block `t` of the scaled product of the arrays the launch found. -/
theorem written1 (c : Dev nD) (t : Fin cfg1.N) :
    (dat1 (F := Ideal) V c).flushed 3 t
      = ((cfg1.win 3).blk t).view.read (Elt Ideal) (scaledProduct (V c main_v43) (V c main_v45) (V c main_v13)) := by
  show (cfg1.win 3).cut (grid1.coords t) ((dat1 V c).after 3 t) = _
  rw [after1_3]
  unfold out1_3
  rw [View.canon_unit_zero zeroOffsets]
  simp only [View.ld_unit_zero (S := S2000x256) zeroOffsets, View.ld_unit_zero (S := S256x256) zeroOffsets,
    View.ld_unit_zero (S := S2000x1) zeroOffsets]
  obtain ⟨e0, e1, e2, e3, e4, e5, e6, e7⟩ := blockIndex1 t
  have ht : t.val < 10 := by have h := t.isLt; have hN : cfg1.N = 10 := N_1; omega
  funext j
  obtain ⟨p, q, rfl⟩ : ∃ (p : Fin 2000) (q : Fin 256), j = ix2 p q := ⟨j 0, j 1, eq_ix2 j⟩
  have hR : t.val * 2000 + p.val < 20000 := by have := p.isLt; omega
  rw [body1_eq]
  refine (block_apply (iblk1 V c 0 t) (iblk1 V c 1 t) (iblk1 V c 2 t) p q).trans ?_
  have rx : ∀ n : Fin 256, iblk1 V c 0 t (ix2 p n)
      = (V c main_v43 : S20000x256.Idx → EReal) (ix2 ⟨t.val * 2000 + p.val, hR⟩ n) := fun n => by
    show V c main_v43 (((cfg1.win 0).blk t).view.emb (ix2 p n)) = _
    refine congrArg (V c main_v43) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * n.val = n.val; omega
  have rw' : ∀ n : Fin 256, iblk1 V c 1 t (ix2 n q) = (V c main_v45 : S256x256.Idx → EReal) (ix2 n q) := fun n => by
    show V c main_v45 (((cfg1.win 1).blk t).view.emb (ix2 n q)) = _
    refine congrArg (V c main_v45) (funext fun a => Fin.ext ?_)
    match a with
    | ⟨0, _⟩ => show win1_1.index t (0 : Fin 2) * 256 + 1 * n.val = n.val; omega
    | ⟨1, _⟩ => show win1_1.index t (1 : Fin 2) * 256 + 1 * q.val = q.val; omega
  have rd : iblk1 V c 2 t (ix2 p (0 : Fin 1))
      = (V c main_v13 : S20000x1.Idx → EReal) (ix2 ⟨t.val * 2000 + p.val, hR⟩ (0 : Fin 1)) := by
    show V c main_v13 (((cfg1.win 2).blk t).view.emb (ix2 p (0 : Fin 1))) = _
    refine congrArg (V c main_v13) (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  have ro : ((cfg1.win 3).blk t).view.emb (ix2 p q) = ix2 ⟨t.val * 2000 + p.val, hR⟩ q := by
    refine funext fun a => Fin.ext ?_
    match a with
    | ⟨0, _⟩ => show win1_3.index t (0 : Fin 2) * 2000 + 1 * p.val = t.val * 2000 + p.val; omega
    | ⟨1, _⟩ => show win1_3.index t (1 : Fin 2) * 256 + 1 * q.val = q.val; omega
  simp only [rx, rw', rd]
  show _ = scaledProduct (V c main_v43) (V c main_v45) (V c main_v13) (((cfg1.win 3).blk t).view.emb (ix2 p q))
  rw [ro, scaledProduct_apply]
  rfl

/-- The output array after the launch is the scaled product of the arrays the launch found: every row lies in the
    block of the point `row / 2000`. -/
theorem output1 (c : Dev nD) :
    (dat1 (F := Ideal) V c).arrAt 3 cfg1.N = scaledProduct (V c main_v43) (V c main_v45) (V c main_v13) :=
  (dat1 V c).arrAt_eq_of_cover 3 _ (fun t _ => written1 V c t) fun i => by
    have hi0 : (i 0).val < 20000 := (i 0).isLt
    have hi1 : (i 1).val < 256 := (i 1).isLt
    have hN : (i 0).val / 2000 < cfg1.N := by have hN' : cfg1.N = 10 := N_1; omega
    obtain ⟨e0, e1, e2, e3, e4, e5, e6, e7⟩ := blockIndex1 ⟨(i 0).val / 2000, hN⟩
    have e6' : win1_3.index ⟨(i 0).val / 2000, hN⟩ (0 : Fin 2) = (i 0).val / 2000 := e6
    refine ⟨⟨(i 0).val / 2000, hN⟩, flush1_3 _, ?_⟩
    show i ∈ ((View.whole main_v46).slice (win1_3.rect ⟨(i 0).val / 2000, hN⟩)).set
    rw [View.set_slice_whole, Rect.mem_set_unit]
    intro a
    match a with
    | ⟨0, _⟩ =>
      show win1_3.index ⟨(i 0).val / 2000, hN⟩ (0 : Fin 2) * 2000 ≤ (i 0).val
        ∧ (i 0).val < win1_3.index ⟨(i 0).val / 2000, hN⟩ (0 : Fin 2) * 2000 + 2000
      omega
    | ⟨1, _⟩ =>
      show win1_3.index ⟨(i 0).val / 2000, hN⟩ (1 : Fin 2) * 256 ≤ (i 1).val
        ∧ (i 1).val < win1_3.index ⟨(i 0).val / 2000, hN⟩ (1 : Fin 2) * 256 + 256
      omega

/-- No point writes the features' or the scales' window back. -/
theorem inputsKept1 : ∀ t : Fin cfg1.N, (cfg1.win 0).flush t = false ∧ (cfg1.win 2).flush t = false :=
  (by decide +kernel : ∀ t : Fin grid1.N, win1_0.flush t = false ∧ win1_2.flush t = false)

/-- The features' array is after the launch as the launch found it. -/
theorem features1 (c : Dev nD) : (dat1 (F := Ideal) V c).arrAt 0 cfg1.N = V c main_v43 :=
  funext fun i => ((dat1 V c).arrAt_apply_of_forall_not_mem 0 cfg1.N i fun t _ hf =>
    absurd hf (by rw [(inputsKept1 t).1]; decide)).trans (congrFun (A_eq1 V c 0) i)

/-- The scales' array is after the launch as the launch found it. -/
theorem scales1 (c : Dev nD) : (dat1 (F := Ideal) V c).arrAt 2 cfg1.N = V c main_v13 :=
  funext fun i => ((dat1 V c).arrAt_apply_of_forall_not_mem 2 cfg1.N i fun t _ hf =>
    absurd hf (by rw [(inputsKept1 t).2]; decide)).trans (congrFun (A_eq1 V c 2) i)

end Cert.Gcn

end
-- ==== Proof.FoldLaunch1.lean ====
/-
  Across launch 1 of the matrix kernel: its output array holds the scaled product of the arrays it found, and every
  other array the program still reads is as it was.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms
import proofs.«111923_j23871428231325_2_alg».proof.Proof.Launch1

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem launch1_out : W6 m ρ c (Proc.devRef .tc main_v46)
    = scaledProduct (W5 m ρ c (Proc.devRef .tc main_v43)) (W5 m ρ c (Proc.devRef .tc main_v45)) (W5 m ρ c (Proc.devRef .tc main_v13)) :=
  (W6_arr m ρ c 3).trans (output1 (V5 m ρ) c)

theorem launch1_x : W6 m ρ c (Proc.devRef .tc main_v43) = W5 m ρ c (Proc.devRef .tc main_v43) :=
  (W6_arr m ρ c 0).trans (features1 (V5 m ρ) c)

theorem launch1_main_v13 : W6 m ρ c (Proc.devRef .tc main_v13) = W5 m ρ c (Proc.devRef .tc main_v13) :=
  (W6_arr m ρ c 2).trans (scales1 (V5 m ρ) c)

theorem launch1_main_v1 : W6 m ρ c (Proc.devRef .tc main_v1) = W5 m ρ c (Proc.devRef .tc main_v1) := W6_of_ne m ρ c main_v1 (by decide)

theorem launch1_main_v3 : W6 m ρ c (Proc.devRef .tc main_v3) = W5 m ρ c (Proc.devRef .tc main_v3) := W6_of_ne m ρ c main_v3 (by decide)

theorem launch1_main_arg2 : W6 m ρ c (Proc.devRef .tc main_arg2) = W5 m ρ c (Proc.devRef .tc main_arg2) := W6_of_ne m ρ c main_arg2 (by decide)

theorem launch1_main_arg4 : W6 m ρ c (Proc.devRef .tc main_arg4) = W5 m ρ c (Proc.devRef .tc main_arg4) := W6_of_ne m ρ c main_arg4 (by decide)

theorem launch1_main_arg5 : W6 m ρ c (Proc.devRef .tc main_arg5) = W5 m ρ c (Proc.devRef .tc main_arg5) := W6_of_ne m ρ c main_arg5 (by decide)

theorem launch1_main_arg6 : W6 m ρ c (Proc.devRef .tc main_arg6) = W5 m ρ c (Proc.devRef .tc main_arg6) := W6_of_ne m ρ c main_arg6 (by decide)

theorem launch1_main_arg7 : W6 m ρ c (Proc.devRef .tc main_arg7) = W5 m ρ c (Proc.devRef .tc main_arg7) := W6_of_ne m ρ c main_arg7 (by decide)

end Cert.Gcn

end
-- ==== Proof.Launch2.lean ====
/-
  Launch 2 of the matrix kernel: what its output array holds afterwards.

  The grid has ten points; point `t` loads rows `2000 t … 2000 t + 1999` of the features and of the scales and the
  whole weight matrix, and writes back the same rows of the output. Each written block is the block of one
  whole-array function, the scaled product of the arrays the launch found, and the ten blocks tile the output.
-/
import proofs.«111923_j23871428231325_2_alg».proof.Proof.Gen.KernelIdeal.Frame
import proofs.«111923_j23871428231325_2_alg».proof.Proof.Product

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The four index maps over the grid: the feature, scale and output blocks move down the rows with the point, the
    weight block stays. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The kernel body of this launch is the one block function. -/
theorem body2_eq (x : Vec Ideal S2000x256 .f32) (w : Vec Ideal S256x256 .f32) (d : Vec Ideal S2000x1 .f32) :
    k2_pay1 (F := Ideal) x w d = k0_pay1 (F := Ideal) x w d := rfl

/-- What point `t` writes back is block `t` of the scaled product of the arrays the launch found. -/
theorem written2 (c : Dev nD) (t : Fin cfg2.N) :
    (dat2 (F := Ideal) V c).flushed 3 t
      = ((cfg2.win 3).blk t).view.read (Elt Ideal) (scaledProduct (V c main_v66) (V c main_v68) (V c main_v13)) := by
  show (cfg2.win 3).cut (grid2.coords t) ((dat2 V c).after 3 t) = _
  rw [after2_3]
  unfold out2_3
  rw [View.canon_unit_zero zeroOffsets]
  simp only [View.ld_unit_zero (S := S2000x256) zeroOffsets, View.ld_unit_zero (S := S256x256) zeroOffsets,
    View.ld_unit_zero (S := S2000x1) zeroOffsets]
  obtain ⟨e0, e1, e2, e3, e4, e5, e6, e7⟩ := blockIndex2 t
  have ht : t.val < 10 := by have h := t.isLt; have hN : cfg2.N = 10 := N_2; omega
  funext j
  obtain ⟨p, q, rfl⟩ : ∃ (p : Fin 2000) (q : Fin 256), j = ix2 p q := ⟨j 0, j 1, eq_ix2 j⟩
  have hR : t.val * 2000 + p.val < 20000 := by have := p.isLt; omega
  rw [body2_eq]
  refine (block_apply (iblk2 V c 0 t) (iblk2 V c 1 t) (iblk2 V c 2 t) p q).trans ?_
  have rx : ∀ n : Fin 256, iblk2 V c 0 t (ix2 p n)
      = (V c main_v66 : S20000x256.Idx → EReal) (ix2 ⟨t.val * 2000 + p.val, hR⟩ n) := fun n => by
    show V c main_v66 (((cfg2.win 0).blk t).view.emb (ix2 p n)) = _
    refine congrArg (V c main_v66) (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * n.val = n.val; omega
  have rw' : ∀ n : Fin 256, iblk2 V c 1 t (ix2 n q) = (V c main_v68 : S256x256.Idx → EReal) (ix2 n q) := fun n => by
    show V c main_v68 (((cfg2.win 1).blk t).view.emb (ix2 n q)) = _
    refine congrArg (V c main_v68) (funext fun a => Fin.ext ?_)
    match a with
    | ⟨0, _⟩ => show win2_1.index t (0 : Fin 2) * 256 + 1 * n.val = n.val; omega
    | ⟨1, _⟩ => show win2_1.index t (1 : Fin 2) * 256 + 1 * q.val = q.val; omega
  have rd : iblk2 V c 2 t (ix2 p (0 : Fin 1))
      = (V c main_v13 : S20000x1.Idx → EReal) (ix2 ⟨t.val * 2000 + p.val, hR⟩ (0 : Fin 1)) := by
    show V c main_v13 (((cfg2.win 2).blk t).view.emb (ix2 p (0 : Fin 1))) = _
    refine congrArg (V c main_v13) (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  have ro : ((cfg2.win 3).blk t).view.emb (ix2 p q) = ix2 ⟨t.val * 2000 + p.val, hR⟩ q := by
    refine funext fun a => Fin.ext ?_
    match a with
    | ⟨0, _⟩ => show win2_3.index t (0 : Fin 2) * 2000 + 1 * p.val = t.val * 2000 + p.val; omega
    | ⟨1, _⟩ => show win2_3.index t (1 : Fin 2) * 256 + 1 * q.val = q.val; omega
  simp only [rx, rw', rd]
  show _ = scaledProduct (V c main_v66) (V c main_v68) (V c main_v13) (((cfg2.win 3).blk t).view.emb (ix2 p q))
  rw [ro, scaledProduct_apply]
  rfl

/-- The output array after the launch is the scaled product of the arrays the launch found: every row lies in the
    block of the point `row / 2000`. -/
theorem output2 (c : Dev nD) :
    (dat2 (F := Ideal) V c).arrAt 3 cfg2.N = scaledProduct (V c main_v66) (V c main_v68) (V c main_v13) :=
  (dat2 V c).arrAt_eq_of_cover 3 _ (fun t _ => written2 V c t) fun i => by
    have hi0 : (i 0).val < 20000 := (i 0).isLt
    have hi1 : (i 1).val < 256 := (i 1).isLt
    have hN : (i 0).val / 2000 < cfg2.N := by have hN' : cfg2.N = 10 := N_2; omega
    obtain ⟨e0, e1, e2, e3, e4, e5, e6, e7⟩ := blockIndex2 ⟨(i 0).val / 2000, hN⟩
    have e6' : win2_3.index ⟨(i 0).val / 2000, hN⟩ (0 : Fin 2) = (i 0).val / 2000 := e6
    refine ⟨⟨(i 0).val / 2000, hN⟩, flush2_3 _, ?_⟩
    show i ∈ ((View.whole main_v69).slice (win2_3.rect ⟨(i 0).val / 2000, hN⟩)).set
    rw [View.set_slice_whole, Rect.mem_set_unit]
    intro a
    match a with
    | ⟨0, _⟩ =>
      show win2_3.index ⟨(i 0).val / 2000, hN⟩ (0 : Fin 2) * 2000 ≤ (i 0).val
        ∧ (i 0).val < win2_3.index ⟨(i 0).val / 2000, hN⟩ (0 : Fin 2) * 2000 + 2000
      omega
    | ⟨1, _⟩ =>
      show win2_3.index ⟨(i 0).val / 2000, hN⟩ (1 : Fin 2) * 256 ≤ (i 1).val
        ∧ (i 1).val < win2_3.index ⟨(i 0).val / 2000, hN⟩ (1 : Fin 2) * 256 + 256
      omega

/-- No point writes the features' or the scales' window back. -/
theorem inputsKept2 : ∀ t : Fin cfg2.N, (cfg2.win 0).flush t = false ∧ (cfg2.win 2).flush t = false :=
  (by decide +kernel : ∀ t : Fin grid2.N, win2_0.flush t = false ∧ win2_2.flush t = false)

/-- The features' array is after the launch as the launch found it. -/
theorem features2 (c : Dev nD) : (dat2 (F := Ideal) V c).arrAt 0 cfg2.N = V c main_v66 :=
  funext fun i => ((dat2 V c).arrAt_apply_of_forall_not_mem 0 cfg2.N i fun t _ hf =>
    absurd hf (by rw [(inputsKept2 t).1]; decide)).trans (congrFun (A_eq2 V c 0) i)

/-- The scales' array is after the launch as the launch found it. -/
theorem scales2 (c : Dev nD) : (dat2 (F := Ideal) V c).arrAt 2 cfg2.N = V c main_v13 :=
  funext fun i => ((dat2 V c).arrAt_apply_of_forall_not_mem 2 cfg2.N i fun t _ hf =>
    absurd hf (by rw [(inputsKept2 t).2]; decide)).trans (congrFun (A_eq2 V c 2) i)

end Cert.Gcn

end
-- ==== Proof.FoldLaunch2.lean ====
/-
  Across launch 2 of the matrix kernel: its output array holds the scaled product of the arrays it found, and every
  other array the program still reads is as it was.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms
import proofs.«111923_j23871428231325_2_alg».proof.Proof.Launch2

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem launch2_out : W10 m ρ c (Proc.devRef .tc main_v69)
    = scaledProduct (W9 m ρ c (Proc.devRef .tc main_v66)) (W9 m ρ c (Proc.devRef .tc main_v68)) (W9 m ρ c (Proc.devRef .tc main_v13)) :=
  (W10_arr m ρ c 3).trans (output2 (V9 m ρ) c)

theorem launch2_x : W10 m ρ c (Proc.devRef .tc main_v66) = W9 m ρ c (Proc.devRef .tc main_v66) :=
  (W10_arr m ρ c 0).trans (features2 (V9 m ρ) c)

theorem launch2_main_v13 : W10 m ρ c (Proc.devRef .tc main_v13) = W9 m ρ c (Proc.devRef .tc main_v13) :=
  (W10_arr m ρ c 2).trans (scales2 (V9 m ρ) c)

theorem launch2_main_v1 : W10 m ρ c (Proc.devRef .tc main_v1) = W9 m ρ c (Proc.devRef .tc main_v1) := W10_of_ne m ρ c main_v1 (by decide)

theorem launch2_main_v3 : W10 m ρ c (Proc.devRef .tc main_v3) = W9 m ρ c (Proc.devRef .tc main_v3) := W10_of_ne m ρ c main_v3 (by decide)

theorem launch2_main_arg2 : W10 m ρ c (Proc.devRef .tc main_arg2) = W9 m ρ c (Proc.devRef .tc main_arg2) := W10_of_ne m ρ c main_arg2 (by decide)

theorem launch2_main_arg4 : W10 m ρ c (Proc.devRef .tc main_arg4) = W9 m ρ c (Proc.devRef .tc main_arg4) := W10_of_ne m ρ c main_arg4 (by decide)

theorem launch2_main_arg5 : W10 m ρ c (Proc.devRef .tc main_arg5) = W9 m ρ c (Proc.devRef .tc main_arg5) := W10_of_ne m ρ c main_arg5 (by decide)

theorem launch2_main_arg6 : W10 m ρ c (Proc.devRef .tc main_arg6) = W9 m ρ c (Proc.devRef .tc main_arg6) := W10_of_ne m ρ c main_arg6 (by decide)

theorem launch2_main_arg7 : W10 m ρ c (Proc.devRef .tc main_arg7) = W9 m ρ c (Proc.devRef .tc main_arg7) := W10_of_ne m ρ c main_arg7 (by decide)

end Cert.Gcn

end
-- ==== Proof.Launch3.lean ====
/-
  Launch 3 of the matrix kernel: what its output array holds afterwards.

  The grid has ten points; point `t` loads rows `2000 t … 2000 t + 1999` of the features and of the scales and the
  whole weight matrix, and writes back the same rows of the output. Each written block is the block of one
  whole-array function, the scaled product of the arrays the launch found, and the ten blocks tile the output.
-/
import proofs.«111923_j23871428231325_2_alg».proof.Proof.Gen.KernelIdeal.Frame
import proofs.«111923_j23871428231325_2_alg».proof.Proof.Product

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The four index maps over the grid: the feature, scale and output blocks move down the rows with the point, the
    weight block stays. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The kernel body of this launch is the one block function. -/
theorem body3_eq (x : Vec Ideal S2000x256 .f32) (w : Vec Ideal S256x256 .f32) (d : Vec Ideal S2000x1 .f32) :
    k3_pay1 (F := Ideal) x w d = k0_pay1 (F := Ideal) x w d := rfl

/-- What point `t` writes back is block `t` of the scaled product of the arrays the launch found. -/
theorem written3 (c : Dev nD) (t : Fin cfg3.N) :
    (dat3 (F := Ideal) V c).flushed 3 t
      = ((cfg3.win 3).blk t).view.read (Elt Ideal) (scaledProduct (V c main_v89) (V c main_v91) (V c main_v13)) := by
  show (cfg3.win 3).cut (grid3.coords t) ((dat3 V c).after 3 t) = _
  rw [after3_3]
  unfold out3_3
  rw [View.canon_unit_zero zeroOffsets]
  simp only [View.ld_unit_zero (S := S2000x256) zeroOffsets, View.ld_unit_zero (S := S256x256) zeroOffsets,
    View.ld_unit_zero (S := S2000x1) zeroOffsets]
  obtain ⟨e0, e1, e2, e3, e4, e5, e6, e7⟩ := blockIndex3 t
  have ht : t.val < 10 := by have h := t.isLt; have hN : cfg3.N = 10 := N_3; omega
  funext j
  obtain ⟨p, q, rfl⟩ : ∃ (p : Fin 2000) (q : Fin 256), j = ix2 p q := ⟨j 0, j 1, eq_ix2 j⟩
  have hR : t.val * 2000 + p.val < 20000 := by have := p.isLt; omega
  rw [body3_eq]
  refine (block_apply (iblk3 V c 0 t) (iblk3 V c 1 t) (iblk3 V c 2 t) p q).trans ?_
  have rx : ∀ n : Fin 256, iblk3 V c 0 t (ix2 p n)
      = (V c main_v89 : S20000x256.Idx → EReal) (ix2 ⟨t.val * 2000 + p.val, hR⟩ n) := fun n => by
    show V c main_v89 (((cfg3.win 0).blk t).view.emb (ix2 p n)) = _
    refine congrArg (V c main_v89) (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * n.val = n.val; omega
  have rw' : ∀ n : Fin 256, iblk3 V c 1 t (ix2 n q) = (V c main_v91 : S256x256.Idx → EReal) (ix2 n q) := fun n => by
    show V c main_v91 (((cfg3.win 1).blk t).view.emb (ix2 n q)) = _
    refine congrArg (V c main_v91) (funext fun a => Fin.ext ?_)
    match a with
    | ⟨0, _⟩ => show win3_1.index t (0 : Fin 2) * 256 + 1 * n.val = n.val; omega
    | ⟨1, _⟩ => show win3_1.index t (1 : Fin 2) * 256 + 1 * q.val = q.val; omega
  have rd : iblk3 V c 2 t (ix2 p (0 : Fin 1))
      = (V c main_v13 : S20000x1.Idx → EReal) (ix2 ⟨t.val * 2000 + p.val, hR⟩ (0 : Fin 1)) := by
    show V c main_v13 (((cfg3.win 2).blk t).view.emb (ix2 p (0 : Fin 1))) = _
    refine congrArg (V c main_v13) (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  have ro : ((cfg3.win 3).blk t).view.emb (ix2 p q) = ix2 ⟨t.val * 2000 + p.val, hR⟩ q := by
    refine funext fun a => Fin.ext ?_
    match a with
    | ⟨0, _⟩ => show win3_3.index t (0 : Fin 2) * 2000 + 1 * p.val = t.val * 2000 + p.val; omega
    | ⟨1, _⟩ => show win3_3.index t (1 : Fin 2) * 256 + 1 * q.val = q.val; omega
  simp only [rx, rw', rd]
  show _ = scaledProduct (V c main_v89) (V c main_v91) (V c main_v13) (((cfg3.win 3).blk t).view.emb (ix2 p q))
  rw [ro, scaledProduct_apply]
  rfl

/-- The output array after the launch is the scaled product of the arrays the launch found: every row lies in the
    block of the point `row / 2000`. -/
theorem output3 (c : Dev nD) :
    (dat3 (F := Ideal) V c).arrAt 3 cfg3.N = scaledProduct (V c main_v89) (V c main_v91) (V c main_v13) :=
  (dat3 V c).arrAt_eq_of_cover 3 _ (fun t _ => written3 V c t) fun i => by
    have hi0 : (i 0).val < 20000 := (i 0).isLt
    have hi1 : (i 1).val < 256 := (i 1).isLt
    have hN : (i 0).val / 2000 < cfg3.N := by have hN' : cfg3.N = 10 := N_3; omega
    obtain ⟨e0, e1, e2, e3, e4, e5, e6, e7⟩ := blockIndex3 ⟨(i 0).val / 2000, hN⟩
    have e6' : win3_3.index ⟨(i 0).val / 2000, hN⟩ (0 : Fin 2) = (i 0).val / 2000 := e6
    refine ⟨⟨(i 0).val / 2000, hN⟩, flush3_3 _, ?_⟩
    show i ∈ ((View.whole main_v92).slice (win3_3.rect ⟨(i 0).val / 2000, hN⟩)).set
    rw [View.set_slice_whole, Rect.mem_set_unit]
    intro a
    match a with
    | ⟨0, _⟩ =>
      show win3_3.index ⟨(i 0).val / 2000, hN⟩ (0 : Fin 2) * 2000 ≤ (i 0).val
        ∧ (i 0).val < win3_3.index ⟨(i 0).val / 2000, hN⟩ (0 : Fin 2) * 2000 + 2000
      omega
    | ⟨1, _⟩ =>
      show win3_3.index ⟨(i 0).val / 2000, hN⟩ (1 : Fin 2) * 256 ≤ (i 1).val
        ∧ (i 1).val < win3_3.index ⟨(i 0).val / 2000, hN⟩ (1 : Fin 2) * 256 + 256
      omega

/-- No point writes the features' or the scales' window back. -/
theorem inputsKept3 : ∀ t : Fin cfg3.N, (cfg3.win 0).flush t = false ∧ (cfg3.win 2).flush t = false :=
  (by decide +kernel : ∀ t : Fin grid3.N, win3_0.flush t = false ∧ win3_2.flush t = false)

/-- The features' array is after the launch as the launch found it. -/
theorem features3 (c : Dev nD) : (dat3 (F := Ideal) V c).arrAt 0 cfg3.N = V c main_v89 :=
  funext fun i => ((dat3 V c).arrAt_apply_of_forall_not_mem 0 cfg3.N i fun t _ hf =>
    absurd hf (by rw [(inputsKept3 t).1]; decide)).trans (congrFun (A_eq3 V c 0) i)

/-- The scales' array is after the launch as the launch found it. -/
theorem scales3 (c : Dev nD) : (dat3 (F := Ideal) V c).arrAt 2 cfg3.N = V c main_v13 :=
  funext fun i => ((dat3 V c).arrAt_apply_of_forall_not_mem 2 cfg3.N i fun t _ hf =>
    absurd hf (by rw [(inputsKept3 t).2]; decide)).trans (congrFun (A_eq3 V c 2) i)

end Cert.Gcn

end
-- ==== Proof.FoldLaunch3.lean ====
/-
  Across launch 3 of the matrix kernel: its output array holds the scaled product of the arrays it found, and every
  other array the program still reads is as it was.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms
import proofs.«111923_j23871428231325_2_alg».proof.Proof.Launch3

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem launch3_out : W14 m ρ c (Proc.devRef .tc main_v92)
    = scaledProduct (W13 m ρ c (Proc.devRef .tc main_v89)) (W13 m ρ c (Proc.devRef .tc main_v91)) (W13 m ρ c (Proc.devRef .tc main_v13)) :=
  (W14_arr m ρ c 3).trans (output3 (V13 m ρ) c)

theorem launch3_x : W14 m ρ c (Proc.devRef .tc main_v89) = W13 m ρ c (Proc.devRef .tc main_v89) :=
  (W14_arr m ρ c 0).trans (features3 (V13 m ρ) c)

theorem launch3_main_v13 : W14 m ρ c (Proc.devRef .tc main_v13) = W13 m ρ c (Proc.devRef .tc main_v13) :=
  (W14_arr m ρ c 2).trans (scales3 (V13 m ρ) c)

theorem launch3_main_v1 : W14 m ρ c (Proc.devRef .tc main_v1) = W13 m ρ c (Proc.devRef .tc main_v1) := W14_of_ne m ρ c main_v1 (by decide)

theorem launch3_main_v3 : W14 m ρ c (Proc.devRef .tc main_v3) = W13 m ρ c (Proc.devRef .tc main_v3) := W14_of_ne m ρ c main_v3 (by decide)

theorem launch3_main_arg2 : W14 m ρ c (Proc.devRef .tc main_arg2) = W13 m ρ c (Proc.devRef .tc main_arg2) := W14_of_ne m ρ c main_arg2 (by decide)

theorem launch3_main_arg4 : W14 m ρ c (Proc.devRef .tc main_arg4) = W13 m ρ c (Proc.devRef .tc main_arg4) := W14_of_ne m ρ c main_arg4 (by decide)

theorem launch3_main_arg5 : W14 m ρ c (Proc.devRef .tc main_arg5) = W13 m ρ c (Proc.devRef .tc main_arg5) := W14_of_ne m ρ c main_arg5 (by decide)

theorem launch3_main_arg6 : W14 m ρ c (Proc.devRef .tc main_arg6) = W13 m ρ c (Proc.devRef .tc main_arg6) := W14_of_ne m ρ c main_arg6 (by decide)

theorem launch3_main_arg7 : W14 m ρ c (Proc.devRef .tc main_arg7) = W13 m ρ c (Proc.devRef .tc main_arg7) := W14_of_ne m ρ c main_arg7 (by decide)

end Cert.Gcn

end
-- ==== Proof.FoldLayer1.lean ====
/-
  The host operations between launch 0 and launch 1, read: the next layer's input is one layer of host operations on
  what launch 0 left, the next weights are a slice of the weights' argument, and the arrays read later are untouched.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 8000000 in
theorem layer1_x : W5 m ρ c (Proc.devRef .tc main_v43)
    = kLayer (W2 m ρ c (Proc.devRef .tc main_v23)) (W2 m ρ c (Proc.devRef .tc main_v20)) (W2 m ρ c (Proc.devRef .tc main_v13)) (W2 m ρ c (Proc.devRef .tc main_v1)) (W2 m ρ c (Proc.devRef .tc main_v3))
        (Cert.ReferenceIdeal.Read.val_main_v55 (W2 m ρ c (Proc.devRef .tc main_arg5))) := by
  show StableHlo.after hostOps1_2 (StableHlo.after hostOps1_1 (StableHlo.after hostOps1 (W2 m ρ c))) (Proc.devRef .tc main_v43) = _
  after_results_simp
  rfl

set_option maxHeartbeats 8000000 in
theorem layer1_w : W5 m ρ c (Proc.devRef .tc main_v45) = Cert.ReferenceIdeal.Read.val_main_v60 (W2 m ρ c (Proc.devRef .tc main_arg4)) := by
  show StableHlo.after hostOps1_2 (StableHlo.after hostOps1_1 (StableHlo.after hostOps1 (W2 m ρ c))) (Proc.devRef .tc main_v45) = _
  after_results_simp
  rfl

set_option maxHeartbeats 8000000 in
theorem layer1_main_v13 : W5 m ρ c (Proc.devRef .tc main_v13) = W2 m ρ c (Proc.devRef .tc main_v13) := by
  show StableHlo.after hostOps1_2 (StableHlo.after hostOps1_1 (StableHlo.after hostOps1 (W2 m ρ c))) (Proc.devRef .tc main_v13) = _
  after_results_simp

set_option maxHeartbeats 8000000 in
theorem layer1_main_v1 : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  after_results_simp

set_option maxHeartbeats 8000000 in
theorem layer1_main_v3 : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  after_results_simp

set_option maxHeartbeats 8000000 in
theorem layer1_main_arg2 : W5 m ρ c (Proc.devRef .tc main_arg2) = W2 m ρ c (Proc.devRef .tc main_arg2) := by
  show StableHlo.after hostOps1_2 (StableHlo.after hostOps1_1 (StableHlo.after hostOps1 (W2 m ρ c))) (Proc.devRef .tc main_arg2) = _
  after_results_simp

set_option maxHeartbeats 8000000 in
theorem layer1_main_arg4 : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  after_results_simp

set_option maxHeartbeats 8000000 in
theorem layer1_main_arg5 : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  after_results_simp

set_option maxHeartbeats 8000000 in
theorem layer1_main_arg6 : W5 m ρ c (Proc.devRef .tc main_arg6) = W2 m ρ c (Proc.devRef .tc main_arg6) := by
  show StableHlo.after hostOps1_2 (StableHlo.after hostOps1_1 (StableHlo.after hostOps1 (W2 m ρ c))) (Proc.devRef .tc main_arg6) = _
  after_results_simp

set_option maxHeartbeats 8000000 in
theorem layer1_main_arg7 : W5 m ρ c (Proc.devRef .tc main_arg7) = W2 m ρ c (Proc.devRef .tc main_arg7) := by
  show StableHlo.after hostOps1_2 (StableHlo.after hostOps1_1 (StableHlo.after hostOps1 (W2 m ρ c))) (Proc.devRef .tc main_arg7) = _
  after_results_simp

end Cert.Gcn

end
-- ==== Proof.FoldLayer2.lean ====
/-
  The host operations between launch 1 and launch 2, read: the next layer's input is one layer of host operations on
  what launch 1 left, the next weights are a slice of the weights' argument, and the arrays read later are untouched.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 8000000 in
theorem layer2_x : W9 m ρ c (Proc.devRef .tc main_v66)
    = kLayer (W6 m ρ c (Proc.devRef .tc main_v46)) (W6 m ρ c (Proc.devRef .tc main_v43)) (W6 m ρ c (Proc.devRef .tc main_v13)) (W6 m ρ c (Proc.devRef .tc main_v1)) (W6 m ρ c (Proc.devRef .tc main_v3))
        (Cert.ReferenceIdeal.Read.val_main_v78 (W6 m ρ c (Proc.devRef .tc main_arg5))) := by
  show StableHlo.after hostOps2_2 (StableHlo.after hostOps2_1 (StableHlo.after hostOps2 (W6 m ρ c))) (Proc.devRef .tc main_v66) = _
  after_results_simp
  rfl

set_option maxHeartbeats 8000000 in
theorem layer2_w : W9 m ρ c (Proc.devRef .tc main_v68) = Cert.ReferenceIdeal.Read.val_main_v83 (W6 m ρ c (Proc.devRef .tc main_arg4)) := by
  show StableHlo.after hostOps2_2 (StableHlo.after hostOps2_1 (StableHlo.after hostOps2 (W6 m ρ c))) (Proc.devRef .tc main_v68) = _
  after_results_simp
  rfl

set_option maxHeartbeats 8000000 in
theorem layer2_main_v13 : W9 m ρ c (Proc.devRef .tc main_v13) = W6 m ρ c (Proc.devRef .tc main_v13) := by
  show StableHlo.after hostOps2_2 (StableHlo.after hostOps2_1 (StableHlo.after hostOps2 (W6 m ρ c))) (Proc.devRef .tc main_v13) = _
  after_results_simp

set_option maxHeartbeats 8000000 in
theorem layer2_main_v1 : W9 m ρ c (Proc.devRef .tc main_v1) = W6 m ρ c (Proc.devRef .tc main_v1) := by
  show StableHlo.after hostOps2_2 (StableHlo.after hostOps2_1 (StableHlo.after hostOps2 (W6 m ρ c))) (Proc.devRef .tc main_v1) = _
  after_results_simp

set_option maxHeartbeats 8000000 in
theorem layer2_main_v3 : W9 m ρ c (Proc.devRef .tc main_v3) = W6 m ρ c (Proc.devRef .tc main_v3) := by
  show StableHlo.after hostOps2_2 (StableHlo.after hostOps2_1 (StableHlo.after hostOps2 (W6 m ρ c))) (Proc.devRef .tc main_v3) = _
  after_results_simp

set_option maxHeartbeats 8000000 in
theorem layer2_main_arg2 : W9 m ρ c (Proc.devRef .tc main_arg2) = W6 m ρ c (Proc.devRef .tc main_arg2) := by
  show StableHlo.after hostOps2_2 (StableHlo.after hostOps2_1 (StableHlo.after hostOps2 (W6 m ρ c))) (Proc.devRef .tc main_arg2) = _
  after_results_simp

set_option maxHeartbeats 8000000 in
theorem layer2_main_arg4 : W9 m ρ c (Proc.devRef .tc main_arg4) = W6 m ρ c (Proc.devRef .tc main_arg4) := by
  show StableHlo.after hostOps2_2 (StableHlo.after hostOps2_1 (StableHlo.after hostOps2 (W6 m ρ c))) (Proc.devRef .tc main_arg4) = _
  after_results_simp

set_option maxHeartbeats 8000000 in
theorem layer2_main_arg5 : W9 m ρ c (Proc.devRef .tc main_arg5) = W6 m ρ c (Proc.devRef .tc main_arg5) := by
  show StableHlo.after hostOps2_2 (StableHlo.after hostOps2_1 (StableHlo.after hostOps2 (W6 m ρ c))) (Proc.devRef .tc main_arg5) = _
  after_results_simp

set_option maxHeartbeats 8000000 in
theorem layer2_main_arg6 : W9 m ρ c (Proc.devRef .tc main_arg6) = W6 m ρ c (Proc.devRef .tc main_arg6) := by
  show StableHlo.after hostOps2_2 (StableHlo.after hostOps2_1 (StableHlo.after hostOps2 (W6 m ρ c))) (Proc.devRef .tc main_arg6) = _
  after_results_simp

set_option maxHeartbeats 8000000 in
theorem layer2_main_arg7 : W9 m ρ c (Proc.devRef .tc main_arg7) = W6 m ρ c (Proc.devRef .tc main_arg7) := by
  show StableHlo.after hostOps2_2 (StableHlo.after hostOps2_1 (StableHlo.after hostOps2 (W6 m ρ c))) (Proc.devRef .tc main_arg7) = _
  after_results_simp

end Cert.Gcn

end
-- ==== Proof.FoldLayer3.lean ====
/-
  The host operations between launch 2 and launch 3, read: the next layer's input is one layer of host operations on
  what launch 2 left, the next weights are a slice of the weights' argument, and the arrays read later are untouched.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 8000000 in
theorem layer3_x : W13 m ρ c (Proc.devRef .tc main_v89)
    = kLayer (W10 m ρ c (Proc.devRef .tc main_v69)) (W10 m ρ c (Proc.devRef .tc main_v66)) (W10 m ρ c (Proc.devRef .tc main_v13)) (W10 m ρ c (Proc.devRef .tc main_v1)) (W10 m ρ c (Proc.devRef .tc main_v3))
        (Cert.ReferenceIdeal.Read.val_main_v101 (W10 m ρ c (Proc.devRef .tc main_arg5))) := by
  show StableHlo.after hostOps3_2 (StableHlo.after hostOps3_1 (StableHlo.after hostOps3 (W10 m ρ c))) (Proc.devRef .tc main_v89) = _
  after_results_simp
  rfl

set_option maxHeartbeats 8000000 in
theorem layer3_w : W13 m ρ c (Proc.devRef .tc main_v91) = Cert.ReferenceIdeal.Read.val_main_v106 (W10 m ρ c (Proc.devRef .tc main_arg4)) := by
  show StableHlo.after hostOps3_2 (StableHlo.after hostOps3_1 (StableHlo.after hostOps3 (W10 m ρ c))) (Proc.devRef .tc main_v91) = _
  after_results_simp
  rfl

set_option maxHeartbeats 8000000 in
theorem layer3_main_v13 : W13 m ρ c (Proc.devRef .tc main_v13) = W10 m ρ c (Proc.devRef .tc main_v13) := by
  show StableHlo.after hostOps3_2 (StableHlo.after hostOps3_1 (StableHlo.after hostOps3 (W10 m ρ c))) (Proc.devRef .tc main_v13) = _
  after_results_simp

set_option maxHeartbeats 8000000 in
theorem layer3_main_v1 : W13 m ρ c (Proc.devRef .tc main_v1) = W10 m ρ c (Proc.devRef .tc main_v1) := by
  show StableHlo.after hostOps3_2 (StableHlo.after hostOps3_1 (StableHlo.after hostOps3 (W10 m ρ c))) (Proc.devRef .tc main_v1) = _
  after_results_simp

set_option maxHeartbeats 8000000 in
theorem layer3_main_v3 : W13 m ρ c (Proc.devRef .tc main_v3) = W10 m ρ c (Proc.devRef .tc main_v3) := by
  show StableHlo.after hostOps3_2 (StableHlo.after hostOps3_1 (StableHlo.after hostOps3 (W10 m ρ c))) (Proc.devRef .tc main_v3) = _
  after_results_simp

set_option maxHeartbeats 8000000 in
theorem layer3_main_arg2 : W13 m ρ c (Proc.devRef .tc main_arg2) = W10 m ρ c (Proc.devRef .tc main_arg2) := by
  show StableHlo.after hostOps3_2 (StableHlo.after hostOps3_1 (StableHlo.after hostOps3 (W10 m ρ c))) (Proc.devRef .tc main_arg2) = _
  after_results_simp

set_option maxHeartbeats 8000000 in
theorem layer3_main_arg4 : W13 m ρ c (Proc.devRef .tc main_arg4) = W10 m ρ c (Proc.devRef .tc main_arg4) := by
  show StableHlo.after hostOps3_2 (StableHlo.after hostOps3_1 (StableHlo.after hostOps3 (W10 m ρ c))) (Proc.devRef .tc main_arg4) = _
  after_results_simp

set_option maxHeartbeats 8000000 in
theorem layer3_main_arg5 : W13 m ρ c (Proc.devRef .tc main_arg5) = W10 m ρ c (Proc.devRef .tc main_arg5) := by
  show StableHlo.after hostOps3_2 (StableHlo.after hostOps3_1 (StableHlo.after hostOps3 (W10 m ρ c))) (Proc.devRef .tc main_arg5) = _
  after_results_simp

set_option maxHeartbeats 8000000 in
theorem layer3_main_arg6 : W13 m ρ c (Proc.devRef .tc main_arg6) = W10 m ρ c (Proc.devRef .tc main_arg6) := by
  show StableHlo.after hostOps3_2 (StableHlo.after hostOps3_1 (StableHlo.after hostOps3 (W10 m ρ c))) (Proc.devRef .tc main_arg6) = _
  after_results_simp

set_option maxHeartbeats 8000000 in
theorem layer3_main_arg7 : W13 m ρ c (Proc.devRef .tc main_arg7) = W10 m ρ c (Proc.devRef .tc main_arg7) := by
  show StableHlo.after hostOps3_2 (StableHlo.after hostOps3_1 (StableHlo.after hostOps3 (W10 m ρ c))) (Proc.devRef .tc main_arg7) = _
  after_results_simp

end Cert.Gcn

end
-- ==== Proof.FoldEnd.lean ====
/-
  The host operations after the last launch, read: the program's result is the shared tail on one more layer of host
  operations on what the last launch left.
-/
import proofs.«111923_j23871428231325_2_alg».proof.Proof.Gen.KernelIdeal.Frame
import proofs.«111923_j23871428231325_2_alg».proof.Proof.Gen.ReferenceIdeal.Read
import proofs.«111923_j23871428231325_2_alg».proof.Proof.KernelTerms

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 8000000 in
theorem end_result : W17 m ρ c (Proc.devRef .tc main_v128)
    = kTail (kLayer (W14 m ρ c (Proc.devRef .tc main_v92)) (W14 m ρ c (Proc.devRef .tc main_v89)) (W14 m ρ c (Proc.devRef .tc main_v13)) (W14 m ρ c (Proc.devRef .tc main_v1)) (W14 m ρ c (Proc.devRef .tc main_v3))
          (Cert.ReferenceIdeal.Read.val_main_v124 (W14 m ρ c (Proc.devRef .tc main_arg5))))
        (W14 m ρ c (Proc.devRef .tc main_arg2)) (W14 m ρ c (Proc.devRef .tc main_arg6)) (W14 m ρ c (Proc.devRef .tc main_arg7)) := by
  show StableHlo.after hostOps4_2 (StableHlo.after hostOps4_1 (StableHlo.after hostOps4 (W14 m ρ c))) (Proc.devRef .tc main_v128) = _
  after_results_simp
  rfl

end Cert.Gcn

end
-- ==== Proof.Network.lean ====
/-
  The kernel's program as four steps and a tail.

  A step takes the layer's input, its weights and its bias rows: the launch's scaled product of the input, the
  weights and the scales, then the layer of host operations. The program's result is the tail on the fourth step's
  output, the first step's input being the embedded features.
-/
import proofs.«111923_j23871428231325_2_alg».proof.Proof.KernelTerms
import proofs.«111923_j23871428231325_2_alg».proof.Proof.Product
import proofs.«111923_j23871428231325_2_alg».proof.Proof.Gen.ReferenceIdeal.Read

noncomputable section

namespace Cert.Gcn

open Idealize.ShloMosaic Cert.KernelIdeal Cert.KernelIdeal.Gen

/-- One launch and the layer of host operations after it. -/
def kStep (x : (⟨S20000x256, .f32⟩ : BufTy).Contents (Elt Ideal)) (w : (⟨S256x256, .f32⟩ : BufTy).Contents (Elt Ideal)) (brow : (⟨S20000x256, .f32⟩ : BufTy).Contents (Elt Ideal))
    (e : (⟨S2x300000, .i32⟩ : BufTy).Contents (Elt Ideal)) : (⟨S20000x256, .f32⟩ : BufTy).Contents (Elt Ideal) :=
  kLayer (F := Ideal) (scaledProduct x w (kDinvCol (F := Ideal) (Cert.ReferenceIdeal.Read.val_main_v5 (F := Ideal) e))) x (kDinvCol (F := Ideal) (Cert.ReferenceIdeal.Read.val_main_v5 (F := Ideal) e))
    (Cert.ReferenceIdeal.Read.val_main_v2 (F := Ideal) e) (Cert.ReferenceIdeal.Read.val_main_v5 (F := Ideal) e) brow

def kX1 (a0 : (⟨S20000, .i32⟩ : BufTy).Contents (Elt Ideal)) (a1 : (⟨S2x300000, .i32⟩ : BufTy).Contents (Elt Ideal)) (a3 : (⟨S101x256, .f32⟩ : BufTy).Contents (Elt Ideal))
    (a4 : (⟨S4x256x256, .f32⟩ : BufTy).Contents (Elt Ideal)) (a5 : (⟨S4x256, .f32⟩ : BufTy).Contents (Elt Ideal)) : (⟨S20000x256, .f32⟩ : BufTy).Contents (Elt Ideal) :=
  kStep (Cert.ReferenceIdeal.Read.val_main_v35 (F := Ideal) a0 a3) (Cert.ReferenceIdeal.Read.val_main_v37 (F := Ideal) a4) (Cert.ReferenceIdeal.Read.val_main_v55 (F := Ideal) a5) a1

def kX2 (a0 : (⟨S20000, .i32⟩ : BufTy).Contents (Elt Ideal)) (a1 : (⟨S2x300000, .i32⟩ : BufTy).Contents (Elt Ideal)) (a3 : (⟨S101x256, .f32⟩ : BufTy).Contents (Elt Ideal))
    (a4 : (⟨S4x256x256, .f32⟩ : BufTy).Contents (Elt Ideal)) (a5 : (⟨S4x256, .f32⟩ : BufTy).Contents (Elt Ideal)) : (⟨S20000x256, .f32⟩ : BufTy).Contents (Elt Ideal) :=
  kStep (kX1 a0 a1 a3 a4 a5) (Cert.ReferenceIdeal.Read.val_main_v60 (F := Ideal) a4) (Cert.ReferenceIdeal.Read.val_main_v78 (F := Ideal) a5) a1

def kX3 (a0 : (⟨S20000, .i32⟩ : BufTy).Contents (Elt Ideal)) (a1 : (⟨S2x300000, .i32⟩ : BufTy).Contents (Elt Ideal)) (a3 : (⟨S101x256, .f32⟩ : BufTy).Contents (Elt Ideal))
    (a4 : (⟨S4x256x256, .f32⟩ : BufTy).Contents (Elt Ideal)) (a5 : (⟨S4x256, .f32⟩ : BufTy).Contents (Elt Ideal)) : (⟨S20000x256, .f32⟩ : BufTy).Contents (Elt Ideal) :=
  kStep (kX2 a0 a1 a3 a4 a5) (Cert.ReferenceIdeal.Read.val_main_v83 (F := Ideal) a4) (Cert.ReferenceIdeal.Read.val_main_v101 (F := Ideal) a5) a1

def kX4 (a0 : (⟨S20000, .i32⟩ : BufTy).Contents (Elt Ideal)) (a1 : (⟨S2x300000, .i32⟩ : BufTy).Contents (Elt Ideal)) (a3 : (⟨S101x256, .f32⟩ : BufTy).Contents (Elt Ideal))
    (a4 : (⟨S4x256x256, .f32⟩ : BufTy).Contents (Elt Ideal)) (a5 : (⟨S4x256, .f32⟩ : BufTy).Contents (Elt Ideal)) : (⟨S20000x256, .f32⟩ : BufTy).Contents (Elt Ideal) :=
  kStep (kX3 a0 a1 a3 a4 a5) (Cert.ReferenceIdeal.Read.val_main_v106 (F := Ideal) a4) (Cert.ReferenceIdeal.Read.val_main_v124 (F := Ideal) a5) a1

/-- The program's result as a function of its arguments. -/
def kResult (a0 : (⟨S20000, .i32⟩ : BufTy).Contents (Elt Ideal)) (a1 : (⟨S2x300000, .i32⟩ : BufTy).Contents (Elt Ideal)) (a2 : (⟨S20000, .i32⟩ : BufTy).Contents (Elt Ideal))
    (a3 : (⟨S101x256, .f32⟩ : BufTy).Contents (Elt Ideal)) (a4 : (⟨S4x256x256, .f32⟩ : BufTy).Contents (Elt Ideal)) (a5 : (⟨S4x256, .f32⟩ : BufTy).Contents (Elt Ideal))
    (a6 : (⟨S256x1, .f32⟩ : BufTy).Contents (Elt Ideal)) (a7 : (⟨S1, .f32⟩ : BufTy).Contents (Elt Ideal)) : (⟨S64x1, .f32⟩ : BufTy).Contents (Elt Ideal) :=
  kTail (F := Ideal) (kX4 a0 a1 a3 a4 a5) a2 a6 a7

end Cert.Gcn

end
-- ==== Proof.KernelValue.lean ====
/-
  What the result array holds after the run, as a function of the argument arrays.

  Boundary by boundary along the seventeen segments, each array the program still reads is known: the edge words,
  the scales' column and the arguments never change; a launch leaves the scaled product of what it found; the host
  operations after it make the next layer's input. At the last boundary the result array holds the network's result.
-/
import proofs.«111923_j23871428231325_2_alg».proof.Proof.FoldStart
import proofs.«111923_j23871428231325_2_alg».proof.Proof.FoldLaunch0
import proofs.«111923_j23871428231325_2_alg».proof.Proof.FoldLaunch1
import proofs.«111923_j23871428231325_2_alg».proof.Proof.FoldLaunch2
import proofs.«111923_j23871428231325_2_alg».proof.Proof.FoldLaunch3
import proofs.«111923_j23871428231325_2_alg».proof.Proof.FoldLayer1
import proofs.«111923_j23871428231325_2_alg».proof.Proof.FoldLayer2
import proofs.«111923_j23871428231325_2_alg».proof.Proof.FoldLayer3
import proofs.«111923_j23871428231325_2_alg».proof.Proof.FoldEnd
import proofs.«111923_j23871428231325_2_alg».proof.Proof.Network

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem at1_main_v13 : W1 m ρ c (Proc.devRef .tc main_v13) = kDinvCol (F := Ideal) (Cert.ReferenceIdeal.Read.val_main_v5 (F := Ideal) (m ((c : Thread nD τ).loc main_arg1))) := start_main_v13 m ρ c

theorem at1_main_v1 : W1 m ρ c (Proc.devRef .tc main_v1) = Cert.ReferenceIdeal.Read.val_main_v2 (F := Ideal) (m ((c : Thread nD τ).loc main_arg1)) := start_main_v1 m ρ c

theorem at1_main_v3 : W1 m ρ c (Proc.devRef .tc main_v3) = Cert.ReferenceIdeal.Read.val_main_v5 (F := Ideal) (m ((c : Thread nD τ).loc main_arg1)) := start_main_v3 m ρ c

theorem at1_main_arg2 : W1 m ρ c (Proc.devRef .tc main_arg2) = (m ((c : Thread nD τ).loc main_arg2)) := start_main_arg2 m ρ c

theorem at1_main_arg4 : W1 m ρ c (Proc.devRef .tc main_arg4) = (m ((c : Thread nD τ).loc main_arg4)) := start_main_arg4 m ρ c

theorem at1_main_arg5 : W1 m ρ c (Proc.devRef .tc main_arg5) = (m ((c : Thread nD τ).loc main_arg5)) := start_main_arg5 m ρ c

theorem at1_main_arg6 : W1 m ρ c (Proc.devRef .tc main_arg6) = (m ((c : Thread nD τ).loc main_arg6)) := start_main_arg6 m ρ c

theorem at1_main_arg7 : W1 m ρ c (Proc.devRef .tc main_arg7) = (m ((c : Thread nD τ).loc main_arg7)) := start_main_arg7 m ρ c

theorem at1_x : W1 m ρ c (Proc.devRef .tc main_v20) = Cert.ReferenceIdeal.Read.val_main_v35 (F := Ideal) (m ((c : Thread nD τ).loc main_arg0)) (m ((c : Thread nD τ).loc main_arg3)) := start_main_v20 m ρ c

theorem at1_w : W1 m ρ c (Proc.devRef .tc main_v22) = Cert.ReferenceIdeal.Read.val_main_v37 (F := Ideal) (m ((c : Thread nD τ).loc main_arg4)) := start_main_v22 m ρ c

theorem at2_main_v13 : W2 m ρ c (Proc.devRef .tc main_v13) = kDinvCol (F := Ideal) (Cert.ReferenceIdeal.Read.val_main_v5 (F := Ideal) (m ((c : Thread nD τ).loc main_arg1))) := (launch0_main_v13 m ρ c).trans (at1_main_v13 m ρ c)

theorem at2_main_v1 : W2 m ρ c (Proc.devRef .tc main_v1) = Cert.ReferenceIdeal.Read.val_main_v2 (F := Ideal) (m ((c : Thread nD τ).loc main_arg1)) := (launch0_main_v1 m ρ c).trans (at1_main_v1 m ρ c)

theorem at2_main_v3 : W2 m ρ c (Proc.devRef .tc main_v3) = Cert.ReferenceIdeal.Read.val_main_v5 (F := Ideal) (m ((c : Thread nD τ).loc main_arg1)) := (launch0_main_v3 m ρ c).trans (at1_main_v3 m ρ c)

theorem at2_main_arg2 : W2 m ρ c (Proc.devRef .tc main_arg2) = (m ((c : Thread nD τ).loc main_arg2)) := (launch0_main_arg2 m ρ c).trans (at1_main_arg2 m ρ c)

theorem at2_main_arg4 : W2 m ρ c (Proc.devRef .tc main_arg4) = (m ((c : Thread nD τ).loc main_arg4)) := (launch0_main_arg4 m ρ c).trans (at1_main_arg4 m ρ c)

theorem at2_main_arg5 : W2 m ρ c (Proc.devRef .tc main_arg5) = (m ((c : Thread nD τ).loc main_arg5)) := (launch0_main_arg5 m ρ c).trans (at1_main_arg5 m ρ c)

theorem at2_main_arg6 : W2 m ρ c (Proc.devRef .tc main_arg6) = (m ((c : Thread nD τ).loc main_arg6)) := (launch0_main_arg6 m ρ c).trans (at1_main_arg6 m ρ c)

theorem at2_main_arg7 : W2 m ρ c (Proc.devRef .tc main_arg7) = (m ((c : Thread nD τ).loc main_arg7)) := (launch0_main_arg7 m ρ c).trans (at1_main_arg7 m ρ c)

theorem at2_x : W2 m ρ c (Proc.devRef .tc main_v20) = Cert.ReferenceIdeal.Read.val_main_v35 (F := Ideal) (m ((c : Thread nD τ).loc main_arg0)) (m ((c : Thread nD τ).loc main_arg3)) := (launch0_x m ρ c).trans (at1_x m ρ c)

theorem at2_out : W2 m ρ c (Proc.devRef .tc main_v23) = scaledProduct (Cert.ReferenceIdeal.Read.val_main_v35 (F := Ideal) (m ((c : Thread nD τ).loc main_arg0)) (m ((c : Thread nD τ).loc main_arg3))) (Cert.ReferenceIdeal.Read.val_main_v37 (F := Ideal) (m ((c : Thread nD τ).loc main_arg4))) (kDinvCol (F := Ideal) (Cert.ReferenceIdeal.Read.val_main_v5 (F := Ideal) (m ((c : Thread nD τ).loc main_arg1)))) := by
  rw [launch0_out m ρ c, at1_x m ρ c, at1_w m ρ c, at1_main_v13 m ρ c]

theorem at5_main_v13 : W5 m ρ c (Proc.devRef .tc main_v13) = kDinvCol (F := Ideal) (Cert.ReferenceIdeal.Read.val_main_v5 (F := Ideal) (m ((c : Thread nD τ).loc main_arg1))) := (layer1_main_v13 m ρ c).trans (at2_main_v13 m ρ c)

theorem at5_main_v1 : W5 m ρ c (Proc.devRef .tc main_v1) = Cert.ReferenceIdeal.Read.val_main_v2 (F := Ideal) (m ((c : Thread nD τ).loc main_arg1)) := (layer1_main_v1 m ρ c).trans (at2_main_v1 m ρ c)

theorem at5_main_v3 : W5 m ρ c (Proc.devRef .tc main_v3) = Cert.ReferenceIdeal.Read.val_main_v5 (F := Ideal) (m ((c : Thread nD τ).loc main_arg1)) := (layer1_main_v3 m ρ c).trans (at2_main_v3 m ρ c)

theorem at5_main_arg2 : W5 m ρ c (Proc.devRef .tc main_arg2) = (m ((c : Thread nD τ).loc main_arg2)) := (layer1_main_arg2 m ρ c).trans (at2_main_arg2 m ρ c)

theorem at5_main_arg4 : W5 m ρ c (Proc.devRef .tc main_arg4) = (m ((c : Thread nD τ).loc main_arg4)) := (layer1_main_arg4 m ρ c).trans (at2_main_arg4 m ρ c)

theorem at5_main_arg5 : W5 m ρ c (Proc.devRef .tc main_arg5) = (m ((c : Thread nD τ).loc main_arg5)) := (layer1_main_arg5 m ρ c).trans (at2_main_arg5 m ρ c)

theorem at5_main_arg6 : W5 m ρ c (Proc.devRef .tc main_arg6) = (m ((c : Thread nD τ).loc main_arg6)) := (layer1_main_arg6 m ρ c).trans (at2_main_arg6 m ρ c)

theorem at5_main_arg7 : W5 m ρ c (Proc.devRef .tc main_arg7) = (m ((c : Thread nD τ).loc main_arg7)) := (layer1_main_arg7 m ρ c).trans (at2_main_arg7 m ρ c)

theorem at5_x : W5 m ρ c (Proc.devRef .tc main_v43) = kX1 (m ((c : Thread nD τ).loc main_arg0)) (m ((c : Thread nD τ).loc main_arg1)) (m ((c : Thread nD τ).loc main_arg3)) (m ((c : Thread nD τ).loc main_arg4)) (m ((c : Thread nD τ).loc main_arg5)) := by
  rw [layer1_x m ρ c, at2_out m ρ c, at2_x m ρ c, at2_main_v13 m ρ c, at2_main_v1 m ρ c, at2_main_v3 m ρ c,
    at2_main_arg5 m ρ c]
  rfl

theorem at5_w : W5 m ρ c (Proc.devRef .tc main_v45) = Cert.ReferenceIdeal.Read.val_main_v60 (F := Ideal) (m ((c : Thread nD τ).loc main_arg4)) := by
  rw [layer1_w m ρ c, at2_main_arg4 m ρ c]

theorem at6_main_v13 : W6 m ρ c (Proc.devRef .tc main_v13) = kDinvCol (F := Ideal) (Cert.ReferenceIdeal.Read.val_main_v5 (F := Ideal) (m ((c : Thread nD τ).loc main_arg1))) := (launch1_main_v13 m ρ c).trans (at5_main_v13 m ρ c)

theorem at6_main_v1 : W6 m ρ c (Proc.devRef .tc main_v1) = Cert.ReferenceIdeal.Read.val_main_v2 (F := Ideal) (m ((c : Thread nD τ).loc main_arg1)) := (launch1_main_v1 m ρ c).trans (at5_main_v1 m ρ c)

theorem at6_main_v3 : W6 m ρ c (Proc.devRef .tc main_v3) = Cert.ReferenceIdeal.Read.val_main_v5 (F := Ideal) (m ((c : Thread nD τ).loc main_arg1)) := (launch1_main_v3 m ρ c).trans (at5_main_v3 m ρ c)

theorem at6_main_arg2 : W6 m ρ c (Proc.devRef .tc main_arg2) = (m ((c : Thread nD τ).loc main_arg2)) := (launch1_main_arg2 m ρ c).trans (at5_main_arg2 m ρ c)

theorem at6_main_arg4 : W6 m ρ c (Proc.devRef .tc main_arg4) = (m ((c : Thread nD τ).loc main_arg4)) := (launch1_main_arg4 m ρ c).trans (at5_main_arg4 m ρ c)

theorem at6_main_arg5 : W6 m ρ c (Proc.devRef .tc main_arg5) = (m ((c : Thread nD τ).loc main_arg5)) := (launch1_main_arg5 m ρ c).trans (at5_main_arg5 m ρ c)

theorem at6_main_arg6 : W6 m ρ c (Proc.devRef .tc main_arg6) = (m ((c : Thread nD τ).loc main_arg6)) := (launch1_main_arg6 m ρ c).trans (at5_main_arg6 m ρ c)

theorem at6_main_arg7 : W6 m ρ c (Proc.devRef .tc main_arg7) = (m ((c : Thread nD τ).loc main_arg7)) := (launch1_main_arg7 m ρ c).trans (at5_main_arg7 m ρ c)

theorem at6_x : W6 m ρ c (Proc.devRef .tc main_v43) = kX1 (m ((c : Thread nD τ).loc main_arg0)) (m ((c : Thread nD τ).loc main_arg1)) (m ((c : Thread nD τ).loc main_arg3)) (m ((c : Thread nD τ).loc main_arg4)) (m ((c : Thread nD τ).loc main_arg5)) := (launch1_x m ρ c).trans (at5_x m ρ c)

theorem at6_out : W6 m ρ c (Proc.devRef .tc main_v46) = scaledProduct (kX1 (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v60 (F := Ideal) (m ((c : Thread nD τ).loc main_arg4))) (kDinvCol (F := Ideal) (Cert.ReferenceIdeal.Read.val_main_v5 (F := Ideal) (m ((c : Thread nD τ).loc main_arg1)))) := by
  rw [launch1_out m ρ c, at5_x m ρ c, at5_w m ρ c, at5_main_v13 m ρ c]

theorem at9_main_v13 : W9 m ρ c (Proc.devRef .tc main_v13) = kDinvCol (F := Ideal) (Cert.ReferenceIdeal.Read.val_main_v5 (F := Ideal) (m ((c : Thread nD τ).loc main_arg1))) := (layer2_main_v13 m ρ c).trans (at6_main_v13 m ρ c)

theorem at9_main_v1 : W9 m ρ c (Proc.devRef .tc main_v1) = Cert.ReferenceIdeal.Read.val_main_v2 (F := Ideal) (m ((c : Thread nD τ).loc main_arg1)) := (layer2_main_v1 m ρ c).trans (at6_main_v1 m ρ c)

theorem at9_main_v3 : W9 m ρ c (Proc.devRef .tc main_v3) = Cert.ReferenceIdeal.Read.val_main_v5 (F := Ideal) (m ((c : Thread nD τ).loc main_arg1)) := (layer2_main_v3 m ρ c).trans (at6_main_v3 m ρ c)

theorem at9_main_arg2 : W9 m ρ c (Proc.devRef .tc main_arg2) = (m ((c : Thread nD τ).loc main_arg2)) := (layer2_main_arg2 m ρ c).trans (at6_main_arg2 m ρ c)

theorem at9_main_arg4 : W9 m ρ c (Proc.devRef .tc main_arg4) = (m ((c : Thread nD τ).loc main_arg4)) := (layer2_main_arg4 m ρ c).trans (at6_main_arg4 m ρ c)

theorem at9_main_arg5 : W9 m ρ c (Proc.devRef .tc main_arg5) = (m ((c : Thread nD τ).loc main_arg5)) := (layer2_main_arg5 m ρ c).trans (at6_main_arg5 m ρ c)

theorem at9_main_arg6 : W9 m ρ c (Proc.devRef .tc main_arg6) = (m ((c : Thread nD τ).loc main_arg6)) := (layer2_main_arg6 m ρ c).trans (at6_main_arg6 m ρ c)

theorem at9_main_arg7 : W9 m ρ c (Proc.devRef .tc main_arg7) = (m ((c : Thread nD τ).loc main_arg7)) := (layer2_main_arg7 m ρ c).trans (at6_main_arg7 m ρ c)

theorem at9_x : W9 m ρ c (Proc.devRef .tc main_v66) = kX2 (m ((c : Thread nD τ).loc main_arg0)) (m ((c : Thread nD τ).loc main_arg1)) (m ((c : Thread nD τ).loc main_arg3)) (m ((c : Thread nD τ).loc main_arg4)) (m ((c : Thread nD τ).loc main_arg5)) := by
  rw [layer2_x m ρ c, at6_out m ρ c, at6_x m ρ c, at6_main_v13 m ρ c, at6_main_v1 m ρ c, at6_main_v3 m ρ c,
    at6_main_arg5 m ρ c]
  rfl

theorem at9_w : W9 m ρ c (Proc.devRef .tc main_v68) = Cert.ReferenceIdeal.Read.val_main_v83 (F := Ideal) (m ((c : Thread nD τ).loc main_arg4)) := by
  rw [layer2_w m ρ c, at6_main_arg4 m ρ c]

theorem at10_main_v13 : W10 m ρ c (Proc.devRef .tc main_v13) = kDinvCol (F := Ideal) (Cert.ReferenceIdeal.Read.val_main_v5 (F := Ideal) (m ((c : Thread nD τ).loc main_arg1))) := (launch2_main_v13 m ρ c).trans (at9_main_v13 m ρ c)

theorem at10_main_v1 : W10 m ρ c (Proc.devRef .tc main_v1) = Cert.ReferenceIdeal.Read.val_main_v2 (F := Ideal) (m ((c : Thread nD τ).loc main_arg1)) := (launch2_main_v1 m ρ c).trans (at9_main_v1 m ρ c)

theorem at10_main_v3 : W10 m ρ c (Proc.devRef .tc main_v3) = Cert.ReferenceIdeal.Read.val_main_v5 (F := Ideal) (m ((c : Thread nD τ).loc main_arg1)) := (launch2_main_v3 m ρ c).trans (at9_main_v3 m ρ c)

theorem at10_main_arg2 : W10 m ρ c (Proc.devRef .tc main_arg2) = (m ((c : Thread nD τ).loc main_arg2)) := (launch2_main_arg2 m ρ c).trans (at9_main_arg2 m ρ c)

theorem at10_main_arg4 : W10 m ρ c (Proc.devRef .tc main_arg4) = (m ((c : Thread nD τ).loc main_arg4)) := (launch2_main_arg4 m ρ c).trans (at9_main_arg4 m ρ c)

theorem at10_main_arg5 : W10 m ρ c (Proc.devRef .tc main_arg5) = (m ((c : Thread nD τ).loc main_arg5)) := (launch2_main_arg5 m ρ c).trans (at9_main_arg5 m ρ c)

theorem at10_main_arg6 : W10 m ρ c (Proc.devRef .tc main_arg6) = (m ((c : Thread nD τ).loc main_arg6)) := (launch2_main_arg6 m ρ c).trans (at9_main_arg6 m ρ c)

theorem at10_main_arg7 : W10 m ρ c (Proc.devRef .tc main_arg7) = (m ((c : Thread nD τ).loc main_arg7)) := (launch2_main_arg7 m ρ c).trans (at9_main_arg7 m ρ c)

theorem at10_x : W10 m ρ c (Proc.devRef .tc main_v66) = kX2 (m ((c : Thread nD τ).loc main_arg0)) (m ((c : Thread nD τ).loc main_arg1)) (m ((c : Thread nD τ).loc main_arg3)) (m ((c : Thread nD τ).loc main_arg4)) (m ((c : Thread nD τ).loc main_arg5)) := (launch2_x m ρ c).trans (at9_x m ρ c)

theorem at10_out : W10 m ρ c (Proc.devRef .tc main_v69) = scaledProduct (kX2 (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v83 (F := Ideal) (m ((c : Thread nD τ).loc main_arg4))) (kDinvCol (F := Ideal) (Cert.ReferenceIdeal.Read.val_main_v5 (F := Ideal) (m ((c : Thread nD τ).loc main_arg1)))) := by
  rw [launch2_out m ρ c, at9_x m ρ c, at9_w m ρ c, at9_main_v13 m ρ c]

theorem at13_main_v13 : W13 m ρ c (Proc.devRef .tc main_v13) = kDinvCol (F := Ideal) (Cert.ReferenceIdeal.Read.val_main_v5 (F := Ideal) (m ((c : Thread nD τ).loc main_arg1))) := (layer3_main_v13 m ρ c).trans (at10_main_v13 m ρ c)

theorem at13_main_v1 : W13 m ρ c (Proc.devRef .tc main_v1) = Cert.ReferenceIdeal.Read.val_main_v2 (F := Ideal) (m ((c : Thread nD τ).loc main_arg1)) := (layer3_main_v1 m ρ c).trans (at10_main_v1 m ρ c)

theorem at13_main_v3 : W13 m ρ c (Proc.devRef .tc main_v3) = Cert.ReferenceIdeal.Read.val_main_v5 (F := Ideal) (m ((c : Thread nD τ).loc main_arg1)) := (layer3_main_v3 m ρ c).trans (at10_main_v3 m ρ c)

theorem at13_main_arg2 : W13 m ρ c (Proc.devRef .tc main_arg2) = (m ((c : Thread nD τ).loc main_arg2)) := (layer3_main_arg2 m ρ c).trans (at10_main_arg2 m ρ c)

theorem at13_main_arg4 : W13 m ρ c (Proc.devRef .tc main_arg4) = (m ((c : Thread nD τ).loc main_arg4)) := (layer3_main_arg4 m ρ c).trans (at10_main_arg4 m ρ c)

theorem at13_main_arg5 : W13 m ρ c (Proc.devRef .tc main_arg5) = (m ((c : Thread nD τ).loc main_arg5)) := (layer3_main_arg5 m ρ c).trans (at10_main_arg5 m ρ c)

theorem at13_main_arg6 : W13 m ρ c (Proc.devRef .tc main_arg6) = (m ((c : Thread nD τ).loc main_arg6)) := (layer3_main_arg6 m ρ c).trans (at10_main_arg6 m ρ c)

theorem at13_main_arg7 : W13 m ρ c (Proc.devRef .tc main_arg7) = (m ((c : Thread nD τ).loc main_arg7)) := (layer3_main_arg7 m ρ c).trans (at10_main_arg7 m ρ c)

theorem at13_x : W13 m ρ c (Proc.devRef .tc main_v89) = kX3 (m ((c : Thread nD τ).loc main_arg0)) (m ((c : Thread nD τ).loc main_arg1)) (m ((c : Thread nD τ).loc main_arg3)) (m ((c : Thread nD τ).loc main_arg4)) (m ((c : Thread nD τ).loc main_arg5)) := by
  rw [layer3_x m ρ c, at10_out m ρ c, at10_x m ρ c, at10_main_v13 m ρ c, at10_main_v1 m ρ c, at10_main_v3 m ρ c,
    at10_main_arg5 m ρ c]
  rfl

theorem at13_w : W13 m ρ c (Proc.devRef .tc main_v91) = Cert.ReferenceIdeal.Read.val_main_v106 (F := Ideal) (m ((c : Thread nD τ).loc main_arg4)) := by
  rw [layer3_w m ρ c, at10_main_arg4 m ρ c]

theorem at14_main_v13 : W14 m ρ c (Proc.devRef .tc main_v13) = kDinvCol (F := Ideal) (Cert.ReferenceIdeal.Read.val_main_v5 (F := Ideal) (m ((c : Thread nD τ).loc main_arg1))) := (launch3_main_v13 m ρ c).trans (at13_main_v13 m ρ c)

theorem at14_main_v1 : W14 m ρ c (Proc.devRef .tc main_v1) = Cert.ReferenceIdeal.Read.val_main_v2 (F := Ideal) (m ((c : Thread nD τ).loc main_arg1)) := (launch3_main_v1 m ρ c).trans (at13_main_v1 m ρ c)

theorem at14_main_v3 : W14 m ρ c (Proc.devRef .tc main_v3) = Cert.ReferenceIdeal.Read.val_main_v5 (F := Ideal) (m ((c : Thread nD τ).loc main_arg1)) := (launch3_main_v3 m ρ c).trans (at13_main_v3 m ρ c)

theorem at14_main_arg2 : W14 m ρ c (Proc.devRef .tc main_arg2) = (m ((c : Thread nD τ).loc main_arg2)) := (launch3_main_arg2 m ρ c).trans (at13_main_arg2 m ρ c)

theorem at14_main_arg4 : W14 m ρ c (Proc.devRef .tc main_arg4) = (m ((c : Thread nD τ).loc main_arg4)) := (launch3_main_arg4 m ρ c).trans (at13_main_arg4 m ρ c)

theorem at14_main_arg5 : W14 m ρ c (Proc.devRef .tc main_arg5) = (m ((c : Thread nD τ).loc main_arg5)) := (launch3_main_arg5 m ρ c).trans (at13_main_arg5 m ρ c)

theorem at14_main_arg6 : W14 m ρ c (Proc.devRef .tc main_arg6) = (m ((c : Thread nD τ).loc main_arg6)) := (launch3_main_arg6 m ρ c).trans (at13_main_arg6 m ρ c)

theorem at14_main_arg7 : W14 m ρ c (Proc.devRef .tc main_arg7) = (m ((c : Thread nD τ).loc main_arg7)) := (launch3_main_arg7 m ρ c).trans (at13_main_arg7 m ρ c)

theorem at14_x : W14 m ρ c (Proc.devRef .tc main_v89) = kX3 (m ((c : Thread nD τ).loc main_arg0)) (m ((c : Thread nD τ).loc main_arg1)) (m ((c : Thread nD τ).loc main_arg3)) (m ((c : Thread nD τ).loc main_arg4)) (m ((c : Thread nD τ).loc main_arg5)) := (launch3_x m ρ c).trans (at13_x m ρ c)

theorem at14_out : W14 m ρ c (Proc.devRef .tc main_v92) = scaledProduct (kX3 (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v106 (F := Ideal) (m ((c : Thread nD τ).loc main_arg4))) (kDinvCol (F := Ideal) (Cert.ReferenceIdeal.Read.val_main_v5 (F := Ideal) (m ((c : Thread nD τ).loc main_arg1)))) := by
  rw [launch3_out m ρ c, at13_x m ρ c, at13_w m ρ c, at13_main_v13 m ρ c]

/-- The result array after the run holds the network's result on the argument arrays. -/
theorem result_eq : W17 m ρ c (Proc.devRef .tc main_v128)
    = kResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [end_result m ρ c, at14_out m ρ c, at14_x m ρ c, at14_main_v13 m ρ c, at14_main_v1 m ρ c, at14_main_v3 m ρ c,
    at14_main_arg5 m ρ c, at14_main_arg2 m ρ c, at14_main_arg6 m ρ c, at14_main_arg7 m ρ c]
  rfl

end Cert.Gcn

end
-- ==== Proof.LibGatherRows.lean ====
/-
  A row lookup in a table, read at an index.

  `table[idx]` for a table of `N` rows of `C` numbers and `B` integer row numbers lowers to a `stablehlo.gather` whose
  start indices are a `[B, 1]` array and whose slices are whole rows. Each start index is read as a signed integer and
  clamped into `[0, N - 1]`, so every integer names a row. Two layouts occur:

  * rows kept as rows: operand `[N, C]`, result `[B, C]`; result entry `(b, i)` is entry `i` of the row `idx[b]` names;
  * the table transposed, samples on the last axis: operand `[C, N]`, result `[C, B]`; result entry `(i, b)` is entry
    `i` of the column `idx[b]` names.

  Both read the same number: entry `i` of row `clampRow N idx[b]`.
-/
import Idealize.ShloMosaic.Lib.ValueIdx

noncomputable section

namespace Idealize.ShloMosaic.GatherRows

open Idealize.ShloMosaic Idealize.ShloMosaic.ValueIdx

/-- The row of an `N`-row table a start index names: the word read as a signed integer (a negative one reads as `0`),
    clamped to the last row. -/
def clampRow {w : Nat} (N : Nat) (v : BitVec w) : Nat := min v.toInt.toNat (N - 1)

theorem clampRow_lt {w : Nat} {N : Nat} (hN : 0 < N) (v : BitVec w) : clampRow N v < N := by
  unfold clampRow; omega

/-- An axis of a rank-2 shape is the first or the second. -/
theorem axis2_cases {S : Shape} (h : S.rank = 2) (a : Fin S.rank) :
    a = ⟨0, by omega⟩ ∨ a = ⟨1, by omega⟩ := by
  have h2 : a.val < 2 := h ▸ a.isLt
  rcases Nat.lt_or_ge a.val 1 with h1 | h1
  · left; exact Fin.ext (by show a.val = 0; omega)
  · right; exact Fin.ext (by show a.val = 1; omega)

section
variable {α : Type}

/-- Rows kept as rows: operand `[N, C]`, start indices `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The table transposed: operand `[C, N]`, start indices `[B, 1]`, result `[C, B]`. -/
abbrev colDims (N C B : Nat)
    (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Result entry `(b, i)` of the row lookup is entry `i` of the row `idx[b]` names. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (i : Fin C) :
    Host.gather (rowDims N C B wf) x idx (ix2 b i)
      = x (ix2 ⟨clampRow N (idx (ix2 b (0 : Fin 1))), clampRow_lt hN _⟩ i) := by
  unfold Host.gather
  congr 1
  funext a
  refine Fin.ext ?_
  show (rowDims N C B wf).start (ix2 b i) idx a + (rowDims N C B wf).batchCoord (ix2 b i) a
      + (rowDims N C B wf).offCoord (ix2 b i) a = _
  rw [GatherDims.batchCoord_eq_zero _ _ _ List.not_mem_nil]
  rcases axis2_cases (S := ⟨2, ![N, C]⟩) rfl a with rfl | rfl
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N C B wf).startIndexMap from List.mem_singleton.mpr rfl)]
    have hsi : (rowDims N C B wf).siIdx (ix2 b i) ⟨List.idxOf (⟨0, by decide⟩ : Fin 2) (rowDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 2) ∈ (rowDims N C B wf).startIndexMap :=
      (by decide : ¬ (⟨1, by decide⟩ : Fin 2) ∈ ([0] : List (Fin 2)))
    have hc : ¬ (⟨1, by decide⟩ : Fin 2) ∈ (rowDims N C B wf).collapsedSliceDims :=
      (by decide : ¬ (⟨1, by decide⟩ : Fin 2) ∈ ([0] : List (Fin 2)))
    have h0 : (rowDims N C B wf).start (ix2 b i) idx (⟨1, by decide⟩ : Fin 2) = 0 := by
      unfold GatherDims.start
      rw [dif_neg hn]
    have h1 : (rowDims N C B wf).offCoord (ix2 b i) (⟨1, by decide⟩ : Fin 2) = i.val := by
      unfold GatherDims.offCoord
      rw [dif_pos ((GatherDims.mem_sKept _ _).mpr ⟨hc, List.not_mem_nil⟩)]
      rfl
    show (rowDims N C B wf).start (ix2 b i) idx (⟨1, by decide⟩ : Fin 2) + 0
      + (rowDims N C B wf).offCoord (ix2 b i) (⟨1, by decide⟩ : Fin 2) = i.val
    rw [h0, h1]; omega

/-- Result entry `(i, b)` of the lookup in the transposed table is entry `i` of the column `idx[b]` names. -/
theorem gather_cols_apply {N C B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (i : Fin C) (b : Fin B) :
    Host.gather (colDims N C B wf) x idx (ix2 i b)
      = x (ix2 i ⟨clampRow N (idx (ix2 b (0 : Fin 1))), clampRow_lt hN _⟩) := by
  unfold Host.gather
  congr 1
  funext a
  refine Fin.ext ?_
  show (colDims N C B wf).start (ix2 i b) idx a + (colDims N C B wf).batchCoord (ix2 i b) a
      + (colDims N C B wf).offCoord (ix2 i b) a = _
  rw [GatherDims.batchCoord_eq_zero _ _ _ List.not_mem_nil]
  rcases axis2_cases (S := ⟨2, ![C, N]⟩) rfl a with rfl | rfl
  · have hn : ¬ (⟨0, by decide⟩ : Fin 2) ∈ (colDims N C B wf).startIndexMap :=
      (by decide : ¬ (⟨0, by decide⟩ : Fin 2) ∈ ([1] : List (Fin 2)))
    have hc : ¬ (⟨0, by decide⟩ : Fin 2) ∈ (colDims N C B wf).collapsedSliceDims :=
      (by decide : ¬ (⟨0, by decide⟩ : Fin 2) ∈ ([1] : List (Fin 2)))
    have h0 : (colDims N C B wf).start (ix2 i b) idx (⟨0, by decide⟩ : Fin 2) = 0 := by
      unfold GatherDims.start
      rw [dif_neg hn]
    have h1 : (colDims N C B wf).offCoord (ix2 i b) (⟨0, by decide⟩ : Fin 2) = i.val := by
      unfold GatherDims.offCoord
      rw [dif_pos ((GatherDims.mem_sKept _ _).mpr ⟨hc, List.not_mem_nil⟩)]
      rfl
    show (colDims N C B wf).start (ix2 i b) idx (⟨0, by decide⟩ : Fin 2) + 0
      + (colDims N C B wf).offCoord (ix2 i b) (⟨0, by decide⟩ : Fin 2) = i.val
    rw [h0, h1]; omega
  · rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N C B wf).startIndexMap from List.mem_singleton.mpr rfl)]
    have hsi : (colDims N C B wf).siIdx (ix2 i b) ⟨List.idxOf (⟨1, by decide⟩ : Fin 2) (colDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl

end

end Idealize.ShloMosaic.GatherRows

end
-- ==== Proof.Words.lean ====
/-
  Row words, and the two float literals.

  A row of a 20000-row table is named by a 32-bit word read as a signed integer. A gather first moves a negative
  word up by 20000 and then clamps the result into the table; a word that already names a row is left alone by
  both steps. A self-loop's word is its node's number. The literals `0.0` and `1.0` denote the reals 0 and 1.
-/
import proofs.«111923_j23871428231325_2_alg».proof.Proof.LibGatherRows
import Idealize.ShloMosaic.PureOps.Ideal
import Idealize.ShloMosaic.PureOps.Ideal.Laws

noncomputable section

namespace Cert.Gcn

open Idealize.ShloMosaic Idealize.ShloMosaic.GatherRows

/-- The word of node `k`, read signed, is `k`. -/
theorem toInt_ofNat_row (k : Nat) (hk : k < 20000) : (BitVec.ofNat 32 k).toInt = (k : Int) := by
  rw [BitVec.toInt_eq_toNat_cond, BitVec.toNat_ofNat]
  have h1 : k % 2 ^ 32 = k := Nat.mod_eq_of_lt (by omega)
  rw [h1]
  split <;> omega

/-- A word that is not negative is not moved up. -/
theorem wrap_eq_self (v : BitVec 32) (h : 0 ≤ v.toInt) :
    Scalar.select (IntOp.cmpi .slt v 0#32) (IntOp.addi v 20000#32) v = v := by
  have hs : v.slt 0#32 = false := by
    simp only [BitVec.slt, BitVec.toInt_zero, decide_eq_false_iff_not, not_lt]
    exact h
  unfold Scalar.select IntOp.cmpi
  simp [hs]

/-- A word that names row `n` is clamped to `n`. -/
theorem clampRow_of_toInt (v : BitVec 32) (n : Nat) (hn : n < 20000) (h : v.toInt = (n : Int)) :
    clampRow 20000 v = n := by
  unfold clampRow
  rw [h]
  simp only [Int.toNat_natCast]
  omega

/-- The row a gather reads for a word: moved up if negative, then clamped. -/
def rowOf (v : BitVec 32) : Fin 20000 :=
  ⟨clampRow 20000 (Scalar.select (IntOp.cmpi .slt v 0#32) (IntOp.addi v 20000#32) v), clampRow_lt (by decide) _⟩

/-- A word that names row `n` reads row `n`. -/
theorem rowOf_of_toInt (v : BitVec 32) (n : Fin 20000) (h : v.toInt = (n.val : Int)) : rowOf v = n := by
  apply Fin.ext
  show clampRow 20000 _ = n.val
  rw [wrap_eq_self v (by omega)]
  exact clampRow_of_toInt v n.val n.isLt h

/-- `1.0` denotes the real one. -/
theorem ofBits_one : Ideal.ofBits .f32 0x3F800000#32 = 1 := by
  simp [Ideal.ofBits, Ideal.ieee, -EReal.coe_mul]; norm_num

end Cert.Gcn

end
-- ==== Proof.LibScatterAddRows.lean ====
/-
  A scatter-add of rows into a table, read at an index.

  table.at[idx].add(updates) for a table of N rows, B integer row numbers and B update rows lowers to a
  stablehlo.scatter with an add body whose scatter indices are a [B, 1] array and whose update windows are whole
  rows. Update row b is added into the table row whose number is the word idx[b] read as a SIGNED integer; the
  word is neither wrapped nor clamped, and an update whose word names no row (negative, or N and above) is dropped.
  So entry (n, ·) of the result is the table's entry plus the sum of the same entry of every update row b with
  idx[b] = n as integers. Two layouts occur: rows of C numbers (operand [N, C], updates [B, C]) and rows that are
  H × D blocks (operand [N, H, D], updates [B, H, D]).

  The route: an update index lands on a table index exactly when, on every axis, its start plus its window
  coordinate is that index's coordinate (resultIdx?_eq_some_iff); for these dimension numbers the start is the row
  word on axis 0 and 0 elsewhere, the window coordinate 0 on axis 0 and the update's own coordinate elsewhere; the
  update indices that land on (n, c) are then exactly (b, c) over the rows b with idx[b] = n.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-! ## Any scatter -/

section
variable {s si u : Shape} (d : ScatterDims s si u)

/-- An update index lands on the operand index i exactly when start plus window coordinate is i's coordinate on
    every axis: the in-range test adds nothing, since i's coordinates are in range. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have ha := h a
      rw [← hi]
      show _ = ((d.start j idx a + (d.window j a : Int)).toNat : Int)
      omega
    · intro hall
      congr 1
      funext a
      refine Fin.ext ?_
      have ha := h a
      have he := hall a
      show (d.start j idx a + (d.window j a : Int)).toNat = (i a).val
      omega
  · rename_i h
    constructor
    · intro heq; cases heq
    · intro hall
      exfalso
      apply h
      intro a
      have he := hall a
      have hlt := (i a).isLt
      omega

/-- The operand axes the update windows go to are the ones that are not inserted. -/
theorem mem_sKept (a : Fin s.rank) : a ∈ d.sKept ↔ a ∉ d.insertedWindowDims := by
  simp [ScatterDims.sKept, Shape.kept, List.mem_filter, List.mem_finRange]

/-- On an axis the scatter indices do not name, the window starts at 0. -/
theorem start_eq_zero {w : Nat} (j : u.Idx) (idx : IVec si w) (a : Fin s.rank)
    (ha : a ∉ d.scatterDimsToOperandDims) : d.start j idx a = 0 := by
  unfold ScatterDims.start; rw [dif_neg ha]

/-- On an inserted axis the window coordinate is 0. -/
theorem window_eq_zero (j : u.Idx) (a : Fin s.rank) (ha : a ∉ d.sKept) : d.window j a = 0 := by
  unfold ScatterDims.window; rw [dif_neg ha]

end

/-! ## Rows of C numbers -/

/-- Operand [N, C], scatter indices [B, 1], updates [B, C]: update row b goes to the row idx[b] names. -/
abbrev rowsDims (N C B : Nat)
    (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

section Rows
variable {N C B w : Nat} (wf : ScatterDims.WF ⟨2, ![N, C]⟩ ⟨2, ![B, 1]⟩ ⟨2, ![B, C]⟩ [1] [0] [0] 1)

/-- The window of update (b, c') starts, on the row axis, at the word idx[b] read signed. -/
theorem rows_start0 (idx : IVec ⟨2, ![B, 1]⟩ w) (b : Fin B) (c' : Fin C) :
    (rowsDims N C B wf).start (ix2 b c') idx (⟨0, by decide⟩ : Fin 2) = (idx (ix2 b (0 : Fin 1))).toInt := by
  unfold ScatterDims.start
  rw [dif_pos (show (⟨0, by decide⟩ : Fin 2) ∈ (rowsDims N C B wf).scatterDimsToOperandDims from
    List.mem_singleton.mpr rfl)]
  have hsi : (rowsDims N C B wf).siIdx (ix2 b c')
      ⟨List.idxOf (⟨0, by decide⟩ : Fin 2) (rowsDims N C B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, c') on the column axis is c'. -/
theorem rows_window1 (b : Fin B) (c' : Fin C) :
    (rowsDims N C B wf).window (ix2 b c') (⟨1, by decide⟩ : Fin 2) = c'.val := by
  unfold ScatterDims.window
  rw [dif_pos ((mem_sKept _ _).mpr (by decide : ¬ (⟨1, by decide⟩ : Fin 2) ∈ ([0] : List (Fin 2))))]
  rfl

/-- Update (b, c') lands on table entry (n, c) exactly when the word idx[b], read signed, is n, and c' = c. -/
theorem rows_lands_iff (idx : IVec ⟨2, ![B, 1]⟩ w) (b : Fin B) (c' : Fin C) (n : Fin N) (c : Fin C) :
    (rowsDims N C B wf).resultIdx? (ix2 b c') idx = some (ix2 n c)
      ↔ (idx (ix2 b (0 : Fin 1))).toInt = (n.val : Int) ∧ c' = c := by
  rw [resultIdx?_eq_some_iff]
  have hw0 : (rowsDims N C B wf).window (ix2 b c') (⟨0, by decide⟩ : Fin 2) = 0 :=
    window_eq_zero _ _ _ (fun h => ((mem_sKept _ _).mp h) (List.mem_singleton.mpr rfl))
  have hs1 : (rowsDims N C B wf).start (ix2 b c') idx (⟨1, by decide⟩ : Fin 2) = 0 :=
    start_eq_zero _ _ _ _ (by decide : ¬ (⟨1, by decide⟩ : Fin 2) ∈ ([0] : List (Fin 2)))
  constructor
  · intro h
    have h0 := h (⟨0, by decide⟩ : Fin 2)
    have h1 := h (⟨1, by decide⟩ : Fin 2)
    rw [rows_start0, hw0] at h0
    rw [hs1, rows_window1] at h1
    refine ⟨?_, Fin.ext ?_⟩
    · have h0' : (idx (ix2 b (0 : Fin 1))).toInt + ((0 : Nat) : Int) = (n.val : Int) := h0
      omega
    · have h1' : (0 : Int) + (c'.val : Int) = (c.val : Int) := h1
      omega
  · rintro ⟨h0, rfl⟩ a
    match a with
    | ⟨0, _⟩ =>
      rw [rows_start0, hw0]
      show _ = (n.val : Int)
      omega
    | ⟨1, _⟩ =>
      rw [hs1, rows_window1]
      show _ = (c'.val : Int)
      omega

/-- Entry (n, c) of the scatter-add: the table's entry plus the sum, over the update rows b whose word idx[b] read
    signed is n, of entry c of update row b. -/
theorem scatterAdd_rows_apply {φ : FTy} (x : (⟨2, ![N, C]⟩ : Shape).Idx → EReal) (idx : IVec ⟨2, ![B, 1]⟩ w)
    (upd : (⟨2, ![B, C]⟩ : Shape).Idx → EReal) (n : Fin N) (c : Fin C) :
    Host.scatterAdd (F := Ideal) (φ := φ) (rowsDims N C B wf) x idx upd (ix2 n c)
      = x (ix2 n c) + ∑ b ∈ Finset.univ.filter (fun b : Fin B => (idx (ix2 b (0 : Fin 1))).toInt = (n.val : Int)),
          upd (ix2 b c) := by
  show x (ix2 n c) + ∑ j ∈ Finset.univ.filter
      (fun j => (rowsDims N C B wf).resultIdx? j idx = some (ix2 n c)), upd j = _
  congr 1
  refine Finset.sum_nbij' (fun j => (j 0 : Fin B)) (fun b => ix2 b c) ?_ ?_ ?_ ?_ ?_
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    exact Finset.mem_filter.mpr ⟨Finset.mem_univ _, h.1⟩
  · intro b hb
    exact Finset.mem_filter.mpr ⟨Finset.mem_univ _,
      (rows_lands_iff wf idx b c n c).mpr ⟨(Finset.mem_filter.mp hb).2, rfl⟩⟩
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show ix2 b c = ix2 b c'
    rw [h.2]
  · intro b _
    rfl
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show upd (ix2 b c') = upd (ix2 b c)
    rw [h.2]

end Rows

/-! ## Rows that are H × D blocks -/

/-- Operand [N, H, D], scatter indices [B, 1], updates [B, H, D]: update block b goes to the row idx[b] names. -/
abbrev rows3Dims (N H D B : Nat)
    (wf : ScatterDims.WF ⟨3, ![N, H, D]⟩ ⟨2, ![B, 1]⟩ ⟨3, ![B, H, D]⟩ [1, 2] [0] [0] 1) :
    ScatterDims ⟨3, ![N, H, D]⟩ ⟨2, ![B, 1]⟩ ⟨3, ![B, H, D]⟩ where
  updateWindowDims := [1, 2]
  insertedWindowDims := [0]
  scatterDimsToOperandDims := [0]
  indexVectorDim := 1
  wf := wf

section Rows3
variable {N H D B w : Nat} (wf : ScatterDims.WF ⟨3, ![N, H, D]⟩ ⟨2, ![B, 1]⟩ ⟨3, ![B, H, D]⟩ [1, 2] [0] [0] 1)

/-- The window of update (b, h', k') starts, on the row axis, at the word idx[b] read signed. -/
theorem rows3_start0 (idx : IVec ⟨2, ![B, 1]⟩ w) (b : Fin B) (h' : Fin H) (k' : Fin D) :
    (rows3Dims N H D B wf).start (ix3 b h' k') idx (⟨0, by decide⟩ : Fin 3) = (idx (ix2 b (0 : Fin 1))).toInt := by
  unfold ScatterDims.start
  rw [dif_pos (show (⟨0, by decide⟩ : Fin 3) ∈ (rows3Dims N H D B wf).scatterDimsToOperandDims from
    List.mem_singleton.mpr rfl)]
  have hsi : (rows3Dims N H D B wf).siIdx (ix3 b h' k')
      ⟨List.idxOf (⟨0, by decide⟩ : Fin 3) (rows3Dims N H D B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, h', k') on the second axis is h'. -/
theorem rows3_window1 (b : Fin B) (h' : Fin H) (k' : Fin D) :
    (rows3Dims N H D B wf).window (ix3 b h' k') (⟨1, by decide⟩ : Fin 3) = h'.val := by
  unfold ScatterDims.window
  rw [dif_pos ((mem_sKept _ _).mpr (by decide : ¬ (⟨1, by decide⟩ : Fin 3) ∈ ([0] : List (Fin 3))))]
  rfl

/-- The window coordinate of update (b, h', k') on the third axis is k'. -/
theorem rows3_window2 (b : Fin B) (h' : Fin H) (k' : Fin D) :
    (rows3Dims N H D B wf).window (ix3 b h' k') (⟨2, by decide⟩ : Fin 3) = k'.val := by
  unfold ScatterDims.window
  rw [dif_pos ((mem_sKept _ _).mpr (by decide : ¬ (⟨2, by decide⟩ : Fin 3) ∈ ([0] : List (Fin 3))))]
  rfl

/-- Update (b, h', k') lands on table entry (n, h, k) exactly when the word idx[b], read signed, is n, and
    (h', k') = (h, k). -/
theorem rows3_lands_iff (idx : IVec ⟨2, ![B, 1]⟩ w) (b : Fin B) (h' : Fin H) (k' : Fin D)
    (n : Fin N) (h : Fin H) (k : Fin D) :
    (rows3Dims N H D B wf).resultIdx? (ix3 b h' k') idx = some (ix3 n h k)
      ↔ (idx (ix2 b (0 : Fin 1))).toInt = (n.val : Int) ∧ h' = h ∧ k' = k := by
  rw [resultIdx?_eq_some_iff]
  have hw0 : (rows3Dims N H D B wf).window (ix3 b h' k') (⟨0, by decide⟩ : Fin 3) = 0 :=
    window_eq_zero _ _ _ (fun hm => ((mem_sKept _ _).mp hm) (List.mem_singleton.mpr rfl))
  have hs1 : (rows3Dims N H D B wf).start (ix3 b h' k') idx (⟨1, by decide⟩ : Fin 3) = 0 :=
    start_eq_zero _ _ _ _ (by decide : ¬ (⟨1, by decide⟩ : Fin 3) ∈ ([0] : List (Fin 3)))
  have hs2 : (rows3Dims N H D B wf).start (ix3 b h' k') idx (⟨2, by decide⟩ : Fin 3) = 0 :=
    start_eq_zero _ _ _ _ (by decide : ¬ (⟨2, by decide⟩ : Fin 3) ∈ ([0] : List (Fin 3)))
  constructor
  · intro hall
    have h0 := hall (⟨0, by decide⟩ : Fin 3)
    have h1 := hall (⟨1, by decide⟩ : Fin 3)
    have h2 := hall (⟨2, by decide⟩ : Fin 3)
    rw [rows3_start0, hw0] at h0
    rw [hs1, rows3_window1] at h1
    rw [hs2, rows3_window2] at h2
    refine ⟨?_, Fin.ext ?_, Fin.ext ?_⟩
    · have h0' : (idx (ix2 b (0 : Fin 1))).toInt + ((0 : Nat) : Int) = (n.val : Int) := h0
      omega
    · have h1' : (0 : Int) + (h'.val : Int) = (h.val : Int) := h1
      omega
    · have h2' : (0 : Int) + (k'.val : Int) = (k.val : Int) := h2
      omega
  · rintro ⟨h0, rfl, rfl⟩ a
    match a with
    | ⟨0, _⟩ =>
      rw [rows3_start0, hw0]
      show _ = (n.val : Int)
      omega
    | ⟨1, _⟩ =>
      rw [hs1, rows3_window1]
      show _ = (h'.val : Int)
      omega
    | ⟨2, _⟩ =>
      rw [hs2, rows3_window2]
      show _ = (k'.val : Int)
      omega

/-- Entry (n, h, k) of the scatter-add: the table's entry plus the sum, over the update blocks b whose word idx[b]
    read signed is n, of entry (h, k) of update block b. -/
theorem scatterAdd_rows3_apply {φ : FTy} (x : (⟨3, ![N, H, D]⟩ : Shape).Idx → EReal) (idx : IVec ⟨2, ![B, 1]⟩ w)
    (upd : (⟨3, ![B, H, D]⟩ : Shape).Idx → EReal) (n : Fin N) (h : Fin H) (k : Fin D) :
    Host.scatterAdd (F := Ideal) (φ := φ) (rows3Dims N H D B wf) x idx upd (ix3 n h k)
      = x (ix3 n h k) + ∑ b ∈ Finset.univ.filter (fun b : Fin B => (idx (ix2 b (0 : Fin 1))).toInt = (n.val : Int)),
          upd (ix3 b h k) := by
  show x (ix3 n h k) + ∑ j ∈ Finset.univ.filter
      (fun j => (rows3Dims N H D B wf).resultIdx? j idx = some (ix3 n h k)), upd j = _
  congr 1
  refine Finset.sum_nbij' (fun j => (j 0 : Fin B)) (fun b => ix3 b h k) ?_ ?_ ?_ ?_ ?_
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    exact Finset.mem_filter.mpr ⟨Finset.mem_univ _, hl.1⟩
  · intro b hb
    exact Finset.mem_filter.mpr ⟨Finset.mem_univ _,
      (rows3_lands_iff wf idx b h k n h k).mpr ⟨(Finset.mem_filter.mp hb).2, rfl, rfl⟩⟩
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show ix3 b h k = ix3 b h' k'
    rw [hl.2.1, hl.2.2]
  · intro b _
    rfl
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show upd (ix3 b h' k') = upd (ix3 b h k)
    rw [hl.2.1, hl.2.2]

end Rows3

end Idealize.ShloMosaic.ScatterAddRows

end
-- ==== Proof.KernelLayerAt.lean ====
/-
  One layer of the kernel's host operations, read at a node and a column.

  Entry `(n, j)` of the layer: the input's entry, plus the node's scale times the sum, over the edges whose
  destination word names `n`, of the scaled product's entry at the source's row, plus the node's own entry of the
  scaled product; plus the bias; clamped at zero. An edge's source row is its word moved up if negative and clamped;
  its destination word is taken as it is, so an edge whose destination names no node adds nothing anywhere.
-/
import proofs.«111923_j23871428231325_2_alg».proof.Proof.KernelTerms
import proofs.«111923_j23871428231325_2_alg».proof.Proof.Words
import proofs.«111923_j23871428231325_2_alg».proof.Proof.LibGatherRows
import proofs.«111923_j23871428231325_2_alg».proof.Proof.LibScatterAddRows
import proofs.«111923_j23871428231325_2_alg».proof.Proof.LibColumn
import Idealize.ShloMosaic.PureOps.Ideal.Laws

noncomputable section

open scoped BigOperators

namespace Cert.Gcn

open Idealize.ShloMosaic Idealize.ShloMosaic.ValueIdx Cert.KernelIdeal Cert.KernelIdeal.Gen

/-- The printed scatter of rows is the scatter of rows of the general lemma. -/
theorem scatterRows_eq : scatter_S20000x256_S300000x1_S300000x256_1_0_0_1
    = ScatterAddRows.rowsDims 20000 256 300000 scatter_S20000x256_S300000x1_S300000x256_1_0_0_1.wf := rfl

/-- The printed gather of rows is the gather of rows of the general lemma. -/
theorem gatherRows_eq : gather_S20000x256_S300000x1_S300000x256_1_0_n_n_0_1_1256
    = GatherRows.rowDims 20000 256 300000 gather_S20000x256_S300000x1_S300000x256_1_0_n_n_0_1_1256.wf := rfl

/-- The zero array reads zero. -/
theorem zeros_apply (i : S20000x256.Idx) :
    broadcastInDim S20000x256 ![] bcast_S_S20000x256 (constant (F := Ideal) S_ .f32 0x00000000#32) i = 0 :=
  (Column.broadcastInDim_scalar_apply _ bcast_S_S20000x256 _ i).trans Ideal.ofBits_zero_f32

/-- The wrapped source words, one per edge. -/
theorem wrapRows_apply (s : (⟨S300000, .i32⟩ : BufTy).Contents (Elt Ideal)) (b : Fin 300000) :
    wrapRows (F := Ideal) s (ix2 b (0 : Fin 1))
      = Scalar.select (IntOp.cmpi .slt (s (ix1 b)) 0#32) (IntOp.addi (s (ix1 b)) 20000#32) (s (ix1 b)) := by
  unfold wrapRows
  rw [Column.broadcastInDim_a_a1_apply]
  show Scalar.select (IntOp.cmpi .slt (s (ix1 b))
        (broadcastInDim S300000 ![] bcast_S_S300000 (constantI S_ 32 0#32) (ix1 b)))
      (IntOp.addi (s (ix1 b)) (broadcastInDim S300000 ![] bcast_S_S300000 (constantI S_ 32 20000#32) (ix1 b)))
      (s (ix1 b)) = _
  rw [Column.broadcastInDim_scalar_apply, Column.broadcastInDim_scalar_apply]
  rfl

/-- Entry `(n, j)` of a layer. -/
theorem kLayer_apply (hs x : (⟨S20000x256, .f32⟩ : BufTy).Contents (Elt Ideal)) (dcol : (⟨S20000x1, .f32⟩ : BufTy).Contents (Elt Ideal))
    (src dst : (⟨S300000, .i32⟩ : BufTy).Contents (Elt Ideal)) (brow : (⟨S20000x256, .f32⟩ : BufTy).Contents (Elt Ideal)) (n : Fin 20000) (j : Fin 256) :
    kLayer (F := Ideal) hs x dcol src dst brow (ix2 n j)
      = max (x (ix2 n j) + (dcol (ix2 n (0 : Fin 1))
            * ((0 + ∑ b ∈ Finset.univ.filter (fun b : Fin 300000 => (dst (ix1 b)).toInt = (n.val : Int)),
                  hs (ix2 (rowOf (src (ix1 b))) j)) + hs (ix2 n j))
          + brow (ix2 n j))) 0 := by
  have hS : Host.scatterAdd (F := Ideal) scatter_S20000x256_S300000x1_S300000x256_1_0_0_1
        (broadcastInDim S20000x256 ![] bcast_S_S20000x256 (constant (F := Ideal) S_ .f32 0x00000000#32))
        (broadcastInDim S300000x1 ![0] bcast_S300000_S300000x1_0 dst)
        (Host.gather gather_S20000x256_S300000x1_S300000x256_1_0_n_n_0_1_1256 hs (wrapRows (F := Ideal) src)) (ix2 n j)
      = broadcastInDim S20000x256 ![] bcast_S_S20000x256 (constant (F := Ideal) S_ .f32 0x00000000#32) (ix2 n j)
        + ∑ b ∈ Finset.univ.filter (fun b : Fin 300000 =>
            (broadcastInDim S300000x1 ![0] bcast_S300000_S300000x1_0 dst (ix2 b (0 : Fin 1))).toInt = (n.val : Int)),
          Host.gather gather_S20000x256_S300000x1_S300000x256_1_0_n_n_0_1_1256 hs (wrapRows (F := Ideal) src) (ix2 b j) := by
    rw [scatterRows_eq]
    exact ScatterAddRows.scatterAdd_rows_apply (φ := .f32) _ _ _ _ n j
  have hsum : ∑ b ∈ Finset.univ.filter (fun b : Fin 300000 =>
        (broadcastInDim S300000x1 ![0] bcast_S300000_S300000x1_0 dst (ix2 b (0 : Fin 1))).toInt = (n.val : Int)),
        Host.gather gather_S20000x256_S300000x1_S300000x256_1_0_n_n_0_1_1256 hs (wrapRows (F := Ideal) src) (ix2 b j)
      = ∑ b ∈ Finset.univ.filter (fun b : Fin 300000 => (dst (ix1 b)).toInt = (n.val : Int)),
        hs (ix2 (rowOf (src (ix1 b))) j) := by
    refine Finset.sum_congr (Finset.filter_congr fun b _ => by rw [Column.broadcastInDim_a_a1_apply]) fun b _ => ?_
    rw [gatherRows_eq]
    refine (GatherRows.gather_rows_apply (by decide) _ hs (wrapRows (F := Ideal) src) b j).trans ?_
    refine congrArg (fun r : Fin 20000 => hs (ix2 r j)) (Fin.ext ?_)
    show GatherRows.clampRow 20000 (wrapRows (F := Ideal) src (ix2 b (0 : Fin 1))) = _
    rw [wrapRows_apply]
    rfl
  unfold kLayer
  show max (x (ix2 n j) + (broadcastInDim S20000x256 ![0, 1] bcast_S20000x1_S20000x256_0_1 dcol (ix2 n j)
          * (Host.scatterAdd (F := Ideal) scatter_S20000x256_S300000x1_S300000x256_1_0_0_1
              (broadcastInDim S20000x256 ![] bcast_S_S20000x256 (constant (F := Ideal) S_ .f32 0x00000000#32))
              (broadcastInDim S300000x1 ![0] bcast_S300000_S300000x1_0 dst)
              (Host.gather gather_S20000x256_S300000x1_S300000x256_1_0_n_n_0_1_1256 hs (wrapRows (F := Ideal) src))
              (ix2 n j) + hs (ix2 n j))
        + brow (ix2 n j)))
      (broadcastInDim S20000x256 ![] bcast_S_S20000x256 (constant (F := Ideal) S_ .f32 0x00000000#32) (ix2 n j)) = _
  rw [hS, hsum, zeros_apply, Column.broadcastInDim_a1_ab_apply]

end Cert.Gcn

end
-- ==== Proof.LibScatterAddVec.lean ====
/-
  A scatter-add of numbers into a vector, read at an index.

  vec.at[idx].add(updates) for a vector of N numbers, B integer positions and B update numbers lowers to a
  stablehlo.scatter with an add body whose operand is [N], whose scatter indices are a [B, 1] array and whose updates
  are [B]. Update b is added into the entry whose position is the word idx[b] read as a SIGNED integer; the word is
  neither wrapped nor clamped, and an update whose word names no entry (negative, or N and above) is dropped. So entry
  n of the result is the vector's entry plus the sum of every update b with idx[b] = n as integers — the rank-1
  sibling of the scatter-add of rows into a table, on the same route: an update lands on n exactly when its start (the
  word, on the one axis) plus its window coordinate (0, the axis being inserted) is n.
-/
import Idealize.ShloMosaic.PureOps.Ideal
import Idealize.ShloMosaic.Lib.ValueIdx
import proofs.«111923_j23871428231325_2_alg».proof.Proof.LibScatterAddRows

noncomputable section

open scoped BigOperators

namespace Idealize.ShloMosaic.ScatterAddRows

open Idealize.ShloMosaic Idealize.ShloMosaic.ValueIdx

/-- Operand [N], scatter indices [B, 1], updates [B]: update b goes to the entry idx[b] names. -/
abbrev vecDims (N B : Nat)
    (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

section Vec
variable {N B w : Nat} (wf : ScatterDims.WF ⟨1, ![N]⟩ ⟨2, ![B, 1]⟩ ⟨1, ![B]⟩ [] [0] [0] 1)

/-- The window of update b starts at the word idx[b] read signed. -/
theorem vec_start0 (idx : IVec ⟨2, ![B, 1]⟩ w) (b : Fin B) :
    (vecDims N B wf).start (ix1 b) idx (⟨0, by decide⟩ : Fin 1) = (idx (ix2 b (0 : Fin 1))).toInt := by
  unfold ScatterDims.start
  rw [dif_pos (show (⟨0, by decide⟩ : Fin 1) ∈ (vecDims N B wf).scatterDimsToOperandDims from
    List.mem_singleton.mpr rfl)]
  have hsi : (vecDims N B wf).siIdx (ix1 b)
      ⟨List.idxOf (⟨0, by decide⟩ : Fin 1) (vecDims N B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- Update b lands on entry n exactly when the word idx[b], read signed, is n. -/
theorem vec_lands_iff (idx : IVec ⟨2, ![B, 1]⟩ w) (b : Fin B) (n : Fin N) :
    (vecDims N B wf).resultIdx? (ix1 b) idx = some (ix1 n)
      ↔ (idx (ix2 b (0 : Fin 1))).toInt = (n.val : Int) := by
  rw [resultIdx?_eq_some_iff]
  have hw0 : (vecDims N B wf).window (ix1 b) (⟨0, by decide⟩ : Fin 1) = 0 :=
    window_eq_zero _ _ _ (fun h => ((mem_sKept _ _).mp h) (List.mem_singleton.mpr rfl))
  constructor
  · intro h
    have h0 := h (⟨0, by decide⟩ : Fin 1)
    rw [vec_start0, hw0] at h0
    have h0' : (idx (ix2 b (0 : Fin 1))).toInt + ((0 : Nat) : Int) = (n.val : Int) := h0
    omega
  · intro h0 a
    match a with
    | ⟨0, _⟩ =>
      rw [vec_start0, hw0]
      show _ = (n.val : Int)
      omega

/-- Entry n of the scatter-add: the vector's entry plus the sum, over the updates b whose word idx[b] read signed is
    n, of update b. -/
theorem scatterAdd_vec_apply {φ : FTy} (x : (⟨1, ![N]⟩ : Shape).Idx → EReal) (idx : IVec ⟨2, ![B, 1]⟩ w)
    (upd : (⟨1, ![B]⟩ : Shape).Idx → EReal) (n : Fin N) :
    Host.scatterAdd (F := Ideal) (φ := φ) (vecDims N B wf) x idx upd (ix1 n)
      = x (ix1 n) + ∑ b ∈ Finset.univ.filter (fun b : Fin B => (idx (ix2 b (0 : Fin 1))).toInt = (n.val : Int)),
          upd (ix1 b) := by
  show x (ix1 n) + ∑ j ∈ Finset.univ.filter
      (fun j => (vecDims N B wf).resultIdx? j idx = some (ix1 n)), upd j = _
  congr 1
  refine Finset.sum_nbij' (fun j => (j 0 : Fin B)) (fun b => ix1 b) ?_ ?_ ?_ ?_ ?_
  · intro j hj
    obtain ⟨b, rfl⟩ : ∃ b : Fin B, j = ix1 b := ⟨j 0, eq_ix1 j⟩
    exact Finset.mem_filter.mpr ⟨Finset.mem_univ _, (vec_lands_iff wf idx b n).mp (Finset.mem_filter.mp hj).2⟩
  · intro b hb
    exact Finset.mem_filter.mpr ⟨Finset.mem_univ _, (vec_lands_iff wf idx b n).mpr (Finset.mem_filter.mp hb).2⟩
  · intro j _
    exact (eq_ix1 j).symm
  · intro b _
    rfl
  · intro j _
    exact congrArg upd (eq_ix1 j)

end Vec

end Idealize.ShloMosaic.ScatterAddRows

end
-- ==== Proof.KernelScale.lean ====
/-
  The kernel's node scales, read at a node.

  `dinv n = rsqrt (max (c + 1) 1)` where `c` counts the edges whose destination word names `n`: a count of ones
  added into zero, plus one for the node's own loop. The count is a real number, so the argument of the root is a
  real number that is at least one, and the scale is a real number.
-/
import proofs.«111923_j23871428231325_2_alg».proof.Proof.KernelTerms
import proofs.«111923_j23871428231325_2_alg».proof.Proof.Words
import proofs.«111923_j23871428231325_2_alg».proof.Proof.RealLaws
import proofs.«111923_j23871428231325_2_alg».proof.Proof.LibScatterAddVec
import proofs.«111923_j23871428231325_2_alg».proof.Proof.LibColumn
import Idealize.ShloMosaic.PureOps.Ideal.Laws

noncomputable section

open scoped BigOperators

namespace Cert.Gcn

open Idealize.ShloMosaic Idealize.ShloMosaic.ValueIdx Cert.KernelIdeal Cert.KernelIdeal.Gen

/-- The reciprocal root of a real number that is at least one is a real number. -/
theorem isReal_rsqrt {x : EReal} (hx : IsReal x) (h1 : 1 ≤ x) : IsReal (Ideal.rsqrt x) := by
  obtain ⟨r, rfl⟩ := hx
  have hr : (1 : ℝ) ≤ r := EReal.coe_le_coe_iff.mp h1
  rw [Ideal.rsqrt_coe, if_neg (by linarith), if_neg (by linarith)]
  exact IsReal.coe _

/-- The printed scatter of numbers is the scatter of numbers of the general lemma. -/
theorem scatterVec_eq : scatter_S20000_S300000x1_S300000_n_0_0_1
    = ScatterAddRows.vecDims 20000 300000 scatter_S20000_S300000x1_S300000_n_0_0_1.wf := rfl

/-- The number of edges arriving at node `n`, as a sum of ones. -/
def arrivals (dst : (⟨S300000, .i32⟩ : BufTy).Contents (Elt Ideal)) (n : Fin 20000) : EReal :=
  ∑ _b ∈ Finset.univ.filter (fun b : Fin 300000 => (dst (ix1 b)).toInt = (n.val : Int)), (1 : EReal)

theorem arrivals_real (dst : (⟨S300000, .i32⟩ : BufTy).Contents (Elt Ideal)) (n : Fin 20000) : IsReal (arrivals dst n) :=
  IsReal.sum _ _ fun _ _ => IsReal.one

set_option maxRecDepth 100000 in
set_option maxHeartbeats 2000000 in
/-- The scale of node `n`. -/
theorem kDinv_apply (dst : (⟨S300000, .i32⟩ : BufTy).Contents (Elt Ideal)) (n : Fin 20000) :
    kDinv (F := Ideal) dst (ix1 n) = Ideal.rsqrt (max ((0 + arrivals dst n) + 1) 1) := by
  have hS : Host.scatterAdd (F := Ideal) scatter_S20000_S300000x1_S300000_n_0_0_1
        (broadcastInDim S20000 ![] bcast_S_S20000 (constant (F := Ideal) S_ .f32 0x00000000#32))
        (broadcastInDim S300000x1 ![0] bcast_S300000_S300000x1_0 dst)
        (broadcastInDim S300000 ![] bcast_S_S300000 (constant (F := Ideal) S_ .f32 0x3F800000#32)) (ix1 n)
      = broadcastInDim S20000 ![] bcast_S_S20000 (constant (F := Ideal) S_ .f32 0x00000000#32) (ix1 n)
        + ∑ b ∈ Finset.univ.filter (fun b : Fin 300000 =>
            (broadcastInDim S300000x1 ![0] bcast_S300000_S300000x1_0 dst (ix2 b (0 : Fin 1))).toInt = (n.val : Int)),
          broadcastInDim S300000 ![] bcast_S_S300000 (constant (F := Ideal) S_ .f32 0x3F800000#32) (ix1 b) := by
    rw [scatterVec_eq]
    exact ScatterAddRows.scatterAdd_vec_apply (φ := .f32) _ _ _ _ n
  have hz : broadcastInDim S20000 ![] bcast_S_S20000 (constant (F := Ideal) S_ .f32 0x00000000#32) (ix1 n) = 0 :=
    (Column.broadcastInDim_scalar_apply _ bcast_S_S20000 _ _).trans Ideal.ofBits_zero_f32
  have h1 : broadcastInDim S20000 ![] bcast_S_S20000 (constant (F := Ideal) S_ .f32 0x3F800000#32) (ix1 n) = 1 :=
    (Column.broadcastInDim_scalar_apply _ bcast_S_S20000 _ _).trans ofBits_one
  have hsum : ∑ b ∈ Finset.univ.filter (fun b : Fin 300000 =>
        (broadcastInDim S300000x1 ![0] bcast_S300000_S300000x1_0 dst (ix2 b (0 : Fin 1))).toInt = (n.val : Int)),
        broadcastInDim S300000 ![] bcast_S_S300000 (constant (F := Ideal) S_ .f32 0x3F800000#32) (ix1 b)
      = arrivals dst n := by
    unfold arrivals
    refine Finset.sum_congr (Finset.filter_congr fun b _ => by rw [Column.broadcastInDim_a_a1_apply]) fun b _ => ?_
    exact (Column.broadcastInDim_scalar_apply _ bcast_S_S300000 _ _).trans ofBits_one
  unfold kDinv
  simp only [Host.rsqrt, maximumf, addf, Ideal.hostUnary_rsqrt_def, Ideal.maximumf_def, Ideal.addf_def]
  rw [hS, hsum, hz, h1]

/-- Every scale is a real number. -/
theorem kDinv_real (dst : (⟨S300000, .i32⟩ : BufTy).Contents (Elt Ideal)) (n : Fin 20000) : IsReal (kDinv (F := Ideal) dst (ix1 n)) := by
  rw [kDinv_apply]
  exact isReal_rsqrt (((IsReal.zero.add (arrivals_real dst n)).add IsReal.one).max IsReal.one) (le_max_right _ _)

/-- The scales' column at row `n` is node `n`'s scale. -/
theorem kDinvCol_apply (dst : (⟨S300000, .i32⟩ : BufTy).Contents (Elt Ideal)) (n : Fin 20000) :
    kDinvCol (F := Ideal) dst (ix2 n (0 : Fin 1)) = kDinv (F := Ideal) dst (ix1 n) := by
  unfold kDinvCol
  exact Column.broadcastInDim_a_a1_apply _ bcast_S20000_S20000x1_0 n 0

end Cert.Gcn

end
-- ==== Proof.RefTerms.lean ====
/-
  The reference's host operations, named.

  The reference joins the edge list with one self-loop per node (320000 entries) and computes per layer: the
  product `x · w`, its rows gathered at the sources, each times `dinv source · dinv destination`, added up at the
  destinations; then the bias, the layer's input, the clamp at zero. The four layers are one function of the
  layer's product, its input, the edge list and the bias rows.
-/
import proofs.«111923_j23871428231325_2_alg».proof.Proof.Gen.ReferenceIdeal.Read

noncomputable section

namespace Cert.Gcn

open Idealize.ShloMosaic Cert.ReferenceIdeal Cert.ReferenceIdeal.Gen Cert.ReferenceIdeal.Read

variable {F : FTy → Type} [FloatOps F]

/-- The product of a layer's input with its weights. -/
def rDot (x : (⟨S20000x256, .f32⟩ : BufTy).Contents (Elt F)) (w : (⟨S256x256, .f32⟩ : BufTy).Contents (Elt F)) : (⟨S20000x256, .f32⟩ : BufTy).Contents (Elt F) :=
  Host.dotGeneral dot_S20000x256_S256x256_S20000x256_1_0_0_1_n_n none x w

/-- One layer of the reference, from the layer's product `h`, its input `x`, the edge list and the bias rows. -/
def rLayer (h x : (⟨S20000x256, .f32⟩ : BufTy).Contents (Elt F)) (e : (⟨S2x300000, .i32⟩ : BufTy).Contents (Elt F)) (brow : (⟨S20000x256, .f32⟩ : BufTy).Contents (Elt F)) :
    (⟨S20000x256, .f32⟩ : BufTy).Contents (Elt F) :=
  maximumf
    (addf x (addf (Host.scatterAdd scatter_S20000x256_S320000x1_S320000x256_1_0_0_1 (val_main_v49 (F := F))
        (val_main_v50 (F := F) e)
        (mulf (Host.gather gather_S20000x256_S320000x1_S320000x256_1_0_n_n_0_1_1256 h (val_main_v44 (F := F) e))
          (val_main_v47 (F := F) e))) brow))
    (val_main_call0_v0 (F := F))

variable (x0 : (⟨S20000, .i32⟩ : BufTy).Contents (Elt F)) (x1 : (⟨S2x300000, .i32⟩ : BufTy).Contents (Elt F)) (x2 : (⟨S20000, .i32⟩ : BufTy).Contents (Elt F))
  (x3 : (⟨S101x256, .f32⟩ : BufTy).Contents (Elt F)) (x4 : (⟨S4x256x256, .f32⟩ : BufTy).Contents (Elt F)) (x5 : (⟨S4x256, .f32⟩ : BufTy).Contents (Elt F))
  (x6 : (⟨S256x1, .f32⟩ : BufTy).Contents (Elt F)) (x7 : (⟨S1, .f32⟩ : BufTy).Contents (Elt F))

theorem layer1_eq : val_main_v58 (F := F) x0 x1 x3 x4 x5
    = rLayer (rDot (val_main_v35 (F := F) x0 x3) (val_main_v37 (F := F) x4)) (val_main_v35 (F := F) x0 x3) x1
        (val_main_v55 (F := F) x5) := rfl

theorem layer2_eq : val_main_v81 (F := F) x0 x1 x3 x4 x5
    = rLayer (rDot (val_main_v58 (F := F) x0 x1 x3 x4 x5) (val_main_v60 (F := F) x4)) (val_main_v58 (F := F) x0 x1 x3 x4 x5) x1
        (val_main_v78 (F := F) x5) := rfl

theorem layer3_eq : val_main_v104 (F := F) x0 x1 x3 x4 x5
    = rLayer (rDot (val_main_v81 (F := F) x0 x1 x3 x4 x5) (val_main_v83 (F := F) x4)) (val_main_v81 (F := F) x0 x1 x3 x4 x5) x1
        (val_main_v101 (F := F) x5) := rfl

theorem layer4_eq : val_main_v127 (F := F) x0 x1 x3 x4 x5
    = rLayer (rDot (val_main_v104 (F := F) x0 x1 x3 x4 x5) (val_main_v106 (F := F) x4)) (val_main_v104 (F := F) x0 x1 x3 x4 x5) x1
        (val_main_v124 (F := F) x5) := rfl

end Cert.Gcn

end
-- ==== Proof.LibGatherVec.lean ====
/-
  A lookup in a vector, read at an index.

  `v[idx]` for a vector of `N` numbers and `B` integer positions lowers to a `stablehlo.gather` whose operand is
  `[N]`, whose start indices are a `[B, 1]` array and whose slices are single entries; the result is `[B]`. Each start
  index is read as a signed integer and clamped into `[0, N - 1]`, so every integer names an entry: result entry `b`
  is entry `clampRow N idx[b]` of the vector — the rank-1 sibling of the row lookup in a table.
-/
import Idealize.ShloMosaic.Lib.ValueIdx
import proofs.«111923_j23871428231325_2_alg».proof.Proof.LibGatherRows

noncomputable section

namespace Idealize.ShloMosaic.GatherRows

open Idealize.ShloMosaic Idealize.ShloMosaic.ValueIdx

section
variable {α : Type}

/-- Operand `[N]`, start indices `[B, 1]`, result `[B]`: single entries, the one axis collapsed. -/
abbrev vecDims (N B : Nat)
    (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Result entry `b` of the lookup is the entry of the vector that `idx[b]` names. -/
theorem gather_vec_apply {N B w : Nat} (hN : 0 < N)
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (vecDims N B wf) x idx (ix1 b)
      = x (ix1 ⟨clampRow N (idx (ix2 b (0 : Fin 1))), clampRow_lt hN _⟩) := by
  unfold Host.gather
  congr 1
  funext a
  refine Fin.ext ?_
  show (vecDims N B wf).start (ix1 b) idx a + (vecDims N B wf).batchCoord (ix1 b) a
      + (vecDims N B wf).offCoord (ix1 b) a = _
  rw [GatherDims.batchCoord_eq_zero _ _ _ List.not_mem_nil]
  have h1 : a.val < 1 := a.isLt
  have ha : a = (⟨0, by decide⟩ : Fin 1) := Fin.ext (by show a.val = 0; omega)
  subst ha
  rw [GatherDims.offCoord_eq_zero _ _ _ (fun h => ((GatherDims.mem_sKept _ _).mp h).1 (List.mem_singleton.mpr rfl))]
  simp only [Nat.add_zero]
  unfold GatherDims.start
  rw [dif_pos (show (⟨0, by decide⟩ : Fin 1) ∈ (vecDims N B wf).startIndexMap from List.mem_singleton.mpr rfl)]
  have hsi : (vecDims N B wf).siIdx (ix1 b) ⟨List.idxOf (⟨0, by decide⟩ : Fin 1) (vecDims N B wf).startIndexMap,
      List.idxOf_lt_length_iff.2 (List.mem_singleton.mpr rfl)⟩ = ix2 b (0 : Fin 1) := by
    funext d; refine Fin.ext ?_
    match d with
    | ⟨0, _⟩ => rfl
    | ⟨1, _⟩ => rfl
  rw [hsi]
  rfl

end

end Idealize.ShloMosaic.GatherRows

end
-- ==== Proof.LibConcatRows.lean ====
/-
  A concatenation along the leading axis, read at an index.

  Pieces laid end to end along axis 0 make an array whose row `pre + q` is row `q` of the piece that starts at
  row `pre` — `pre` being the total number of rows of the pieces before it. For `n` pieces of `a` rows each, row
  `a · j + q` is row `q` of piece `j`. The same for vectors: entry `pre + q` is entry `q` of that piece.
-/
import Idealize.ShloMosaic.Lib.ValueIdx
import Idealize.ShloMosaic.Lib.Pipeline.Value

noncomputable section

namespace Idealize.ShloMosaic.ConcatRows

open Idealize.ShloMosaic Idealize.ShloMosaic.ValueIdx

variable {α : Type}

/-- Matrices stacked along axis 0: entry `(r, c)` of the stack, where `r = pre + q` and `pre` is the number of rows
    of the pieces before piece `k`, is entry `(q, c)` of piece `k`. -/
theorem rows2_apply {a b n : ℕ} (xs : List ((s : Shape) × (s.Idx → α)))
    (h : Shape.Concatenates (xs.map (·.1)) (⟨2, ![n, b]⟩ : Shape) (0 : Fin 2))
    (k : ℕ) (hk : k < xs.length) (x : (⟨2, ![a, b]⟩ : Shape).Idx → α)
    (hxk : xs[k] = ⟨(⟨2, ![a, b]⟩ : Shape), x⟩) (pre : ℕ)
    (hpre : (((xs.take k).map (·.1)).map fun s : Shape =>
        if h : s.rank = (⟨2, ![n, b]⟩ : Shape).rank then s.size ((0 : Fin 2).cast h.symm) else 0).sum = pre)
    (r : Fin n) (q : Fin a) (c : Fin b) (hr : pre + q.val = r.val) :
    concatenate (⟨2, ![n, b]⟩ : Shape) (0 : Fin 2) xs h (ix2 r c) = x (ix2 q c) :=
  concatenate_apply_piece (t := (⟨2, ![n, b]⟩ : Shape)) (0 : Fin 2) xs h (ix2 r c) k hk (⟨2, ![a, b]⟩ : Shape) x hxk rfl
    pre hpre (ix2 q c)
    (fun ax hax => by
      match ax, hax with
      | ⟨0, _⟩, hax => exact absurd rfl hax
      | ⟨1, _⟩, _ => rfl)
    hr

/-- Vectors laid end to end: entry `r = pre + q` of the whole, `pre` the total length of the pieces before piece
    `k`, is entry `q` of piece `k`. -/
theorem rows1_apply {a n : ℕ} (xs : List ((s : Shape) × (s.Idx → α)))
    (h : Shape.Concatenates (xs.map (·.1)) (⟨1, ![n]⟩ : Shape) (0 : Fin 1))
    (k : ℕ) (hk : k < xs.length) (x : (⟨1, ![a]⟩ : Shape).Idx → α)
    (hxk : xs[k] = ⟨(⟨1, ![a]⟩ : Shape), x⟩) (pre : ℕ)
    (hpre : (((xs.take k).map (·.1)).map fun s : Shape =>
        if h : s.rank = (⟨1, ![n]⟩ : Shape).rank then s.size ((0 : Fin 1).cast h.symm) else 0).sum = pre)
    (r : Fin n) (q : Fin a) (hr : pre + q.val = r.val) :
    concatenate (⟨1, ![n]⟩ : Shape) (0 : Fin 1) xs h (ix1 r) = x (ix1 q) :=
  concatenate_apply_piece (t := (⟨1, ![n]⟩ : Shape)) (0 : Fin 1) xs h (ix1 r) k hk (⟨1, ![a]⟩ : Shape) x hxk rfl
    pre hpre (ix1 q)
    (fun ax hax => by
      match ax, hax with
      | ⟨0, _⟩, hax => exact absurd rfl hax)
    hr

end Idealize.ShloMosaic.ConcatRows

end
-- ==== Proof.RefLayerAt.lean ====
/-
  The reference's edge list with the self-loops joined on, and one of its layers read at a node and a column.

  The reference lays the 300000 edge words and the 20000 node numbers end to end: entry `e` of the joined list is
  edge `e`'s word, entry `300000 + k` is the number `k`. A sum over the joined list is the sum over the edges plus
  the sum over the nodes. Entry `(n, j)` of a layer is the input's entry plus the sum, over the joined entries whose
  destination word names `n`, of the product's entry at the source's row times the two scales; plus the bias;
  clamped at zero.
-/
import proofs.«111923_j23871428231325_2_alg».proof.Proof.RefTerms
import proofs.«111923_j23871428231325_2_alg».proof.Proof.Words
import proofs.«111923_j23871428231325_2_alg».proof.Proof.LibGatherRows
import proofs.«111923_j23871428231325_2_alg».proof.Proof.LibGatherVec
import proofs.«111923_j23871428231325_2_alg».proof.Proof.LibScatterAddRows
import proofs.«111923_j23871428231325_2_alg».proof.Proof.LibConcatRows
import Idealize.ShloMosaic.PureOps.Ideal.Laws

noncomputable section

open scoped BigOperators

namespace Cert.Gcn

open Idealize.ShloMosaic Idealize.ShloMosaic.ValueIdx
open Cert.ReferenceIdeal Cert.ReferenceIdeal.Gen Cert.ReferenceIdeal.Read

/-- Edge `e`'s place in the joined list. -/
def edgeAt (e : Fin 300000) : Fin 320000 := ⟨e.val, by have := e.isLt; omega⟩

/-- Node `k`'s self-loop's place in the joined list. -/
def loopAt (k : Fin 20000) : Fin 320000 := ⟨300000 + k.val, by have := k.isLt; omega⟩

/-- A sum over the joined list, restricted by a predicate, is the restricted sum over the edges plus the restricted
    sum over the self-loops. -/
theorem sum_filter_join {M : Type} [AddCommMonoid M] (p : Fin 320000 → Prop) [DecidablePred p] (f : Fin 320000 → M) :
    ∑ b ∈ Finset.univ.filter p, f b
      = ∑ e ∈ Finset.univ.filter (fun e : Fin 300000 => p (edgeAt e)), f (edgeAt e)
        + ∑ k ∈ Finset.univ.filter (fun k : Fin 20000 => p (loopAt k)), f (loopAt k) := by
  rw [Finset.sum_filter, Finset.sum_filter, Finset.sum_filter]
  exact Fin.sum_univ_add (a := 300000) (b := 20000) (fun b : Fin 320000 => if p b then f b else 0)

/-- The printed scatter of rows, gather of rows and gather of entries are those of the general lemmas. -/
theorem refScatterRows_eq : scatter_S20000x256_S320000x1_S320000x256_1_0_0_1
    = ScatterAddRows.rowsDims 20000 256 320000 scatter_S20000x256_S320000x1_S320000x256_1_0_0_1.wf := rfl

theorem refGatherRows_eq : gather_S20000x256_S320000x1_S320000x256_1_0_n_n_0_1_1256
    = GatherRows.rowDims 20000 256 320000 gather_S20000x256_S320000x1_S320000x256_1_0_n_n_0_1_1256.wf := rfl

theorem refGatherVec_eq : gather_S20000_S320000x1_S320000_n_0_n_n_0_1_1
    = GatherRows.vecDims 20000 320000 gather_S20000_S320000x1_S320000_n_0_n_n_0_1_1.wf := rfl

variable (e : (⟨S2x300000, .i32⟩ : BufTy).Contents (Elt Ideal))

/-- The joined source words: an edge's entry is the edge's source word. -/
theorem srcJoin_edge (b : Fin 300000) : val_main_v3 (F := Ideal) e (ix1 (edgeAt b)) = val_main_v2 (F := Ideal) e (ix1 b) :=
  ConcatRows.rows1_apply [⟨S300000, val_main_v2 (F := Ideal) e⟩, ⟨S20000, val_main_v0 (F := Ideal)⟩] concatenates_S300000_S20000_S320000_d0 0
    (by show 0 < 2; omega) (val_main_v2 (F := Ideal) e) rfl 0 rfl (edgeAt b) b (by show 0 + b.val = b.val; omega)

/-- The joined source words: a self-loop's entry is its node's number. -/
theorem srcJoin_loop (k : Fin 20000) : val_main_v3 (F := Ideal) e (ix1 (loopAt k)) = BitVec.ofNat 32 k.val :=
  (ConcatRows.rows1_apply [⟨S300000, val_main_v2 (F := Ideal) e⟩, ⟨S20000, val_main_v0 (F := Ideal)⟩] concatenates_S300000_S20000_S320000_d0 1
    (by show 1 < 2; omega) (val_main_v0 (F := Ideal)) rfl 300000 rfl (loopAt k) k rfl).trans rfl

/-- The joined destination words: an edge's entry is the edge's destination word. -/
theorem dstJoin_edge (b : Fin 300000) : val_main_v6 (F := Ideal) e (ix1 (edgeAt b)) = val_main_v5 (F := Ideal) e (ix1 b) :=
  ConcatRows.rows1_apply [⟨S300000, val_main_v5 (F := Ideal) e⟩, ⟨S20000, val_main_v0 (F := Ideal)⟩] concatenates_S300000_S20000_S320000_d0 0
    (by show 0 < 2; omega) (val_main_v5 (F := Ideal) e) rfl 0 rfl (edgeAt b) b (by show 0 + b.val = b.val; omega)

/-- The joined destination words: a self-loop's entry is its node's number. -/
theorem dstJoin_loop (k : Fin 20000) : val_main_v6 (F := Ideal) e (ix1 (loopAt k)) = BitVec.ofNat 32 k.val :=
  (ConcatRows.rows1_apply [⟨S300000, val_main_v5 (F := Ideal) e⟩, ⟨S20000, val_main_v0 (F := Ideal)⟩] concatenates_S300000_S20000_S320000_d0 1
    (by show 1 < 2; omega) (val_main_v0 (F := Ideal)) rfl 300000 rfl (loopAt k) k rfl).trans rfl

/-- The column of words the layer's gather of rows takes: the joined source words, moved up where negative. -/
theorem rowWords_apply (b : Fin 320000) : val_main_v44 (F := Ideal) e (ix2 b (0 : Fin 1))
    = Scalar.select (IntOp.cmpi .slt (val_main_v3 (F := Ideal) e (ix1 b)) 0#32) (IntOp.addi (val_main_v3 (F := Ideal) e (ix1 b)) 20000#32) (val_main_v3 (F := Ideal) e (ix1 b)) := by
  have hi : idx_main_v44 (ix2 b (0 : Fin 1)) = ix1 b := funext fun a => match a with | ⟨0, _⟩ => rfl
  rw [val_main_v44_apply, hi, val_main_v43_apply, val_main_v40_apply, val_main_v42_apply, val_main_v39_apply,
    val_main_v41_apply, val_main_c_7_apply, val_main_c_8_apply]

/-- The column of words the first gather of scales takes: the joined source words, moved up where negative. -/
theorem srcScaleWords_apply (b : Fin 320000) : val_main_v19 (F := Ideal) e (ix2 b (0 : Fin 1))
    = Scalar.select (IntOp.cmpi .slt (val_main_v3 (F := Ideal) e (ix1 b)) 0#32) (IntOp.addi (val_main_v3 (F := Ideal) e (ix1 b)) 20000#32) (val_main_v3 (F := Ideal) e (ix1 b)) := by
  have hi : idx_main_v19 (ix2 b (0 : Fin 1)) = ix1 b := funext fun a => match a with | ⟨0, _⟩ => rfl
  rw [val_main_v19_apply, hi, val_main_v18_apply, val_main_v15_apply, val_main_v17_apply, val_main_v14_apply,
    val_main_v16_apply, val_main_c_apply, val_main_c_2_apply]

/-- The column of words the second gather of scales takes: the joined destination words, moved up where negative. -/
theorem dstScaleWords_apply (b : Fin 320000) : val_main_v26 (F := Ideal) e (ix2 b (0 : Fin 1))
    = Scalar.select (IntOp.cmpi .slt (val_main_v6 (F := Ideal) e (ix1 b)) 0#32) (IntOp.addi (val_main_v6 (F := Ideal) e (ix1 b)) 20000#32) (val_main_v6 (F := Ideal) e (ix1 b)) := by
  have hi : idx_main_v26 (ix2 b (0 : Fin 1)) = ix1 b := funext fun a => match a with | ⟨0, _⟩ => rfl
  rw [val_main_v26_apply, hi, val_main_v25_apply, val_main_v22_apply, val_main_v24_apply, val_main_v21_apply,
    val_main_v23_apply, val_main_c_3_apply, val_main_c_4_apply]

/-- The weight of a joined entry: the scale of its source's row times the scale of its destination's row. -/
theorem edgeWeight_apply (b : Fin 320000) : val_main_v28 (F := Ideal) e (ix1 b)
    = val_main_v13 (F := Ideal) e (ix1 (rowOf (val_main_v3 (F := Ideal) e (ix1 b))))
      * val_main_v13 (F := Ideal) e (ix1 (rowOf (val_main_v6 (F := Ideal) e (ix1 b)))) := by
  rw [val_main_v28_apply]
  show val_main_v20 (F := Ideal) e (ix1 b) * val_main_v27 (F := Ideal) e (ix1 b) = _
  unfold val_main_v20 val_main_v27
  rw [refGatherVec_eq]
  refine congrArg₂ (· * ·)
    ((GatherRows.gather_vec_apply (by decide) _ (val_main_v13 (F := Ideal) e) (val_main_v19 (F := Ideal) e) b).trans ?_)
    ((GatherRows.gather_vec_apply (by decide) _ (val_main_v13 (F := Ideal) e) (val_main_v26 (F := Ideal) e) b).trans ?_)
  · refine congrArg (fun r : Fin 20000 => val_main_v13 (F := Ideal) e (ix1 r)) (Fin.ext ?_)
    show GatherRows.clampRow 20000 (val_main_v19 (F := Ideal) e (ix2 b (0 : Fin 1))) = _
    rw [srcScaleWords_apply]; rfl
  · refine congrArg (fun r : Fin 20000 => val_main_v13 (F := Ideal) e (ix1 r)) (Fin.ext ?_)
    show GatherRows.clampRow 20000 (val_main_v26 (F := Ideal) e (ix2 b (0 : Fin 1))) = _
    rw [dstScaleWords_apply]; rfl

/-- The reference's zero arrays read zero. -/
theorem refZeros_apply (i : S20000x256.Idx) : val_main_v49 (F := Ideal) i = 0 :=
  (val_main_v49_apply i).trans ((val_main_cst_9_apply _).trans Ideal.ofBits_zero_f32)

theorem refFloor_apply (i : S20000x256.Idx) : val_main_call0_v0 (F := Ideal) i = 0 :=
  (val_main_call0_v0_apply i).trans ((val_main_call0_cst_apply _).trans Ideal.ofBits_zero_f32)

set_option maxHeartbeats 2000000 in
/-- Entry `(n, j)` of a layer of the reference. -/
theorem rLayer_apply (h x : (⟨S20000x256, .f32⟩ : BufTy).Contents (Elt Ideal)) (brow : (⟨S20000x256, .f32⟩ : BufTy).Contents (Elt Ideal)) (n : Fin 20000) (j : Fin 256) :
    rLayer (F := Ideal) h x e brow (ix2 n j)
      = max (x (ix2 n j) + ((0 + ∑ b ∈ Finset.univ.filter
              (fun b : Fin 320000 => (val_main_v6 (F := Ideal) e (ix1 b)).toInt = (n.val : Int)),
            h (ix2 (rowOf (val_main_v3 (F := Ideal) e (ix1 b))) j)
              * (val_main_v13 (F := Ideal) e (ix1 (rowOf (val_main_v3 (F := Ideal) e (ix1 b))))
                * val_main_v13 (F := Ideal) e (ix1 (rowOf (val_main_v6 (F := Ideal) e (ix1 b))))))
          + brow (ix2 n j))) 0 := by
  have hS : Host.scatterAdd (F := Ideal) (φ := .f32) scatter_S20000x256_S320000x1_S320000x256_1_0_0_1
        (val_main_v49 (F := Ideal)) (val_main_v50 (F := Ideal) e)
        (mulf (F := Ideal) (φ := .f32) (Host.gather gather_S20000x256_S320000x1_S320000x256_1_0_n_n_0_1_1256 h (val_main_v44 (F := Ideal) e))
          (val_main_v47 (F := Ideal) e)) (ix2 n j)
      = val_main_v49 (F := Ideal) (ix2 n j)
        + ∑ b ∈ Finset.univ.filter (fun b : Fin 320000 =>
            (val_main_v50 (F := Ideal) e (ix2 b (0 : Fin 1))).toInt = (n.val : Int)),
          mulf (F := Ideal) (φ := .f32) (Host.gather gather_S20000x256_S320000x1_S320000x256_1_0_n_n_0_1_1256 h (val_main_v44 (F := Ideal) e))
            (val_main_v47 (F := Ideal) e) (ix2 b j) := by
    rw [refScatterRows_eq]
    exact ScatterAddRows.scatterAdd_rows_apply (φ := .f32) _ _ _ _ n j
  have hsum : ∑ b ∈ Finset.univ.filter (fun b : Fin 320000 =>
        (val_main_v50 (F := Ideal) e (ix2 b (0 : Fin 1))).toInt = (n.val : Int)),
        mulf (F := Ideal) (φ := .f32) (Host.gather gather_S20000x256_S320000x1_S320000x256_1_0_n_n_0_1_1256 h (val_main_v44 (F := Ideal) e))
          (val_main_v47 (F := Ideal) e) (ix2 b j)
      = ∑ b ∈ Finset.univ.filter (fun b : Fin 320000 => (val_main_v6 (F := Ideal) e (ix1 b)).toInt = (n.val : Int)),
        h (ix2 (rowOf (val_main_v3 (F := Ideal) e (ix1 b))) j)
          * (val_main_v13 (F := Ideal) e (ix1 (rowOf (val_main_v3 (F := Ideal) e (ix1 b))))
            * val_main_v13 (F := Ideal) e (ix1 (rowOf (val_main_v6 (F := Ideal) e (ix1 b))))) := by
    have hi50 : ∀ b : Fin 320000, idx_main_v50 (ix2 b (0 : Fin 1)) = ix1 b := fun b =>
      funext fun a => match a with | ⟨0, _⟩ => rfl
    have hi47 : ∀ b : Fin 320000, idx_main_v47 (ix2 b j) = ix2 b (0 : Fin 1) := fun b =>
      funext fun a => match a with | ⟨0, _⟩ => rfl | ⟨1, _⟩ => rfl
    have hi46 : ∀ b : Fin 320000, idx_main_v46 (ix2 b (0 : Fin 1)) = ix1 b := fun b =>
      funext fun a => match a with | ⟨0, _⟩ => rfl
    refine Finset.sum_congr (Finset.filter_congr fun b _ => by rw [val_main_v50_apply, hi50]) fun b _ => ?_
    show Host.gather gather_S20000x256_S320000x1_S320000x256_1_0_n_n_0_1_1256 h (val_main_v44 (F := Ideal) e) (ix2 b j)
      * val_main_v47 (F := Ideal) e (ix2 b j) = _
    rw [refGatherRows_eq, val_main_v47_apply, hi47, val_main_v46_apply, hi46]
    refine congrArg₂ (· * ·)
      ((GatherRows.gather_rows_apply (by decide) _ h (val_main_v44 (F := Ideal) e) b j).trans ?_) (edgeWeight_apply e b)
    refine congrArg (fun r : Fin 20000 => h (ix2 r j)) (Fin.ext ?_)
    show GatherRows.clampRow 20000 (val_main_v44 (F := Ideal) e (ix2 b (0 : Fin 1))) = _
    rw [rowWords_apply]; rfl
  unfold rLayer
  show max (x (ix2 n j) + (Host.scatterAdd (F := Ideal) (φ := .f32) scatter_S20000x256_S320000x1_S320000x256_1_0_0_1
          (val_main_v49 (F := Ideal)) (val_main_v50 (F := Ideal) e)
          (mulf (F := Ideal) (φ := .f32) (Host.gather gather_S20000x256_S320000x1_S320000x256_1_0_n_n_0_1_1256 h (val_main_v44 (F := Ideal) e))
            (val_main_v47 (F := Ideal) e)) (ix2 n j) + brow (ix2 n j)))
      (val_main_call0_v0 (F := Ideal) (ix2 n j)) = _
  rw [hS, hsum, refZeros_apply, refFloor_apply]

end Cert.Gcn

end
-- ==== Proof.RefScale.lean ====
/-
  The reference's node scales, read at a node.

  The reference counts, for node `n`, the entries of the joined destination list whose word names `n`: the edges
  arriving at `n`, and among the self-loops exactly the one of `n`. So its scale is
  `rsqrt (max (edges arriving at n + 1) 1)`.
-/
import proofs.«111923_j23871428231325_2_alg».proof.Proof.RefLayerAt
import proofs.«111923_j23871428231325_2_alg».proof.Proof.LibScatterAddVec

noncomputable section

open scoped BigOperators

namespace Cert.Gcn

open Idealize.ShloMosaic Idealize.ShloMosaic.ValueIdx
open Cert.ReferenceIdeal Cert.ReferenceIdeal.Gen Cert.ReferenceIdeal.Read

variable (e : (⟨S2x300000, .i32⟩ : BufTy).Contents (Elt Ideal))

/-- The printed scatter of numbers is the scatter of numbers of the general lemma. -/
theorem refScatterVec_eq : scatter_S20000_S320000x1_S320000_n_0_0_1
    = ScatterAddRows.vecDims 20000 320000 scatter_S20000_S320000x1_S320000_n_0_0_1.wf := rfl

/-- Among the self-loops, the ones whose word names `n` are the one of `n`. -/
theorem loops_naming (n : Fin 20000) :
    Finset.univ.filter (fun k : Fin 20000 => (BitVec.ofNat 32 k.val).toInt = (n.val : Int)) = {n} := by
  ext k
  simp only [Finset.mem_filter, Finset.mem_univ, true_and, Finset.mem_singleton]
  rw [toInt_ofNat_row k.val k.isLt]
  constructor
  · intro h; exact Fin.ext (by omega)
  · intro h; rw [h]

/-- Among the joined destination words of the self-loops, the ones naming `n` are the one of `n`. -/
theorem loopsJoin_naming (n : Fin 20000) :
    Finset.univ.filter (fun k : Fin 20000 => (val_main_v6 (F := Ideal) e (ix1 (loopAt k))).toInt = (n.val : Int)) = {n} := by
  rw [← loops_naming n]
  exact Finset.filter_congr fun k _ => by rw [dstJoin_loop]

/-- The scale of node `n`: the reciprocal root of the edges arriving at `n` plus one, kept at least one. -/
theorem refScale_apply (n : Fin 20000) :
    val_main_v13 (F := Ideal) e (ix1 n)
      = Ideal.rsqrt (max (0 + ((∑ _b ∈ Finset.univ.filter
          (fun b : Fin 300000 => (val_main_v5 (F := Ideal) e (ix1 b)).toInt = (n.val : Int)), (1 : EReal)) + 1)) 1) := by
  have hS : Host.scatterAdd (F := Ideal) (φ := .f32) scatter_S20000_S320000x1_S320000_n_0_0_1 (val_main_v8 (F := Ideal))
        (val_main_v9 (F := Ideal) e) (val_main_v7 (F := Ideal)) (ix1 n)
      = val_main_v8 (F := Ideal) (ix1 n)
        + ∑ b ∈ Finset.univ.filter (fun b : Fin 320000 =>
            (val_main_v9 (F := Ideal) e (ix2 b (0 : Fin 1))).toInt = (n.val : Int)), val_main_v7 (F := Ideal) (ix1 b) := by
    rw [refScatterVec_eq]
    exact ScatterAddRows.scatterAdd_vec_apply (φ := .f32) _ _ _ _ n
  have hz : val_main_v8 (F := Ideal) (ix1 n) = 0 :=
    (val_main_v8_apply _).trans ((val_main_cst_0_apply _).trans Ideal.ofBits_zero_f32)
  have h1 : val_main_v11 (F := Ideal) (ix1 n) = 1 :=
    (val_main_v11_apply _).trans ((val_main_cst_1_apply _).trans ofBits_one)
  have hsum : ∑ b ∈ Finset.univ.filter (fun b : Fin 320000 =>
        (val_main_v9 (F := Ideal) e (ix2 b (0 : Fin 1))).toInt = (n.val : Int)), val_main_v7 (F := Ideal) (ix1 b)
      = (∑ _b ∈ Finset.univ.filter
          (fun b : Fin 300000 => (val_main_v5 (F := Ideal) e (ix1 b)).toInt = (n.val : Int)), (1 : EReal)) + 1 := by
    have hcongr : ∑ b ∈ Finset.univ.filter (fun b : Fin 320000 =>
          (val_main_v9 (F := Ideal) e (ix2 b (0 : Fin 1))).toInt = (n.val : Int)), val_main_v7 (F := Ideal) (ix1 b)
        = ∑ _b ∈ Finset.univ.filter (fun b : Fin 320000 =>
          (val_main_v6 (F := Ideal) e (ix1 b)).toInt = (n.val : Int)), (1 : EReal) := by
      have hi9 : ∀ b : Fin 320000, idx_main_v9 (ix2 b (0 : Fin 1)) = ix1 b := fun b =>
        funext fun a => match a with | ⟨0, _⟩ => rfl
      refine Finset.sum_congr (Finset.filter_congr fun b _ => by rw [val_main_v9_apply, hi9]) fun b _ => ?_
      exact (val_main_v7_apply _).trans ((val_main_cst_apply _).trans ofBits_one)
    rw [hcongr, sum_filter_join]
    refine congrArg₂ (· + ·) ?_ ?_
    · exact Finset.sum_congr (Finset.filter_congr fun b _ => by rw [dstJoin_edge]) fun _ _ => rfl
    · rw [loopsJoin_naming e n, Finset.sum_singleton]
  rw [val_main_v13_apply, val_main_v12_apply, Ideal.hostUnary_rsqrt_def, Ideal.maximumf_def]
  unfold val_main_v10
  rw [hS, hsum, hz, h1]

end Cert.Gcn

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«111923_j23871428231325_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LayerEq.lean ====
/-
  One layer of the kernel is one layer of the reference.

  Both layers add to the input, before the clamp at zero, a bias and an aggregate. With `h = x · w` the product,
  `d` the nodes' scales and `T` the edges arriving at node `n`:
    the kernel's aggregate at `(n, j)` is  `d n · (∑ e ∈ T, h (src e) j · d (src e) + h n j · d n)`,
    the reference's is  `∑ e ∈ T, h (src e) j · (d (src e) · d (dst e)) + h n j · (d n · d n)`,
  the last term being the node's own loop, the only self-loop whose word names `n`. An edge in `T` has a
  destination word that names `n`, so the row its destination reads is `n`. On real numbers the two are equal: the
  common factor `d n` goes outside the sum. The kernel's product is the three-pass one, equal to `x · w` on real
  features and weights; the two programs' scales are the same number.
-/
import proofs.«111923_j23871428231325_2_alg».proof.Proof.KernelLayerAt
import proofs.«111923_j23871428231325_2_alg».proof.Proof.KernelScale
import proofs.«111923_j23871428231325_2_alg».proof.Proof.RefScale
import proofs.«111923_j23871428231325_2_alg».proof.Proof.Product
import proofs.«111923_j23871428231325_2_alg».proof.Proof.LibDenseHost

noncomputable section

open scoped BigOperators

namespace Cert.Gcn

open Idealize.ShloMosaic Idealize.ShloMosaic.ValueIdx Cert.KernelIdeal Cert.KernelIdeal.Gen

/-- The reference's product dimensions are those of the general lemma. -/
theorem refDot_eq : Cert.ReferenceIdeal.dot_S20000x256_S256x256_S20000x256_1_0_0_1_n_n
    = DenseBlock.mmDims 20000 256 256 Cert.ReferenceIdeal.dot_S20000x256_S256x256_S20000x256_1_0_0_1_n_n.wf := rfl

/-- Entry `(i, j)` of the host's product. -/
theorem rDot_apply (x : (⟨S20000x256, .f32⟩ : BufTy).Contents (Elt Ideal)) (w : (⟨S256x256, .f32⟩ : BufTy).Contents (Elt Ideal)) (i : Fin 20000) (j : Fin 256) :
    rDot (F := Ideal) x w (ix2 i j) = ∑ k : Fin 256, x (ix2 i k) * w (ix2 k j) := by
  unfold rDot
  simp only [Host.dotGeneral]
  rw [refDot_eq]
  exact DenseBlock.dotGeneral_apply_ix2 _ _ x w i j

/-- Column `j` of the product `x · w`, by row. -/
def colProd (x : (⟨S20000x256, .f32⟩ : BufTy).Contents (Elt Ideal)) (w : (⟨S256x256, .f32⟩ : BufTy).Contents (Elt Ideal)) (j : Fin 256) (r : Fin 20000) : EReal :=
  ∑ k : Fin 256, x (ix2 r k) * w (ix2 k j)

theorem colProd_real (x : (⟨S20000x256, .f32⟩ : BufTy).Contents (Elt Ideal)) (w : (⟨S256x256, .f32⟩ : BufTy).Contents (Elt Ideal))
    (hx : ∀ i, IsReal (x i)) (hw : ∀ i, IsReal (w i)) (j : Fin 256) (r : Fin 20000) : IsReal (colProd x w j r) :=
  IsReal.sum _ _ fun _ _ => (hx _).mul (hw _)

variable (e : (⟨S2x300000, .i32⟩ : BufTy).Contents (Elt Ideal))

/-- The nodes' scales, by node. -/
def nodeScale (r : Fin 20000) : EReal := kDinv (F := Ideal) (Cert.ReferenceIdeal.Read.val_main_v5 (F := Ideal) e) (ix1 r)

theorem nodeScale_real (r : Fin 20000) : IsReal (nodeScale e r) := kDinv_real _ r

/-- The two programs' scales are the same number. -/
theorem scale_eq (r : Fin 20000) : Cert.ReferenceIdeal.Read.val_main_v13 (F := Ideal) e (ix1 r) = nodeScale e r := by
  unfold nodeScale
  rw [refScale_apply, kDinv_apply]
  unfold arrivals
  rw [add_assoc]

/-- The scales' column of the kernel at row `r`. -/
theorem scaleCol_eq (r : Fin 20000) : kDinvCol (F := Ideal) (Cert.ReferenceIdeal.Read.val_main_v5 (F := Ideal) e) (ix2 r (0 : Fin 1)) = nodeScale e r :=
  kDinvCol_apply _ r

/-- The kernel's scaled product at `(r, j)` on real features and weights. -/
theorem scaledProduct_real_apply (x : (⟨S20000x256, .f32⟩ : BufTy).Contents (Elt Ideal)) (w : (⟨S256x256, .f32⟩ : BufTy).Contents (Elt Ideal))
    (hx : ∀ i, IsReal (x i)) (hw : ∀ i, IsReal (w i)) (r : Fin 20000) (j : Fin 256) :
    scaledProduct x w (kDinvCol (F := Ideal) (Cert.ReferenceIdeal.Read.val_main_v5 (F := Ideal) e)) (ix2 r j) = colProd x w j r * nodeScale e r := by
  rw [scaledProduct_apply, spEntry_real x w _ hx hw, scaleCol_eq]
  rfl

set_option maxHeartbeats 2000000 in
/-- ONE LAYER: on real features and weights the kernel's layer of host operations on its scaled product is the
    reference's layer on the plain product. -/
theorem layer_eq (x : (⟨S20000x256, .f32⟩ : BufTy).Contents (Elt Ideal)) (w : (⟨S256x256, .f32⟩ : BufTy).Contents (Elt Ideal)) (brow : (⟨S20000x256, .f32⟩ : BufTy).Contents (Elt Ideal))
    (hx : ∀ i, IsReal (x i)) (hw : ∀ i, IsReal (w i)) :
    kLayer (F := Ideal) (scaledProduct x w (kDinvCol (F := Ideal) (Cert.ReferenceIdeal.Read.val_main_v5 (F := Ideal) e))) x (kDinvCol (F := Ideal) (Cert.ReferenceIdeal.Read.val_main_v5 (F := Ideal) e))
        (Cert.ReferenceIdeal.Read.val_main_v2 (F := Ideal) e) (Cert.ReferenceIdeal.Read.val_main_v5 (F := Ideal) e) brow
      = rLayer (F := Ideal) (rDot (F := Ideal) x w) x e brow := by
  funext i
  obtain ⟨n, j, rfl⟩ : ∃ (n : Fin 20000) (j : Fin 256), i = ix2 n j := ⟨i 0, i 1, eq_ix2 i⟩
  rw [kLayer_apply, rLayer_apply]
  have hsp : ∀ r : Fin 20000, scaledProduct x w (kDinvCol (F := Ideal) (Cert.ReferenceIdeal.Read.val_main_v5 (F := Ideal) e)) (ix2 r j)
      = colProd x w j r * nodeScale e r := fun r => scaledProduct_real_apply e x w hx hw r j
  have hdot : ∀ r : Fin 20000, rDot (F := Ideal) x w (ix2 r j) = colProd x w j r := fun r => rDot_apply x w r j
  have ht : ∀ b ∈ Finset.univ.filter (fun b : Fin 300000 => (Cert.ReferenceIdeal.Read.val_main_v5 (F := Ideal) e (ix1 b)).toInt = (n.val : Int)),
      rowOf (Cert.ReferenceIdeal.Read.val_main_v5 (F := Ideal) e (ix1 b)) = n := fun b hb => rowOf_of_toInt _ n (Finset.mem_filter.mp hb).2
  have hR : ∑ b ∈ Finset.univ.filter (fun b : Fin 320000 => (Cert.ReferenceIdeal.Read.val_main_v6 (F := Ideal) e (ix1 b)).toInt = (n.val : Int)),
        rDot (F := Ideal) x w (ix2 (rowOf (Cert.ReferenceIdeal.Read.val_main_v3 (F := Ideal) e (ix1 b))) j)
          * (Cert.ReferenceIdeal.Read.val_main_v13 (F := Ideal) e (ix1 (rowOf (Cert.ReferenceIdeal.Read.val_main_v3 (F := Ideal) e (ix1 b)))) * Cert.ReferenceIdeal.Read.val_main_v13 (F := Ideal) e (ix1 (rowOf (Cert.ReferenceIdeal.Read.val_main_v6 (F := Ideal) e (ix1 b)))))
      = (∑ b ∈ Finset.univ.filter (fun b : Fin 300000 => (Cert.ReferenceIdeal.Read.val_main_v5 (F := Ideal) e (ix1 b)).toInt = (n.val : Int)),
          colProd x w j (rowOf (Cert.ReferenceIdeal.Read.val_main_v2 (F := Ideal) e (ix1 b)))
            * (nodeScale e (rowOf (Cert.ReferenceIdeal.Read.val_main_v2 (F := Ideal) e (ix1 b))) * nodeScale e (rowOf (Cert.ReferenceIdeal.Read.val_main_v5 (F := Ideal) e (ix1 b)))))
        + colProd x w j n * (nodeScale e n * nodeScale e n) := by
    rw [sum_filter_join]
    refine congrArg₂ (· + ·) ?_ ?_
    · refine Finset.sum_congr (Finset.filter_congr fun b _ => by rw [dstJoin_edge]) fun b _ => ?_
      rw [srcJoin_edge, dstJoin_edge, hdot, scale_eq, scale_eq]
    · rw [loopsJoin_naming e n, Finset.sum_singleton, srcJoin_loop, dstJoin_loop,
        rowOf_of_toInt _ n (toInt_ofNat_row n.val n.isLt), hdot, scale_eq]
  rw [hR, scaleCol_eq, hsp n, zero_add, zero_add]
  have hL : ∑ b ∈ Finset.univ.filter (fun b : Fin 300000 => (Cert.ReferenceIdeal.Read.val_main_v5 (F := Ideal) e (ix1 b)).toInt = (n.val : Int)),
        scaledProduct x w (kDinvCol (F := Ideal) (Cert.ReferenceIdeal.Read.val_main_v5 (F := Ideal) e)) (ix2 (rowOf (Cert.ReferenceIdeal.Read.val_main_v2 (F := Ideal) e (ix1 b))) j)
      = ∑ b ∈ Finset.univ.filter (fun b : Fin 300000 => (Cert.ReferenceIdeal.Read.val_main_v5 (F := Ideal) e (ix1 b)).toInt = (n.val : Int)),
        colProd x w j (rowOf (Cert.ReferenceIdeal.Read.val_main_v2 (F := Ideal) e (ix1 b))) * nodeScale e (rowOf (Cert.ReferenceIdeal.Read.val_main_v2 (F := Ideal) e (ix1 b))) :=
    Finset.sum_congr rfl fun b _ => hsp _
  rw [hL, conv_law _ (fun b : Fin 300000 => rowOf (Cert.ReferenceIdeal.Read.val_main_v2 (F := Ideal) e (ix1 b))) (fun b : Fin 300000 => rowOf (Cert.ReferenceIdeal.Read.val_main_v5 (F := Ideal) e (ix1 b))) n
    (colProd x w j) (nodeScale e) (colProd_real x w hx hw j) (nodeScale_real e) ht]

/-- A layer of real features, weights and bias rows is real. -/
theorem layer_real (x : (⟨S20000x256, .f32⟩ : BufTy).Contents (Elt Ideal)) (w : (⟨S256x256, .f32⟩ : BufTy).Contents (Elt Ideal)) (brow : (⟨S20000x256, .f32⟩ : BufTy).Contents (Elt Ideal))
    (hx : ∀ i, IsReal (x i)) (hw : ∀ i, IsReal (w i)) (hb : ∀ i, IsReal (brow i)) (i : S20000x256.Idx) :
    IsReal (kLayer (F := Ideal) (scaledProduct x w (kDinvCol (F := Ideal) (Cert.ReferenceIdeal.Read.val_main_v5 (F := Ideal) e))) x (kDinvCol (F := Ideal) (Cert.ReferenceIdeal.Read.val_main_v5 (F := Ideal) e))
        (Cert.ReferenceIdeal.Read.val_main_v2 (F := Ideal) e) (Cert.ReferenceIdeal.Read.val_main_v5 (F := Ideal) e) brow i) := by
  obtain ⟨n, j, rfl⟩ : ∃ (n : Fin 20000) (j : Fin 256), i = ix2 n j := ⟨i 0, i 1, eq_ix2 i⟩
  have hsp : ∀ r : Fin 20000, IsReal (scaledProduct x w (kDinvCol (F := Ideal) (Cert.ReferenceIdeal.Read.val_main_v5 (F := Ideal) e)) (ix2 r j)) := fun r => by
    rw [scaledProduct_real_apply e x w hx hw r j]
    exact (colProd_real x w hx hw j r).mul (nodeScale_real e r)
  rw [kLayer_apply, scaleCol_eq]
  exact IsReal.max ((hx _).add (((nodeScale_real e n).mul
    ((IsReal.zero.add (IsReal.sum _ _ fun b _ => hsp _)).add (hsp n))).add (hb _))) IsReal.zero

end Cert.Gcn

end
-- ==== Proof.NetworkEq.lean ====
/-
  The kernel's network is the reference's, on real arguments.

  The embedded features are rows of the embedding table, the layers' weights and bias rows are slices of their
  arguments: all real when the arguments are. Layer by layer the kernel's step is then the reference's layer and
  its output is real again, so the fourth step's output is the reference's last layer; the two programs end with
  the same operations on it.
-/
import proofs.«111923_j23871428231325_2_alg».proof.Proof.Network
import proofs.«111923_j23871428231325_2_alg».proof.Proof.LayerEq

noncomputable section

namespace Cert.Gcn

open Idealize.ShloMosaic Idealize.ShloMosaic.ValueIdx Cert.KernelIdeal Cert.KernelIdeal.Gen

/-- The reference's gather of the embedding's rows is the gather of rows of the general lemma. -/
theorem embedGather_eq : Cert.ReferenceIdeal.gather_S101x256_S20000x1_S20000x256_1_0_n_n_0_1_1256
    = GatherRows.rowDims 101 256 20000 Cert.ReferenceIdeal.gather_S101x256_S20000x1_S20000x256_1_0_n_n_0_1_1256.wf := rfl

/-- The embedded features are entries of the embedding table. -/
theorem embedded_real (a0 : (⟨S20000, .i32⟩ : BufTy).Contents (Elt Ideal)) (a3 : (⟨S101x256, .f32⟩ : BufTy).Contents (Elt Ideal)) (h3 : ∀ i, IsReal (a3 i))
    (i : S20000x256.Idx) : IsReal (Cert.ReferenceIdeal.Read.val_main_v35 (F := Ideal) a0 a3 i) := by
  obtain ⟨n, j, rfl⟩ : ∃ (n : Fin 20000) (j : Fin 256), i = ix2 n j := ⟨i 0, i 1, eq_ix2 i⟩
  unfold Cert.ReferenceIdeal.Read.val_main_v35
  rw [embedGather_eq]
  exact (congrArg IsReal (GatherRows.gather_rows_apply (by decide) _ a3 _ n j)).mpr (h3 _)

variable (a4 : (⟨S4x256x256, .f32⟩ : BufTy).Contents (Elt Ideal)) (a5 : (⟨S4x256, .f32⟩ : BufTy).Contents (Elt Ideal))

theorem weights37_real (h4 : ∀ i, IsReal (a4 i)) (i : S256x256.Idx) : IsReal (Cert.ReferenceIdeal.Read.val_main_v37 (F := Ideal) a4 i) := by
  rw [Cert.ReferenceIdeal.Read.val_main_v37_apply, Cert.ReferenceIdeal.Read.val_main_v36_apply]
  exact h4 _

theorem weights60_real (h4 : ∀ i, IsReal (a4 i)) (i : S256x256.Idx) : IsReal (Cert.ReferenceIdeal.Read.val_main_v60 (F := Ideal) a4 i) := by
  rw [Cert.ReferenceIdeal.Read.val_main_v60_apply, Cert.ReferenceIdeal.Read.val_main_v59_apply]
  exact h4 _

theorem weights83_real (h4 : ∀ i, IsReal (a4 i)) (i : S256x256.Idx) : IsReal (Cert.ReferenceIdeal.Read.val_main_v83 (F := Ideal) a4 i) := by
  rw [Cert.ReferenceIdeal.Read.val_main_v83_apply, Cert.ReferenceIdeal.Read.val_main_v82_apply]
  exact h4 _

theorem weights106_real (h4 : ∀ i, IsReal (a4 i)) (i : S256x256.Idx) : IsReal (Cert.ReferenceIdeal.Read.val_main_v106 (F := Ideal) a4 i) := by
  rw [Cert.ReferenceIdeal.Read.val_main_v106_apply, Cert.ReferenceIdeal.Read.val_main_v105_apply]
  exact h4 _

theorem bias55_real (h5 : ∀ i, IsReal (a5 i)) (i : S20000x256.Idx) : IsReal (Cert.ReferenceIdeal.Read.val_main_v55 (F := Ideal) a5 i) := by
  rw [Cert.ReferenceIdeal.Read.val_main_v55_apply, Cert.ReferenceIdeal.Read.val_main_v54_apply, Cert.ReferenceIdeal.Read.val_main_v53_apply, Cert.ReferenceIdeal.Read.val_main_v52_apply]
  exact h5 _

theorem bias78_real (h5 : ∀ i, IsReal (a5 i)) (i : S20000x256.Idx) : IsReal (Cert.ReferenceIdeal.Read.val_main_v78 (F := Ideal) a5 i) := by
  rw [Cert.ReferenceIdeal.Read.val_main_v78_apply, Cert.ReferenceIdeal.Read.val_main_v77_apply, Cert.ReferenceIdeal.Read.val_main_v76_apply, Cert.ReferenceIdeal.Read.val_main_v75_apply]
  exact h5 _

theorem bias101_real (h5 : ∀ i, IsReal (a5 i)) (i : S20000x256.Idx) : IsReal (Cert.ReferenceIdeal.Read.val_main_v101 (F := Ideal) a5 i) := by
  rw [Cert.ReferenceIdeal.Read.val_main_v101_apply, Cert.ReferenceIdeal.Read.val_main_v100_apply, Cert.ReferenceIdeal.Read.val_main_v99_apply, Cert.ReferenceIdeal.Read.val_main_v98_apply]
  exact h5 _

theorem bias124_real (h5 : ∀ i, IsReal (a5 i)) (i : S20000x256.Idx) : IsReal (Cert.ReferenceIdeal.Read.val_main_v124 (F := Ideal) a5 i) := by
  rw [Cert.ReferenceIdeal.Read.val_main_v124_apply, Cert.ReferenceIdeal.Read.val_main_v123_apply, Cert.ReferenceIdeal.Read.val_main_v122_apply, Cert.ReferenceIdeal.Read.val_main_v121_apply]
  exact h5 _

/-- The two programs end with the same operations on the last layer's output. -/
theorem tail_eq (a0 : (⟨S20000, .i32⟩ : BufTy).Contents (Elt Ideal)) (a1 : (⟨S2x300000, .i32⟩ : BufTy).Contents (Elt Ideal)) (a2 : (⟨S20000, .i32⟩ : BufTy).Contents (Elt Ideal))
    (a3 : (⟨S101x256, .f32⟩ : BufTy).Contents (Elt Ideal)) (a4 : (⟨S4x256x256, .f32⟩ : BufTy).Contents (Elt Ideal)) (a5 : (⟨S4x256, .f32⟩ : BufTy).Contents (Elt Ideal))
    (a6 : (⟨S256x1, .f32⟩ : BufTy).Contents (Elt Ideal)) (a7 : (⟨S1, .f32⟩ : BufTy).Contents (Elt Ideal)) :
    Cert.ReferenceIdeal.Read.val_main_v143 (F := Ideal) a0 a1 a2 a3 a4 a5 a6 a7 = kTail (F := Ideal) (Cert.ReferenceIdeal.Read.val_main_v127 (F := Ideal) a0 a1 a3 a4 a5) a2 a6 a7 := rfl

/-- THE NETWORKS AGREE: on a real embedding table, weights and biases the kernel's result is the reference's. -/
theorem network_eq (a0 : (⟨S20000, .i32⟩ : BufTy).Contents (Elt Ideal)) (a1 : (⟨S2x300000, .i32⟩ : BufTy).Contents (Elt Ideal)) (a2 : (⟨S20000, .i32⟩ : BufTy).Contents (Elt Ideal))
    (a3 : (⟨S101x256, .f32⟩ : BufTy).Contents (Elt Ideal)) (a4 : (⟨S4x256x256, .f32⟩ : BufTy).Contents (Elt Ideal)) (a5 : (⟨S4x256, .f32⟩ : BufTy).Contents (Elt Ideal))
    (a6 : (⟨S256x1, .f32⟩ : BufTy).Contents (Elt Ideal)) (a7 : (⟨S1, .f32⟩ : BufTy).Contents (Elt Ideal))
    (h3 : ∀ i, IsReal (a3 i)) (h4 : ∀ i, IsReal (a4 i)) (h5 : ∀ i, IsReal (a5 i)) :
    kResult a0 a1 a2 a3 a4 a5 a6 a7 = Cert.ReferenceIdeal.Read.val_main_v143 (F := Ideal) a0 a1 a2 a3 a4 a5 a6 a7 := by
  have r0 : ∀ i, IsReal (Cert.ReferenceIdeal.Read.val_main_v35 (F := Ideal) a0 a3 i) := embedded_real a0 a3 h3
  have e1 : kX1 a0 a1 a3 a4 a5 = Cert.ReferenceIdeal.Read.val_main_v58 (F := Ideal) a0 a1 a3 a4 a5 := by
    unfold kX1 kStep
    rw [layer_eq a1 _ _ _ r0 (weights37_real a4 h4), layer1_eq]
  have r1 : ∀ i, IsReal (Cert.ReferenceIdeal.Read.val_main_v58 (F := Ideal) a0 a1 a3 a4 a5 i) := by
    rw [← e1]; unfold kX1 kStep
    exact layer_real a1 _ _ _ r0 (weights37_real a4 h4) (bias55_real a5 h5)
  have e2 : kX2 a0 a1 a3 a4 a5 = Cert.ReferenceIdeal.Read.val_main_v81 (F := Ideal) a0 a1 a3 a4 a5 := by
    unfold kX2
    rw [e1]
    unfold kStep
    rw [layer_eq a1 _ _ _ r1 (weights60_real a4 h4), layer2_eq]
  have r2 : ∀ i, IsReal (Cert.ReferenceIdeal.Read.val_main_v81 (F := Ideal) a0 a1 a3 a4 a5 i) := by
    rw [← e2]; unfold kX2; rw [e1]; unfold kStep
    exact layer_real a1 _ _ _ r1 (weights60_real a4 h4) (bias78_real a5 h5)
  have e3 : kX3 a0 a1 a3 a4 a5 = Cert.ReferenceIdeal.Read.val_main_v104 (F := Ideal) a0 a1 a3 a4 a5 := by
    unfold kX3
    rw [e2]
    unfold kStep
    rw [layer_eq a1 _ _ _ r2 (weights83_real a4 h4), layer3_eq]
  have r3 : ∀ i, IsReal (Cert.ReferenceIdeal.Read.val_main_v104 (F := Ideal) a0 a1 a3 a4 a5 i) := by
    rw [← e3]; unfold kX3; rw [e2]; unfold kStep
    exact layer_real a1 _ _ _ r2 (weights83_real a4 h4) (bias101_real a5 h5)
  have e4 : kX4 a0 a1 a3 a4 a5 = Cert.ReferenceIdeal.Read.val_main_v127 (F := Ideal) a0 a1 a3 a4 a5 := by
    unfold kX4
    rw [e3]
    unfold kStep
    rw [layer_eq a1 _ _ _ r3 (weights106_real a4 h4), layer4_eq]
  unfold kResult
  rw [e4, tail_eq]

end Cert.Gcn

end
-- ==== Proof.Finite.lean ====
/-
  The precondition: every entry of the embedding table, the weights and the biases is a real number.

  The precondition is the conjunction, over the five float arguments, of "every entry's absolute value is below
  plus infinity". An extended real whose absolute value is below plus infinity is neither infinity, so it is a real
  number.
-/
import proofs.«111923_j23871428231325_2_alg».proof.Pre_finite_inputs
import proofs.«111923_j23871428231325_2_alg».proof.Proof.Gen.Pre_finite_inputs
import proofs.«111923_j23871428231325_2_alg».proof.Proof.RealLaws
import proofs.«111923_j23871428231325_2_alg».proof.Proof.LibColumn
import Idealize.ShloMosaic.Lib.ReduceAll
import Idealize.ShloMosaic.Lib.Affine
import Idealize.ShloMosaic.Lib.ValueIdx

noncomputable section

namespace Cert.Gcn

open Idealize.ShloMosaic Cert.Pre_finite_inputs Cert.Pre_finite_inputs.Gen

instance scalarIdxSubsingleton : Subsingleton S_.Idx := ⟨fun a b => funext fun d => d.elim0⟩

/-- The word of plus infinity denotes the top element. -/
theorem ofBits_inf : Ideal.ofBits .f32 0x7F800000#32 = ⊤ := by simp [Ideal.ofBits, Ideal.ieee]

/-- An extended real whose absolute value compares below plus infinity is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hc
    have h0 : Ideal.cmp .olt (max x (-x)) ⊤ = 0#1 := by
      show BitVec.ofBool (decide (max x (-x) < ⊤)) = 0#1
      simp [hc]
    rw [h0] at h
    exact absurd h (by decide)
  induction x using EReal.rec with
  | bot => simp at hlt
  | coe r => exact IsReal.coe r
  | top => simp at hlt

/-- The scalar plus infinity broadcast to any shape reads plus infinity's word. -/
theorem infArray_apply {t : Shape} (hb : S_.BroadcastsInDim t (![] : Fin 0 → Fin t.rank)) (i : t.Idx) :
    broadcastInDim t ![] hb (constant (F := Ideal) S_ .f32 0x7F800000#32) i = Ideal.ofBits .f32 0x7F800000#32 :=
  Column.broadcastInDim_scalar_apply _ hb _ i

/-- Under the precondition the embedding table, the weights and the biases hold real numbers. -/
theorem real_of_pre (a0 : IVec S20000 32) (a1 : IVec S2x300000 32) (a2 : IVec S20000 32)
    (a3 : FVec Ideal S101x256 .f32) (a4 : FVec Ideal S4x256x256 .f32) (a5 : FVec Ideal S4x256 .f32)
    (a6 : FVec Ideal S256x1 .f32) (a7 : FVec Ideal S1 .f32)
    (h : fn (F := Ideal) a0 a1 a2 a3 a4 a5 a6 a7 = fun _ => 1#1) :
    (∀ i, IsReal (a3 i)) ∧ (∀ i, IsReal (a4 i)) ∧ (∀ i, IsReal (a5 i)) := by
  have h0 := congrFun h ValueIdx.ix0
  dsimp only [fn, fn_part1] at h0
  obtain ⟨h18, -⟩ := IntOp.andi_eq_one.mp h0
  obtain ⟨h13, -⟩ := IntOp.andi_eq_one.mp h18
  obtain ⟨h8, h12⟩ := IntOp.andi_eq_one.mp h13
  obtain ⟨h3, h7⟩ := IntOp.andi_eq_one.mp h8
  refine ⟨fun i => ?_, fun i => ?_, fun i => ?_⟩
  · have hi := Host.reduce_andi_all _ _ reducesTo_S101x256_S_d0_1 h_S_ ValueIdx.ix0 h3 i
    refine isReal_of_abs_lt_inf (a3 i) ?_
    rw [← infArray_apply bcast_S_S101x256 i]
    exact hi
  · have hi := Host.reduce_andi_all _ _ reducesTo_S4x256x256_S_d0_1_2 h_S_ ValueIdx.ix0 h7 i
    refine isReal_of_abs_lt_inf (a4 i) ?_
    rw [← infArray_apply bcast_S_S4x256x256 i]
    exact hi
  · have hi := Host.reduce_andi_all _ _ reducesTo_S4x256_S_d0_1 h_S_ ValueIdx.ix0 h12 i
    refine isReal_of_abs_lt_inf (a5 i) ?_
    rw [← infArray_apply bcast_S_S4x256 i]
    exact hi

end Cert.Gcn

end
-- ==== Proof.lean ====
/-
  The certificate: a graph convolution network whose dense products run in a Pallas kernel, against its jnp reference.

  Both programs embed 20000 atoms, apply four layers `x ↦ relu (x + A (x · w) + b)` over a graph of 300000 edges
  plus one self-loop per node, average the nodes of each graph and apply a last linear map. The aggregate `A` weighs
  the row of an edge's source by `dinv source · dinv destination`, with `dinv n = rsqrt (max (indegree n + 1) 1)`.
  The reference gathers, weighs and adds up the 320000 joined entries. The kernel's program multiplies the rows of
  `x · w` by `dinv` inside the kernel (where the product itself is taken in three passes over high and low parts
  of the operands), adds up the edges' rows and the node's own, and multiplies the total by `dinv` once more. Over
  the extended reals the high part of a number is the number, the low part a difference `x - x`, and the common
  factor leaves the sum: all true of real numbers, which is what the precondition gives and every layer keeps.

  The frames are the generated ones; the reference's run and its stages are generated; the kernel's run with its
  result, the values along its seventeen segments and the comparison of the two networks are in the modules
  imported here.
-/
import proofs.«111923_j23871428231325_2_alg».proof.Defs
import proofs.«111923_j23871428231325_2_alg».proof.Proof.Gen.Kernel
import proofs.«111923_j23871428231325_2_alg».proof.Proof.Gen.Kernel.Skeleton
import proofs.«111923_j23871428231325_2_alg».proof.Proof.Gen.Kernel.Launch
import proofs.«111923_j23871428231325_2_alg».proof.Proof.Gen.Kernel.Points
import proofs.«111923_j23871428231325_2_alg».proof.Proof.Gen.Kernel.Frame
import proofs.«111923_j23871428231325_2_alg».proof.Proof.Gen.KernelIdeal
import proofs.«111923_j23871428231325_2_alg».proof.Proof.Gen.KernelIdeal.Skeleton
import proofs.«111923_j23871428231325_2_alg».proof.Proof.Gen.KernelIdeal.Launch
import proofs.«111923_j23871428231325_2_alg».proof.Proof.Gen.KernelIdeal.Points
import proofs.«111923_j23871428231325_2_alg».proof.Proof.Gen.KernelIdeal.Frame
import proofs.«111923_j23871428231325_2_alg».proof.Proof.Gen.ReferenceIdeal
import proofs.«111923_j23871428231325_2_alg».proof.Proof.Gen.ReferenceIdeal.Run
import proofs.«111923_j23871428231325_2_alg».proof.Proof.Gen.ReferenceIdeal.Read
import proofs.«111923_j23871428231325_2_alg».proof.Proof.Gen.Pre_finite_inputs
import proofs.«111923_j23871428231325_2_alg».proof.Proof.KernelRun
import proofs.«111923_j23871428231325_2_alg».proof.Proof.KernelValue
import proofs.«111923_j23871428231325_2_alg».proof.Proof.NetworkEq
import proofs.«111923_j23871428231325_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The eight rewrites of the ideal pass: a number narrowed to bf16 and widened back is, over the extended reals,
    the number. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both programs run, and from memories that agree on the arguments end with the same result: the kernel's is its
    network's result on the arguments, the reference's its last stage, and under the precondition the two are equal. -/
theorem algebraic : Cert.algebraic_KernelIdeal_ReferenceIdeal := by
  intro m ρ m' ρ' hpre hagree
  refine ⟨fun c => Cert.KernelIdeal.Gen.W17 m ρ c (Proc.devRef .tc Cert.KernelIdeal.main_v128),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨r3, r4, r5⟩ := Cert.Gcn.real_of_pre _ _ _ _ _ _ _ _ (hpre c)
  rw [Cert.ReferenceIdeal.Read.val_main_v143_eq, h0, h1, h2, h3, h4, h5, h6, h7]
  exact ((Cert.Gcn.result_eq m ρ c).trans (Cert.Gcn.network_eq _ _ _ _ _ _ _ _ r3 r4 r5)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
